-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 69
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S1x8192, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S1x8192, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x256, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x256, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S1x8192, .f32⟩
  | .hbm, ⟨58, _⟩ => ⟨S8192x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1024x1, .f32⟩
  | .local _ .vmem, ⟨19, _⟩ => ⟨S1024x1, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x1, .f32⟩
  | .local _ .vmem, ⟨25, _⟩ => ⟨S1024x1, .f32⟩
  | .local _ .vmem, ⟨26, _⟩ => ⟨S1x1024, .f32⟩
  | .local _ .vmem, ⟨27, _⟩ => ⟨S1x1024, .f32⟩
  | .local _ .vmem, ⟨28, _⟩ => ⟨S1024x1, .f32⟩
  | .local _ .vmem, ⟨29, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_v36 : Ref sig .tc := ⟨.hbm, 53, rfl⟩
abbrev main_cst_14 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_cst_16 : Ref sig .tc := ⟨.hbm, 61, rfl⟩
abbrev main_v42 : Ref sig .tc := ⟨.hbm, 62, rfl⟩
abbrev main_cst_17 : Ref sig .tc := ⟨.hbm, 63, rfl⟩
abbrev main_v43 : Ref sig .tc := ⟨.hbm, 64, rfl⟩
abbrev main_v44 : Ref sig .tc := ⟨.hbm, 65, rfl⟩
abbrev main_cst_18 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x256, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x256, .f32⟩
  | .hbm, ⟨64, _⟩ => ⟨S_, .f32⟩
  | .hbm, ⟨65, _⟩ => ⟨S8192, .f32⟩
  | .hbm, ⟨66, _⟩ => ⟨S8192x256, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S1x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_v59 : Ref sig .tc := ⟨.hbm, 81, rfl⟩
abbrev main_cst_19 : Ref sig .tc := ⟨.hbm, 82, rfl⟩
abbrev main_v60 : Ref sig .tc := ⟨.hbm, 83, rfl⟩
abbrev main_v61 : Ref sig .tc := ⟨.hbm, 84, rfl⟩
abbrev main_cst_20 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_21 : Ref sig .tc := ⟨.hbm, 89, rfl⟩
abbrev main_v65 : Ref sig .tc := ⟨.hbm, 90, rfl⟩
abbrev main_cst_22 : Ref sig .tc := ⟨.hbm, 91, rfl⟩
abbrev main_v66 : Ref sig .tc := ⟨.hbm, 92, rfl⟩
abbrev main_cst_23 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibZero.lean ====
/-
  The offset vector [0, 0] of a rank-2 rectangle is the constant zero function: the form in which lemmas about
  a rectangle that starts at the origin ask for it.
-/
import Mathlib.Data.Fin.VecNotation

namespace Cert.LibZero

/-- The offset [0, 0] is the zero offset. -/
theorem zero2 : (![0, 0] : Fin 2 → Nat) = fun _ => 0 := by
  funext a
  match a with
  | ⟨0, _⟩ => rfl
  | ⟨1, _⟩ => rfl

end Cert.LibZero
-- ==== Proof.KernelBody0.lean ====
/-
  Kernel region 0 (the x–x pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelLaunchP
import proofs.«170219_j46866683134277_2_alg».proof.Proof.Gen.Kernel.Skeleton
import proofs.«170219_j46866683134277_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond0_0 (i : grid0.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)
set_option maxHeartbeats 1000000 in
/-- The body of custom_call 0 at a point with j = 0: the accumulator block is filled with zeros, read back, and the
    tile's row sums are added to it; the four input blocks are left as they were. -/
theorem sound_kernel0_A (c : Dev nD) (E : Set ℕ) (i : grid0.Coords) (hc : cond0_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x2 x3 (k0_pay1 (F := F)))) -∗ K ⟨⟩))
      ⊢ wp frame (wpE (defs₀ (F := F)) Variants.none c none) E (cc0__mmd_partial_kernel i arg2 harg2 arg3 harg3 arg4 harg4 arg5 harg5 arg6 harg6) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 0 at a point with j ≠ 0: the tile's row sums are added to what the accumulator block held;
    the four input blocks are left as they were. -/
theorem sound_kernel0_B (c : Dev nD) (E : Set ℕ) (i : grid0.Coords) (hc : ¬cond0_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x2 x3 xo)) -∗ K ⟨⟩))
      ⊢ wp frame (wpE (defs₀ (F := F)) Variants.none c none) E (cc0__mmd_partial_kernel i arg2 harg2 arg3 harg3 arg4 harg4 arg5 harg5 arg6 harg6) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 0 of @main: custom_call 0, at the contents `V` its arrays hold when it is entered -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION over j. What the output block holds after the body at the n-th point (row-major, n = 8·i + j):
    at j = 0 the tile's row sums added to zeros; at j > 0 the tile's row sums added to what the point before left. -/
def outsAt0 (c : Dev nD) : (n : ℕ) → n < cfg0.N → Vec F S1024x1 .f32
  | 0, hn => k0_pay2 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then
      k0_pay2 (iblk0 V c 0 ⟨n + 1, hn⟩) (iblk0 V c 1 ⟨n + 1, hn⟩) (iblk0 V c 2 ⟨n + 1, hn⟩) (iblk0 V c 3 ⟨n + 1, hn⟩) (k0_pay1 (F := F))
    else
      k0_pay2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a point with j = 0 the accumulation restarts from zeros. -/
theorem outsAt0_A (c : Dev nD) (t : Fin cfg0.N) (h0 : t.val % 8 = 0) :
    outsAt0 V c t.val t.isLt = k0_pay2 (iblk0 V c 0 t) (iblk0 V c 1 t) (iblk0 V c 2 t) (iblk0 V c 3 t) (k0_pay1 (F := F)) := by
  obtain ⟨n, hn⟩ := t
  cases n with
  | zero => exact rfl
  | succ n => exact (if_pos h0).trans rfl

/-- At a point with j ≠ 0 it continues from the point before. -/
theorem outsAt0_B (c : Dev nD) (t : Fin cfg0.N) (h0 : ¬t.val % 8 = 0) :
    outsAt0 V c t.val t.isLt = k0_pay2 (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 0 on core `c`: the arrays as the region finds them; after the body at point `t` each input's
    buffer at its block and the output's at the accumulation; the invariant is the scoped rest and the generator register,
    untouched; nothing owed; the two windows that read one array hold it at complementary half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j ≠ 0 the output's current staging buffer holds what the body left at the point before: the block index
    (i, 0) has not moved and the buffer is written back only after j = 7. -/
theorem before0_4_B (c : Dev nD) (t : Fin cfg0.N) (h0 : ¬t.val % 8 = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the inputs' buffers hold their blocks; by the second grid coordinate the point restarts the
    accumulation (j = 0) or continues it from what the output's buffer kept from the point before (j ≠ 0). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr h0) _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 ((hcond0_0 t).mp h)) _ _ _ _ _ _ _ _ _ _ (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KernelBody1.lean ====
/-
  Kernel region 1 (the y–y pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelLaunchP
import proofs.«170219_j46866683134277_2_alg».proof.Proof.Gen.Kernel.Skeleton
import proofs.«170219_j46866683134277_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond1_0 (i : grid1.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond1_0 : ∀ t : Fin cfg1.N, cond1_0 (grid1.coords t) ↔ t.val % 8 = 0 :=
  (by decide +kernel : ∀ t : Fin grid1.N, cond1_0 (grid1.coords t) ↔ t.val % 8 = 0)
set_option maxHeartbeats 1000000 in
/-- The body of custom_call 1 at a point with j = 0: the accumulator block is filled with zeros, read back, and the
    tile's row sums are added to it; the four input blocks are left as they were. -/
theorem sound_kernel1_A (c : Dev nD) (E : Set ℕ) (i : grid1.Coords) (hc : cond1_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 x2 x3 (k1_pay1 (F := F)))) -∗ K ⟨⟩))
      ⊢ wp frame (wpE (defs₀ (F := F)) Variants.none c none) E (cc1__mmd_partial_kernel i arg2 harg2 arg3 harg3 arg4 harg4 arg5 harg5 arg6 harg6) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 1 at a point with j ≠ 0: the tile's row sums are added to what the accumulator block held;
    the four input blocks are left as they were. -/
theorem sound_kernel1_B (c : Dev nD) (E : Set ℕ) (i : grid1.Coords) (hc : ¬cond1_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 x2 x3 xo)) -∗ K ⟨⟩))
      ⊢ wp frame (wpE (defs₀ (F := F)) Variants.none c none) E (cc1__mmd_partial_kernel i arg2 harg2 arg3 harg3 arg4 harg4 arg5 harg5 arg6 harg6) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 1 of @main: custom_call 1, at the contents `V` its arrays hold when it is entered -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION over j. What the output block holds after the body at the n-th point (row-major, n = 8·i + j):
    at j = 0 the tile's row sums added to zeros; at j > 0 the tile's row sums added to what the point before left. -/
def outsAt1 (c : Dev nD) : (n : ℕ) → n < cfg1.N → Vec F S1024x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (iblk1 V c 3 ⟨n + 1, hn⟩) (k1_pay1 (F := F))
    else
      k1_pay2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a point with j = 0 the accumulation restarts from zeros. -/
theorem outsAt1_A (c : Dev nD) (t : Fin cfg1.N) (h0 : t.val % 8 = 0) :
    outsAt1 V c t.val t.isLt = k1_pay2 (iblk1 V c 0 t) (iblk1 V c 1 t) (iblk1 V c 2 t) (iblk1 V c 3 t) (k1_pay1 (F := F)) := by
  obtain ⟨n, hn⟩ := t
  cases n with
  | zero => exact rfl
  | succ n => exact (if_pos h0).trans rfl

/-- At a point with j ≠ 0 it continues from the point before. -/
theorem outsAt1_B (c : Dev nD) (t : Fin cfg1.N) (h0 : ¬t.val % 8 = 0) :
    outsAt1 V c t.val t.isLt = k1_pay2 (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 1 on core `c`: the arrays as the region finds them; after the body at point `t` each input's
    buffer at its block and the output's at the accumulation; the invariant is the scoped rest and the generator register,
    untouched; nothing owed; the two windows that read one array hold it at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j ≠ 0 the output's current staging buffer holds what the body left at the point before: the block index
    (i, 0) has not moved and the buffer is written back only after j = 7. -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the inputs' buffers hold their blocks; by the second grid coordinate the point restarts the
    accumulation (j = 0) or continues it from what the output's buffer kept from the point before (j ≠ 0). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) ((hcond1_0 t).mpr h0) _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) (fun h => h0 ((hcond1_0 t).mp h)) _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KernelBody2.lean ====
/-
  Kernel region 2 (the x–y pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelLaunchP
import proofs.«170219_j46866683134277_2_alg».proof.Proof.Gen.Kernel.Skeleton
import proofs.«170219_j46866683134277_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond2_0 (i : grid2.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond2_0 : ∀ t : Fin cfg2.N, cond2_0 (grid2.coords t) ↔ t.val % 8 = 0 :=
  (by decide +kernel : ∀ t : Fin grid2.N, cond2_0 (grid2.coords t) ↔ t.val % 8 = 0)
set_option maxHeartbeats 1000000 in
/-- The body of custom_call 2 at a point with j = 0: the accumulator block is filled with zeros, read back, and the
    tile's row sums are added to it; the four input blocks are left as they were. -/
theorem sound_kernel2_A (c : Dev nD) (E : Set ℕ) (i : grid2.Coords) (hc : cond2_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1 x2 x3 (k2_pay1 (F := F)))) -∗ K ⟨⟩))
      ⊢ wp frame (wpE (defs₀ (F := F)) Variants.none c none) E (cc2__mmd_partial_kernel i arg2 harg2 arg3 harg3 arg4 harg4 arg5 harg5 arg6 harg6) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 2 at a point with j ≠ 0: the tile's row sums are added to what the accumulator block held;
    the four input blocks are left as they were. -/
theorem sound_kernel2_B (c : Dev nD) (E : Set ℕ) (i : grid2.Coords) (hc : ¬cond2_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1 x2 x3 xo)) -∗ K ⟨⟩))
      ⊢ wp frame (wpE (defs₀ (F := F)) Variants.none c none) E (cc2__mmd_partial_kernel i arg2 harg2 arg3 harg3 arg4 harg4 arg5 harg5 arg6 harg6) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 2 of @main: custom_call 2, at the contents `V` its arrays hold when it is entered -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not it was fetched there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not it was fetched there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not it was fetched there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION over j. What the output block holds after the body at the n-th point (row-major, n = 8·i + j):
    at j = 0 the tile's row sums added to zeros; at j > 0 the tile's row sums added to what the point before left. -/
def outsAt2 (c : Dev nD) : (n : ℕ) → n < cfg2.N → Vec F S1024x1 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn =>
    if (n + 1) % 8 = 0 then
      k2_pay2 (iblk2 V c 0 ⟨n + 1, hn⟩) (iblk2 V c 1 ⟨n + 1, hn⟩) (iblk2 V c 2 ⟨n + 1, hn⟩) (iblk2 V c 3 ⟨n + 1, hn⟩) (k2_pay1 (F := F))
    else
      k2_pay2 (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a point with j = 0 the accumulation restarts from zeros. -/
theorem outsAt2_A (c : Dev nD) (t : Fin cfg2.N) (h0 : t.val % 8 = 0) :
    outsAt2 V c t.val t.isLt = k2_pay2 (iblk2 V c 0 t) (iblk2 V c 1 t) (iblk2 V c 2 t) (iblk2 V c 3 t) (k2_pay1 (F := F)) := by
  obtain ⟨n, hn⟩ := t
  cases n with
  | zero => exact rfl
  | succ n => exact (if_pos h0).trans rfl

/-- At a point with j ≠ 0 it continues from the point before. -/
theorem outsAt2_B (c : Dev nD) (t : Fin cfg2.N) (h0 : ¬t.val % 8 = 0) :
    outsAt2 V c t.val t.isLt = k2_pay2 (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 2 on core `c`: the arrays as the region finds them; after the body at point `t` each input's
    buffer at its block and the output's at the accumulation; the invariant is the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a point with j ≠ 0 the output's current staging buffer holds what the body left at the point before: the block index
    (i, 0) has not moved and the buffer is written back only after j = 7. -/
theorem before2_4_B (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1600000 in
/-- The body at any point: the inputs' buffers hold their blocks; by the second grid coordinate the point restarts the
    accumulation (j = 0) or continues it from what the output's buffer kept from the point before (j ≠ 0). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 8 = 0
  · rw [outsAt2_A V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) ((hcond2_0 t).mpr h0) _ _ _ _ _ _ _ _ _ _ (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt2_B V c t h0]
    simp only [before2_4_B V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) (fun h => h0 ((hcond2_0 t).mp h)) _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.KernelVals.lean ====
/-
  The contents of every unscoped buffer of a core between @main's items, as a chain from the launch memory:
  a stretch of host operations applies its operations; a kernel region replaces its result array by what the
  pipeline's write-backs leave there (the accumulated row sums, block by block) and changes nothing else.
-/
import proofs.«170219_j46866683134277_2_alg».proof.Proof.KernelBody0
import proofs.«170219_j46866683134277_2_alg».proof.Proof.KernelBody1
import proofs.«170219_j46866683134277_2_alg».proof.Proof.KernelBody2
import proofs.«170219_j46866683134277_2_alg».proof.Proof.KernelRegionsP

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Before region 0: the launch memory after the first host stretch (the squared row norms of x, scaled). -/
abbrev X1 (c : Dev nD) : Valuation τ sig (Elt F) := V1 m c
/-- The same, read at the TensorCore's references: what region 0's proof data take. -/
abbrev T1 : (c : Dev nD) → (b : Ref sig .tc) → Buf (Elt F) ((c : Thread nD τ).loc b) := fun c b => X1 m c b
/-- What region 0 leaves in its result array: the x–x row sums. -/
def O2 (c : Dev nD) : Buf (Elt F) ((c : Thread nD τ).loc main_v11) := (dat0 (T1 m) c).arrAt 4 cfg0.N
/-- After region 0. -/
abbrev X2 (c : Dev nD) : Valuation τ sig (Elt F) := Function.update (X1 m c) main_v11 (O2 m c)
/-- Before region 1: after the second host stretch. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- What region 1 leaves in its result array: the y–y row sums. -/
def O4 (c : Dev nD) : Buf (Elt F) ((c : Thread nD τ).loc main_v25) := (dat1 (T3 m) c).arrAt 4 cfg1.N
/-- After region 1. -/
abbrev X4 (c : Dev nD) : Valuation τ sig (Elt F) := Function.update (X3 m c) main_v25 (O4 m c)
/-- Before region 2: after the third host stretch. -/
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- What region 2 leaves in its result array: the x–y row sums. -/
def O6 (c : Dev nD) : Buf (Elt F) ((c : Thread nD τ).loc main_v40) := (dat2 (T5 m) c).arrAt 4 cfg2.N
/-- After region 2. -/
abbrev X6 (c : Dev nD) : Valuation τ sig (Elt F) := Function.update (X5 m c) main_v40 (O6 m c)
/-- At the end: after the last host stretch (the three means combined, clamped at zero, the square root). -/
abbrev X7 (c : Dev nD) : Valuation τ sig (Elt F) := StableHlo.after hostOps3 (X6 m c)

/-- What the regions leave, as the family the conditional frame's valuations are written over. -/
def outs : Outs (F := F) := fun J r c => match J with
  | 2 => X2 m c r
  | 4 => X4 m c r
  | _ => X6 m c r

theorem V2_eq (c : Dev nD) : V2 m (outs m) c = X2 m c := by
  show Function.update (V1 m c) main_v11 (X2 m c main_v11) = Function.update (X1 m c) main_v11 (O2 m c)
  rw [show X2 m c main_v11 = O2 m c from Function.update_self ..]
theorem V3_eq (c : Dev nD) : V3 m (outs m) c = X3 m c := by
  show StableHlo.after hostOps1 (V2 m (outs m) c) = _; rw [V2_eq]
theorem V4_eq (c : Dev nD) : V4 m (outs m) c = X4 m c := by
  show Function.update (V3 m (outs m) c) main_v25 (X4 m c main_v25) = Function.update (X3 m c) main_v25 (O4 m c)
  rw [V3_eq, show X4 m c main_v25 = O4 m c from Function.update_self ..]
theorem V5_eq (c : Dev nD) : V5 m (outs m) c = X5 m c := by
  show StableHlo.after hostOps2 (V4 m (outs m) c) = _; rw [V4_eq]
theorem V6_eq (c : Dev nD) : V6 m (outs m) c = X6 m c := by
  show Function.update (V5 m (outs m) c) main_v40 (X6 m c main_v40) = Function.update (X5 m c) main_v40 (O6 m c)
  rw [V5_eq, show X6 m c main_v40 = O6 m c from Function.update_self ..]
theorem V7_eq (c : Dev nD) : V7 m (outs m) c = X7 m c := by
  show StableHlo.after hostOps3 (V6 m (outs m) c) = _; rw [V6_eq]

end Cert.Kernel.Gen

end
-- ==== Proof.KernelRegs.lean ====
/-
  The three kernel regions as segments of @main.

  Each region is entered with every unscoped buffer of the core at the contents before it and left with them at
  the contents after it: its result array replaced by what the pipeline's write-backs leave, nothing else
  changed. In regions 0 and 1 the two operand windows stage blocks of ONE array (x with x, y with y): the
  array's ownership is split into two half shares at entry, one per window, and joined again at exit; both
  windows only read it. Region 2's five arrays are distinct.
-/
import proofs.«170219_j46866683134277_2_alg».proof.Proof.KernelBody0
import proofs.«170219_j46866683134277_2_alg».proof.Proof.KernelBody1
import proofs.«170219_j46866683134277_2_alg».proof.Proof.KernelBody2
import proofs.«170219_j46866683134277_2_alg».proof.Proof.KernelRegionsP
import proofs.«170219_j46866683134277_2_alg».proof.Proof.KernelVals

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the core's generator register at some state and its dues, at
    nothing. -/
abbrev Rr (c : Dev nD) : sProp 𝕄 := iprop((∃ r, prngReg c r) ∗ ∃ W, owes (c : Thread nD τ) (0 : CellTallies nD τ sig Unit) W)

/-- Every pipeline's proof data, each at its region's entry contents. -/
def pdats : (p : Fin 3) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c

/-! ## Regions 0 and 1: one array behind two windows -/

/-- The distinct buffers behind region 0's five windows: the two operand windows read one array. -/
theorem arrImage0 : Finset.univ.image (Pipeline.arrRef (cfgs 0).spec) = ({main_arg0, main_v4, main_v10, main_v11} : Finset (Ref sig .tc)) := by decide

/-- ENTRY of region 0. A core's unscoped buffers at contents `V` are the region's arrays at those contents — the array
    its two operand windows both read split into two half shares, one per window; the other three whole — beside the
    unscoped buffers that are no array of the region. -/
theorem entry0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  unfold Pipeline.arrBufs Dat.arrays
  rw [arrImage0, bigSep_W0]
  rw [BI.bigSep_insert (by decide), BI.bigSep_insert (by decide), BI.bigSep_insert (by decide), BI.bigSep_singleton]
  have h0 : (cfg0.win 0).arr.IsWhole := arr_whole0 0
  have h1 : (cfg0.win 1).arr.IsWhole := arr_whole0 1
  have h2 : (cfg0.win 2).arr.IsWhole := arr_whole0 2
  have h3 : (cfg0.win 3).arr.IsWhole := arr_whole0 3
  have h4 : (cfg0.win 4).arr.IsWhole := arr_whole0 4
  simp only [h0.set_eq_univ, h1.set_eq_univ, h2.set_eq_univ, h3.set_eq_univ, h4.set_eq_univ]
  refine (show (iprop((((c.tc : Thread nD τ).loc main_arg0) ↦{fullShare} V c main_arg0) ∗ (((c.tc : Thread nD τ).loc main_v4) ↦{fullShare} V c main_v4)
      ∗ (((c.tc : Thread nD τ).loc main_v10) ↦{fullShare} V c main_v10) ∗ (((c.tc : Thread nD τ).loc main_v11) ↦{fullShare} V c main_v11)) : sProp 𝕄) ⊢ _ from ?_)
  iintro ⟨Hx, H2, H3, H4⟩
  ihave Hx' := (pointsTo_share (PosShare.mem_left_op_right fullShare)).1 $$ Hx
  icases Hx' with ⟨Hxl, Hxr⟩
  isplitl [Hxl]; · iexact Hxl
  isplitl [Hxr]; · iexact Hxr
  isplitl [H2]; · iexact H2
  isplitl [H3]; · iexact H3
  iexact H4
/-- After region 0 every buffer but its result array holds what it held before, -/
theorem X2_of (c : Dev nD) (r : Ref sig .tc) (h : r ≠ main_v11) : X2 m c r = X1 m c r := by
  simp only [X2, Function.update_of_ne (StableHlo.devRef_ne_of_ne h : (Proc.devRef .tc r : DevRef τ sig) ≠ Proc.devRef .tc main_v11)]
/-- and the result array what the pipeline's write-backs left. -/
theorem X2_self (c : Dev nD) : X2 m c main_v11 = O2 m c := Function.update_self ..

set_option maxHeartbeats 2000000 in
/-- EXIT of region 0. The region's arrays at their final contents — the operands unchanged, the result array at what the
    write-backs left, the two half shares of the shared operand joined — beside the unscoped rest as entered are the
    core's unscoped buffers at the contents after the region. -/
theorem exit0 (c : Dev nD) :
    iprop((dat0 (T1 m) c).arrays ((dat0 (T1 m) c).arrAt · cfg0.N)
        ∗ Pipeline.unscopedRest (Ix := Unit) (Name := ℕ) (U := UR sig nD τ) (Lvl := ℕ) spec0 c (T1 m c))
      ⊢ (unscopedBufs (Ix := Unit) (Name := ℕ) (U := UR sig nD τ) (Lvl := ℕ) c (fun b => X2 m c b) : sProp 𝕄) := by
  rw [Pipeline.unscopedBufs_split₀ cfgs 0 winFacts₀0.arr_unscoped c (fun b => X2 m c b)]
  refine sep_mono ?_ (Entails.of_eq ?_)
  · unfold Pipeline.arrBufs Dat.arrays
    rw [arrImage0, bigSep_W0]
    rw [BI.bigSep_insert (by decide), BI.bigSep_insert (by decide), BI.bigSep_insert (by decide), BI.bigSep_singleton]
    have h0 : (cfg0.win 0).arr.IsWhole := arr_whole0 0
    have h1 : (cfg0.win 1).arr.IsWhole := arr_whole0 1
    have h2 : (cfg0.win 2).arr.IsWhole := arr_whole0 2
    have h3 : (cfg0.win 3).arr.IsWhole := arr_whole0 3
    have h4 : (cfg0.win 4).arr.IsWhole := arr_whole0 4
    simp only [h0.set_eq_univ, h1.set_eq_univ, h2.set_eq_univ, h3.set_eq_univ, h4.set_eq_univ]
    rw [(dat0 (T1 m) c).arrAt_in 0 rfl _, (dat0 (T1 m) c).arrAt_in 1 rfl _, (dat0 (T1 m) c).arrAt_in 2 rfl _,
      (dat0 (T1 m) c).arrAt_in 3 rfl _, A_eq0, A_eq0, A_eq0, A_eq0,
      X2_of m c main_arg0 (by decide), X2_of m c main_v4 (by decide), X2_of m c main_v10 (by decide), X2_self m c]
    exact sep_assoc'.trans (sep_mono (pointsTo_share (PosShare.mem_left_op_right fullShare)).2 (sep_mono .rfl (sep_mono .rfl .rfl)))
  · unfold Pipeline.unscopedRest
    refine bigSep_congr fun b hb => ?_
    have hb' : b ∉ Finset.univ.image (Pipeline.arrRef (cfgs 0).spec) := (Finset.mem_sdiff.mp hb).2
    rw [arrImage0] at hb'
    have hne : b ≠ main_v11 := fun e => hb' (by rw [e]; decide)
    dsimp only
    rw [X2_of m c b hne]
/-- The distinct buffers behind region 1's five windows: the two operand windows read one array. -/
theorem arrImage1 : Finset.univ.image (Pipeline.arrRef (cfgs 1).spec) = ({main_arg1, main_v18, main_v24, main_v25} : Finset (Ref sig .tc)) := by decide

/-- ENTRY of region 1. A core's unscoped buffers at contents `V` are the region's arrays at those contents — the array
    its two operand windows both read split into two half shares, one per window; the other three whole — beside the
    unscoped buffers that are no array of the region. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [arrImage1, bigSep_W1]
  rw [BI.bigSep_insert (by decide), BI.bigSep_insert (by decide), BI.bigSep_insert (by decide), BI.bigSep_singleton]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  simp only [h0.set_eq_univ, h1.set_eq_univ, h2.set_eq_univ, h3.set_eq_univ, h4.set_eq_univ]
  refine (show (iprop((((c.tc : Thread nD τ).loc main_arg1) ↦{fullShare} V c main_arg1) ∗ (((c.tc : Thread nD τ).loc main_v18) ↦{fullShare} V c main_v18)
      ∗ (((c.tc : Thread nD τ).loc main_v24) ↦{fullShare} V c main_v24) ∗ (((c.tc : Thread nD τ).loc main_v25) ↦{fullShare} V c main_v25)) : sProp 𝕄) ⊢ _ from ?_)
  iintro ⟨Hx, H2, H3, H4⟩
  ihave Hx' := (pointsTo_share (PosShare.mem_left_op_right fullShare)).1 $$ Hx
  icases Hx' with ⟨Hxl, Hxr⟩
  isplitl [Hxl]; · iexact Hxl
  isplitl [Hxr]; · iexact Hxr
  isplitl [H2]; · iexact H2
  isplitl [H3]; · iexact H3
  iexact H4
/-- After region 1 every buffer but its result array holds what it held before, -/
theorem X4_of (c : Dev nD) (r : Ref sig .tc) (h : r ≠ main_v25) : X4 m c r = X3 m c r := by
  simp only [X4, Function.update_of_ne (StableHlo.devRef_ne_of_ne h : (Proc.devRef .tc r : DevRef τ sig) ≠ Proc.devRef .tc main_v25)]
/-- and the result array what the pipeline's write-backs left. -/
theorem X4_self (c : Dev nD) : X4 m c main_v25 = O4 m c := Function.update_self ..

set_option maxHeartbeats 2000000 in
/-- EXIT of region 1. The region's arrays at their final contents — the operands unchanged, the result array at what the
    write-backs left, the two half shares of the shared operand joined — beside the unscoped rest as entered are the
    core's unscoped buffers at the contents after the region. -/
theorem exit1 (c : Dev nD) :
    iprop((dat1 (T3 m) c).arrays ((dat1 (T3 m) c).arrAt · cfg1.N)
        ∗ Pipeline.unscopedRest (Ix := Unit) (Name := ℕ) (U := UR sig nD τ) (Lvl := ℕ) spec1 c (T3 m c))
      ⊢ (unscopedBufs (Ix := Unit) (Name := ℕ) (U := UR sig nD τ) (Lvl := ℕ) c (fun b => X4 m c b) : sProp 𝕄) := by
  rw [Pipeline.unscopedBufs_split₀ cfgs 1 winFacts₀1.arr_unscoped c (fun b => X4 m c b)]
  refine sep_mono ?_ (Entails.of_eq ?_)
  · unfold Pipeline.arrBufs Dat.arrays
    rw [arrImage1, bigSep_W1]
    rw [BI.bigSep_insert (by decide), BI.bigSep_insert (by decide), BI.bigSep_insert (by decide), BI.bigSep_singleton]
    have h0 : (cfg1.win 0).arr.IsWhole := arr_whole1 0
    have h1 : (cfg1.win 1).arr.IsWhole := arr_whole1 1
    have h2 : (cfg1.win 2).arr.IsWhole := arr_whole1 2
    have h3 : (cfg1.win 3).arr.IsWhole := arr_whole1 3
    have h4 : (cfg1.win 4).arr.IsWhole := arr_whole1 4
    simp only [h0.set_eq_univ, h1.set_eq_univ, h2.set_eq_univ, h3.set_eq_univ, h4.set_eq_univ]
    rw [(dat1 (T3 m) c).arrAt_in 0 rfl _, (dat1 (T3 m) c).arrAt_in 1 rfl _, (dat1 (T3 m) c).arrAt_in 2 rfl _,
      (dat1 (T3 m) c).arrAt_in 3 rfl _, A_eq1, A_eq1, A_eq1, A_eq1,
      X4_of m c main_arg1 (by decide), X4_of m c main_v18 (by decide), X4_of m c main_v24 (by decide), X4_self m c]
    exact sep_assoc'.trans (sep_mono (pointsTo_share (PosShare.mem_left_op_right fullShare)).2 (sep_mono .rfl (sep_mono .rfl .rfl)))
  · unfold Pipeline.unscopedRest
    refine bigSep_congr fun b hb => ?_
    have hb' : b ∉ Finset.univ.image (Pipeline.arrRef (cfgs 1).spec) := (Finset.mem_sdiff.mp hb).2
    rw [arrImage1] at hb'
    have hne : b ≠ main_v25 := fun e => hb' (by rw [e]; decide)
    dsimp only
    rw [X4_of m c b hne]

/-! ## Region 2: five distinct arrays -/

/-- After region 2 every buffer but its result array holds what it held before, -/
theorem X6_of (c : Dev nD) (r : Ref sig .tc) (h : r ≠ main_v40) : X6 m c r = X5 m c r := by
  simp only [X6, Function.update_of_ne (StableHlo.devRef_ne_of_ne h : (Proc.devRef .tc r : DevRef τ sig) ≠ Proc.devRef .tc main_v40)]
/-- and the result array what the pipeline's write-backs left. -/
theorem X6_self (c : Dev nD) : X6 m c main_v40 = O6 m c := Function.update_self ..
/-- The contents after region 2, read at the TensorCore's references. -/
abbrev T6 : (c : Dev nD) → (b : Ref sig .tc) → Buf (Elt F) ((c : Thread nD τ).loc b) := fun c b => X6 m c b

/-- At region 2's exit each of its arrays holds what the pipeline leaves: an operand what it held, the result array the
    write-backs' contents; -/
theorem hF2 (c : Dev nD) : ∀ w : Fin cfg2.W, (pdats m 2 c).arrAt w cfg2.N = T6 m c (Pipeline.arrRef spec2 w)
  | ⟨0, _⟩ => ((dat2 (T5 m) c).arrAt_in 0 rfl _).trans ((A_eq2 (T5 m) c 0).trans (X6_of m c main_arg0 (by decide)).symm)
  | ⟨1, _⟩ => ((dat2 (T5 m) c).arrAt_in 1 rfl _).trans ((A_eq2 (T5 m) c 1).trans (X6_of m c main_arg1 (by decide)).symm)
  | ⟨2, _⟩ => ((dat2 (T5 m) c).arrAt_in 2 rfl _).trans ((A_eq2 (T5 m) c 2).trans (X6_of m c main_v33 (by decide)).symm)
  | ⟨3, _⟩ => ((dat2 (T5 m) c).arrAt_in 3 rfl _).trans ((A_eq2 (T5 m) c 3).trans (X6_of m c main_v39 (by decide)).symm)
  | ⟨4, _⟩ => (X6_self m c).symm
/-- every other buffer what it held at entry. -/
theorem hrest2 (c : Dev nD) : ∀ b, b ∉ Finset.univ.image (Pipeline.arrRef spec2) → T6 m c b = T5 m c b :=
  fun b hb => X6_of m c b fun e => hb (by rw [e]; decide)

/-! ## The three records -/

-- unification of the library's lemmas, stated over the pinned configuration, with this program's configuration unfolds
-- plain definitions inside the type of an unknown
set_option backward.isDefEq.respectTransparency.types false in
/-- Region 0 as a segment of @main: entered with every unscoped buffer at the contents before it, left with them at the
    contents after it (its result array replaced, nothing else changed). Its arrays are taken out of the unscoped
    buffers at entry (the array two windows read is split into two half shares) and put back at exit (the halves joined again); the generator register
    passes through the invariant; nothing is owed; the kernel has no semaphore of its own. -/
def reg0 : Pipeline.RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (X1 m c) ∗ Rr c)
  post c := iprop(StableHlo.held (c : Thread nD τ) (Pipeline.ucRefs τ sig) (X2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (T1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (T1 m c))
        ⊢ (unscopedBufs (Ix := Unit) (Name := ℕ) (U := UR sig nD τ) (Lvl := ℕ) c (fun b => X2 m c b) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with this program's configuration unfolds
-- plain definitions inside the type of an unknown
set_option backward.isDefEq.respectTransparency.types false in
/-- Region 1 as a segment of @main: entered with every unscoped buffer at the contents before it, left with them at the
    contents after it (its result array replaced, nothing else changed). Its arrays are taken out of the unscoped
    buffers at entry (the array two windows read is split into two half shares) and put back at exit (the halves joined again); the generator register
    passes through the invariant; nothing is owed; the kernel has no semaphore of its own. -/
def reg1 : Pipeline.RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (X3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (T3 m c))
        ⊢ (unscopedBufs (Ix := Unit) (Name := ℕ) (U := UR sig nD τ) (Lvl := ℕ) c (fun b => X4 m c b) : sProp 𝕄) := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with this program's configuration unfolds
-- plain definitions inside the type of an unknown
set_option backward.isDefEq.respectTransparency.types false in
/-- Region 2 as a segment of @main: entered with every unscoped buffer at the contents before it, left with them at the
    contents after it (its result array replaced, nothing else changed). Its arrays are taken out of the unscoped
    buffers at entry and put back at exit; the generator register
    passes through the invariant; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (X5 m c) ∗ Rr c)
  post c := iprop(StableHlo.held (c : Thread nD τ) (Pipeline.ucRefs τ sig) (X6 m c) ∗ Rr c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.lean ====
import proofs.«170219_j46866683134277_2_alg».proof.Proof.KernelLaunchP
import Idealize.ShloMosaic.Lib.Pipeline.Frame
import Idealize.ShloMosaic.Lib.Pipeline.Regions
import proofs.«170219_j46866683134277_2_alg».proof.Proof.KernelRegionsP

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-! ## The whole run, given the regions' records -/

-- the launch theorem's implicit arguments are determined by unifying its conclusion with this statement's, which
-- needs plain definitions unfolded inside the type of an unknown
set_option backward.isDefEq.respectTransparency.types false in
/-- THE CONDITIONAL RUN. For any user algebra, level assignment, launch dues and ghost resources, any rest states
    `E` the launch makes on every core at once (`hE0`) and that end owing nothing (`hE3`), any contents the regions
    leave (`outs`) and any proof data: GIVEN, per region K, a segment record entered from the thread state before it
    and left at the one after it (`RK`, `hpreK`, `hpostK`), every weakly fair execution of @main from memory `m`
    with zero counters terminates, and in every final memory every unscoped buffer `b` of every core `c` holds the
    last valuation's contents `V7 m outs c b` — the launch contents carried through the four host stretches
    (`StableHlo.after`) and the three regions' changes (`outs`). The two argument arrays are among these buffers, so
    the conditional frame is this statement read at them through `V7_main_arg0` and `V7_main_arg1`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

/-- info: 'Cert.Kernel.Gen.run_cond' depends on axioms: [propext, Classical.choice, Quot.sound] -/
#guard_msgs in #print axioms run_cond

end Cert.Kernel.Gen

end
-- ==== Proof.KernelMain.lean ====
/-
  The whole run of @main: every weakly fair execution terminates, every unscoped buffer of every core ends at
  the last valuation of the chain (launch memory, host stretch, region 0, host stretch, region 1, host stretch,
  region 2, host stretch). Read at the two argument arrays this is the frame claim; read at the result buffer it
  names the program's value.
-/
import proofs.«170219_j46866683134277_2_alg».proof.Proof.KernelRegs
import proofs.«170219_j46866683134277_2_alg».proof.Proof.KernelRun

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in the type of an unknown
set_option backward.isDefEq.respectTransparency.types false in
/-- THE RUN. Every weakly fair execution of @main terminates, nothing faulting, and in every final memory every
    unscoped buffer of every core holds the last valuation's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

/-- info: 'Cert.Kernel.Gen.run_main' depends on axioms: [propext, Classical.choice, Quot.sound] -/
#guard_msgs in #print axioms run_main

/-- THE FRAME: the two argument arrays end as launched — no host operation and no region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (V7_main_arg0 m (outs m) c),
       (h c _ (mem_uc main_arg1 (by decide))).trans (V7_main_arg1 m (outs m) c)⟩)
    (run_main m ρ)

/-- THE VALUE: the result buffer ends at the last valuation's contents there, beside the unchanged arguments. -/
theorem run_value : θ_run defs (onTc (τ := τ) (main (F := F))) ⟨m, fun _ => 0, ρ⟩ (fun r => ∀ c : Dev nD,
      r.2.mem ((c.tc : Thread nD τ).loc main_v46) = X7 m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_v46 (by decide))).trans (by rw [V7_eq]),
       (h c _ (mem_uc main_arg0 (by decide))).trans (V7_main_arg0 m (outs m) c),
       (h c _ (mem_uc main_arg1 (by decide))).trans (V7_main_arg1 m (outs m) c)⟩)
    (run_main m ρ)

end Cert.Kernel.Gen

end
-- ==== Proof.KernelIdealBody0.lean ====
/-
  Kernel region 0 (the x–x pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelIdealLaunchP
import proofs.«170219_j46866683134277_2_alg».proof.Proof.Gen.KernelIdeal.Skeleton
import proofs.«170219_j46866683134277_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond0_0 (i : grid0.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)
set_option maxHeartbeats 1000000 in
/-- The body of custom_call 0 at a point with j = 0: the accumulator block is filled with zeros, read back, and the
    tile's row sums are added to it; the four input blocks are left as they were. -/
theorem sound_kernel0_A (c : Dev nD) (E : Set ℕ) (i : grid0.Coords) (hc : cond0_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x2 x3 (k0_pay1 (F := F)))) -∗ K ⟨⟩))
      ⊢ wp frame (wpE (defs₀ (F := F)) Variants.none c none) E (cc0__mmd_partial_kernel i arg2 harg2 arg3 harg3 arg4 harg4 arg5 harg5 arg6 harg6) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 0 at a point with j ≠ 0: the tile's row sums are added to what the accumulator block held;
    the four input blocks are left as they were. -/
theorem sound_kernel0_B (c : Dev nD) (E : Set ℕ) (i : grid0.Coords) (hc : ¬cond0_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x2 x3 xo)) -∗ K ⟨⟩))
      ⊢ wp frame (wpE (defs₀ (F := F)) Variants.none c none) E (cc0__mmd_partial_kernel i arg2 harg2 arg3 harg3 arg4 harg4 arg5 harg5 arg6 harg6) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 0 of @main: custom_call 0, at the contents `V` its arrays hold when it is entered -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION over j. What the output block holds after the body at the n-th point (row-major, n = 8·i + j):
    at j = 0 the tile's row sums added to zeros; at j > 0 the tile's row sums added to what the point before left. -/
def outsAt0 (c : Dev nD) : (n : ℕ) → n < cfg0.N → Vec F S1024x1 .f32
  | 0, hn => k0_pay2 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then
      k0_pay2 (iblk0 V c 0 ⟨n + 1, hn⟩) (iblk0 V c 1 ⟨n + 1, hn⟩) (iblk0 V c 2 ⟨n + 1, hn⟩) (iblk0 V c 3 ⟨n + 1, hn⟩) (k0_pay1 (F := F))
    else
      k0_pay2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a point with j = 0 the accumulation restarts from zeros. -/
theorem outsAt0_A (c : Dev nD) (t : Fin cfg0.N) (h0 : t.val % 8 = 0) :
    outsAt0 V c t.val t.isLt = k0_pay2 (iblk0 V c 0 t) (iblk0 V c 1 t) (iblk0 V c 2 t) (iblk0 V c 3 t) (k0_pay1 (F := F)) := by
  obtain ⟨n, hn⟩ := t
  cases n with
  | zero => exact rfl
  | succ n => exact (if_pos h0).trans rfl

/-- At a point with j ≠ 0 it continues from the point before. -/
theorem outsAt0_B (c : Dev nD) (t : Fin cfg0.N) (h0 : ¬t.val % 8 = 0) :
    outsAt0 V c t.val t.isLt = k0_pay2 (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 0 on core `c`: the arrays as the region finds them; after the body at point `t` each input's
    buffer at its block and the output's at the accumulation; the invariant is the scoped rest and the generator register,
    untouched; nothing owed; the two windows that read one array hold it at complementary half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point with j ≠ 0 the output's current staging buffer holds what the body left at the point before: the block index
    (i, 0) has not moved and the buffer is written back only after j = 7. -/
theorem before0_4_B (c : Dev nD) (t : Fin cfg0.N) (h0 : ¬t.val % 8 = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the inputs' buffers hold their blocks; by the second grid coordinate the point restarts the
    accumulation (j = 0) or continues it from what the output's buffer kept from the point before (j ≠ 0). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 8 = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr h0) _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 ((hcond0_0 t).mp h)) _ _ _ _ _ _ _ _ _ _ (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KernelIdealBody1.lean ====
/-
  Kernel region 1 (the y–y pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelIdealLaunchP
import proofs.«170219_j46866683134277_2_alg».proof.Proof.Gen.KernelIdeal.Skeleton
import proofs.«170219_j46866683134277_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond1_0 (i : grid1.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond1_0 : ∀ t : Fin cfg1.N, cond1_0 (grid1.coords t) ↔ t.val % 8 = 0 :=
  (by decide +kernel : ∀ t : Fin grid1.N, cond1_0 (grid1.coords t) ↔ t.val % 8 = 0)
set_option maxHeartbeats 1000000 in
/-- The body of custom_call 1 at a point with j = 0: the accumulator block is filled with zeros, read back, and the
    tile's row sums are added to it; the four input blocks are left as they were. -/
theorem sound_kernel1_A (c : Dev nD) (E : Set ℕ) (i : grid1.Coords) (hc : cond1_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 x2 x3 (k1_pay1 (F := F)))) -∗ K ⟨⟩))
      ⊢ wp frame (wpE (defs₀ (F := F)) Variants.none c none) E (cc1__mmd_partial_kernel i arg2 harg2 arg3 harg3 arg4 harg4 arg5 harg5 arg6 harg6) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 1 at a point with j ≠ 0: the tile's row sums are added to what the accumulator block held;
    the four input blocks are left as they were. -/
theorem sound_kernel1_B (c : Dev nD) (E : Set ℕ) (i : grid1.Coords) (hc : ¬cond1_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 x2 x3 xo)) -∗ K ⟨⟩))
      ⊢ wp frame (wpE (defs₀ (F := F)) Variants.none c none) E (cc1__mmd_partial_kernel i arg2 harg2 arg3 harg3 arg4 harg4 arg5 harg5 arg6 harg6) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 1 of @main: custom_call 1, at the contents `V` its arrays hold when it is entered -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION over j. What the output block holds after the body at the n-th point (row-major, n = 8·i + j):
    at j = 0 the tile's row sums added to zeros; at j > 0 the tile's row sums added to what the point before left. -/
def outsAt1 (c : Dev nD) : (n : ℕ) → n < cfg1.N → Vec F S1024x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (iblk1 V c 3 ⟨n + 1, hn⟩) (k1_pay1 (F := F))
    else
      k1_pay2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a point with j = 0 the accumulation restarts from zeros. -/
theorem outsAt1_A (c : Dev nD) (t : Fin cfg1.N) (h0 : t.val % 8 = 0) :
    outsAt1 V c t.val t.isLt = k1_pay2 (iblk1 V c 0 t) (iblk1 V c 1 t) (iblk1 V c 2 t) (iblk1 V c 3 t) (k1_pay1 (F := F)) := by
  obtain ⟨n, hn⟩ := t
  cases n with
  | zero => exact rfl
  | succ n => exact (if_pos h0).trans rfl

/-- At a point with j ≠ 0 it continues from the point before. -/
theorem outsAt1_B (c : Dev nD) (t : Fin cfg1.N) (h0 : ¬t.val % 8 = 0) :
    outsAt1 V c t.val t.isLt = k1_pay2 (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 1 on core `c`: the arrays as the region finds them; after the body at point `t` each input's
    buffer at its block and the output's at the accumulation; the invariant is the scoped rest and the generator register,
    untouched; nothing owed; the two windows that read one array hold it at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j ≠ 0 the output's current staging buffer holds what the body left at the point before: the block index
    (i, 0) has not moved and the buffer is written back only after j = 7. -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1600000 in
/-- The body at any point: the inputs' buffers hold their blocks; by the second grid coordinate the point restarts the
    accumulation (j = 0) or continues it from what the output's buffer kept from the point before (j ≠ 0). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) ((hcond1_0 t).mpr h0) _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) (fun h => h0 ((hcond1_0 t).mp h)) _ _ _ _ _ _ _ _ _ _ (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KernelIdealBody2.lean ====
/-
  Kernel region 2 (the x–y pair sums): the kernel body run at one grid point, what the output block holds point by
  point, the pipeline's proof data, and the body obligation.

  The grid is 8 × 8 in row-major order, point n = 8·i + j. At every point the body forms, for the 1024 rows of
  block i of the first operand and the 1024 rows of block j of the second, the matrix
  exp(min(s_r + t_c + ⟨a_r, b_c⟩ · 2⁻⁷, 0)) and adds its row sums into the output block i, which it first fills
  with zeros when j = 0. The output block index does not depend on j, so its staging buffer is carried from
  point to point and written back after j = 7.
-/
import proofs.«170219_j46866683134277_2_alg».proof.Proof.KernelIdealLaunchP
import proofs.«170219_j46866683134277_2_alg».proof.Proof.Gen.KernelIdeal.Skeleton
import proofs.«170219_j46866683134277_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«170219_j46866683134277_2_alg».proof.Proof.LibZero

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The body's one branch: taken exactly when the second grid coordinate j is 0. -/
abbrev cond2_0 (i : grid2.Coords) : Prop := (Scalar.cmpi .ne (Scalar.extui (Scalar.cmpi .eq (BitVec.ofNat 32 (i 1).val) 0#32)) 0#32) = 1#1
/-- On the 8 × 8 grid in row-major order, j = 0 at the points that are multiples of 8. -/
theorem hcond2_0 : ∀ t : Fin cfg2.N, cond2_0 (grid2.coords t) ↔ t.val % 8 = 0 :=
  (by decide +kernel : ∀ t : Fin grid2.N, cond2_0 (grid2.coords t) ↔ t.val % 8 = 0)
set_option maxHeartbeats 1000000 in
/-- The body of custom_call 2 at a point with j = 0: the accumulator block is filled with zeros, read back, and the
    tile's row sums are added to it; the four input blocks are left as they were. -/
theorem sound_kernel2_A (c : Dev nD) (E : Set ℕ) (i : grid2.Coords) (hc : cond2_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1 x2 x3 (k2_pay1 (F := F)))) -∗ K ⟨⟩))
      ⊢ wp frame (wpE (defs₀ (F := F)) Variants.none c none) E (cc2__mmd_partial_kernel i arg2 harg2 arg3 harg3 arg4 harg4 arg5 harg5 arg6 harg6) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2, View.readCov_unit_zero (S := S1024x1) _ Cert.LibZero.zero2]
set_option maxHeartbeats 1000000 in
/-- The body of custom_call 2 at a point with j ≠ 0: the tile's row sums are added to what the accumulator block held;
    the four input blocks are left as they were. -/
theorem sound_kernel2_B (c : Dev nD) (E : Set ℕ) (i : grid2.Coords) (hc : ¬cond2_0 i)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole)
    (x0 x1 : Vec F S1024x256 .f32) (x2 : Vec F S1024x1 .f32) (x3 : Vec F S1x1024 .f32) (xo : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1 x2 x3 xo)) -∗ K ⟨⟩))
      ⊢ wp frame (wpE (defs₀ (F := F)) Variants.none c none) E (cc2__mmd_partial_kernel i arg2 harg2 arg3 harg3 arg4 harg4 arg5 harg5 arg6 harg6) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_cons_self, View.mem_set_unit_zero Cert.LibZero.zero2 inb_S1024x1_S1024x1_0_0 y⟩),
    View.canon_cons_unit_zero Cert.LibZero.zero2]
  sl_unfold_run_names
  simp only [View.readAt_eq_ld, View.ld_unit_zero (S := S1024x256) Cert.LibZero.zero2, View.ld_unit_zero (S := S1024x1) Cert.LibZero.zero2,
    View.ld_unit_zero (S := S1x1024) Cert.LibZero.zero2]

/-! # Region 2 of @main: custom_call 2, at the contents `V` its arrays hold when it is entered -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not it was fetched there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not it was fetched there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not it was fetched there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION over j. What the output block holds after the body at the n-th point (row-major, n = 8·i + j):
    at j = 0 the tile's row sums added to zeros; at j > 0 the tile's row sums added to what the point before left. -/
def outsAt2 (c : Dev nD) : (n : ℕ) → n < cfg2.N → Vec F S1024x1 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn =>
    if (n + 1) % 8 = 0 then
      k2_pay2 (iblk2 V c 0 ⟨n + 1, hn⟩) (iblk2 V c 1 ⟨n + 1, hn⟩) (iblk2 V c 2 ⟨n + 1, hn⟩) (iblk2 V c 3 ⟨n + 1, hn⟩) (k2_pay1 (F := F))
    else
      k2_pay2 (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

/-- At a point with j = 0 the accumulation restarts from zeros. -/
theorem outsAt2_A (c : Dev nD) (t : Fin cfg2.N) (h0 : t.val % 8 = 0) :
    outsAt2 V c t.val t.isLt = k2_pay2 (iblk2 V c 0 t) (iblk2 V c 1 t) (iblk2 V c 2 t) (iblk2 V c 3 t) (k2_pay1 (F := F)) := by
  obtain ⟨n, hn⟩ := t
  cases n with
  | zero => exact rfl
  | succ n => exact (if_pos h0).trans rfl

/-- At a point with j ≠ 0 it continues from the point before. -/
theorem outsAt2_B (c : Dev nD) (t : Fin cfg2.N) (h0 : ¬t.val % 8 = 0) :
    outsAt2 V c t.val t.isLt = k2_pay2 (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 2 on core `c`: the arrays as the region finds them; after the body at point `t` each input's
    buffer at its block and the output's at the accumulation; the invariant is the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a point with j ≠ 0 the output's current staging buffer holds what the body left at the point before: the block index
    (i, 0) has not moved and the buffer is written back only after j = 7. -/
theorem before2_4_B (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1600000 in
/-- The body at any point: the inputs' buffers hold their blocks; by the second grid coordinate the point restarts the
    accumulation (j = 0) or continues it from what the output's buffer kept from the point before (j ≠ 0). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 8 = 0
  · rw [outsAt2_A V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) ((hcond2_0 t).mpr h0) _ _ _ _ _ _ _ _ _ _ (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt2_B V c t h0]
    simp only [before2_4_B V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) (fun h => h0 ((hcond2_0 t).mp h)) _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.KernelIdealVals.lean ====
/-
  The contents of every unscoped buffer of a core between @main's items, as a chain from the launch memory:
  a stretch of host operations applies its operations; a kernel region replaces its result array by what the
  pipeline's write-backs leave there (the accumulated row sums, block by block) and changes nothing else.
-/
import proofs.«170219_j46866683134277_2_alg».proof.Proof.KernelIdealBody0
import proofs.«170219_j46866683134277_2_alg».proof.Proof.KernelIdealBody1
import proofs.«170219_j46866683134277_2_alg».proof.Proof.KernelIdealBody2
import proofs.«170219_j46866683134277_2_alg».proof.Proof.KernelIdealRegionsP

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Before region 0: the launch memory after the first host stretch (the squared row norms of x, scaled). -/
abbrev X1 (c : Dev nD) : Valuation τ sig (Elt F) := V1 m c
/-- The same, read at the TensorCore's references: what region 0's proof data take. -/
abbrev T1 : (c : Dev nD) → (b : Ref sig .tc) → Buf (Elt F) ((c : Thread nD τ).loc b) := fun c b => X1 m c b
/-- What region 0 leaves in its result array: the x–x row sums. -/
def O2 (c : Dev nD) : Buf (Elt F) ((c : Thread nD τ).loc main_v11) := (dat0 (T1 m) c).arrAt 4 cfg0.N
/-- After region 0. -/
abbrev X2 (c : Dev nD) : Valuation τ sig (Elt F) := Function.update (X1 m c) main_v11 (O2 m c)
/-- Before region 1: after the second host stretch. -/
abbrev X3 (c : Dev nD) : Valuation τ sig (Elt F) := StableHlo.after hostOps1 (X2 m c)
abbrev T3 : (c : Dev nD) → (b : Ref sig .tc) → Buf (Elt F) ((c : Thread nD τ).loc b) := fun c b => X3 m c b
/-- What region 1 leaves in its result array: the y–y row sums. -/
def O4 (c : Dev nD) : Buf (Elt F) ((c : Thread nD τ).loc main_v25) := (dat1 (T3 m) c).arrAt 4 cfg1.N
/-- After region 1. -/
abbrev X4 (c : Dev nD) : Valuation τ sig (Elt F) := Function.update (X3 m c) main_v25 (O4 m c)
/-- Before region 2: after the third host stretch. -/
abbrev X5 (c : Dev nD) : Valuation τ sig (Elt F) := StableHlo.after hostOps2 (X4 m c)
abbrev T5 : (c : Dev nD) → (b : Ref sig .tc) → Buf (Elt F) ((c : Thread nD τ).loc b) := fun c b => X5 m c b
/-- What region 2 leaves in its result array: the x–y row sums. -/
def O6 (c : Dev nD) : Buf (Elt F) ((c : Thread nD τ).loc main_v40) := (dat2 (T5 m) c).arrAt 4 cfg2.N
/-- After region 2. -/
abbrev X6 (c : Dev nD) : Valuation τ sig (Elt F) := Function.update (X5 m c) main_v40 (O6 m c)
/-- At the end: after the last host stretch (the three means combined, clamped at zero, the square root). -/
abbrev X7 (c : Dev nD) : Valuation τ sig (Elt F) := StableHlo.after hostOps3 (X6 m c)

/-- What the regions leave, as the family the conditional frame's valuations are written over. -/
def outs : Outs (F := F) := fun J r c => match J with
  | 2 => X2 m c r
  | 4 => X4 m c r
  | _ => X6 m c r

theorem V2_eq (c : Dev nD) : V2 m (outs m) c = X2 m c := by
  show Function.update (V1 m c) main_v11 (X2 m c main_v11) = Function.update (X1 m c) main_v11 (O2 m c)
  rw [show X2 m c main_v11 = O2 m c from Function.update_self ..]
theorem V3_eq (c : Dev nD) : V3 m (outs m) c = X3 m c := by
  show StableHlo.after hostOps1 (V2 m (outs m) c) = _; rw [V2_eq]
theorem V4_eq (c : Dev nD) : V4 m (outs m) c = X4 m c := by
  show Function.update (V3 m (outs m) c) main_v25 (X4 m c main_v25) = Function.update (X3 m c) main_v25 (O4 m c)
  rw [V3_eq, show X4 m c main_v25 = O4 m c from Function.update_self ..]
theorem V5_eq (c : Dev nD) : V5 m (outs m) c = X5 m c := by
  show StableHlo.after hostOps2 (V4 m (outs m) c) = _; rw [V4_eq]
theorem V6_eq (c : Dev nD) : V6 m (outs m) c = X6 m c := by
  show Function.update (V5 m (outs m) c) main_v40 (X6 m c main_v40) = Function.update (X5 m c) main_v40 (O6 m c)
  rw [V5_eq, show X6 m c main_v40 = O6 m c from Function.update_self ..]
theorem V7_eq (c : Dev nD) : V7 m (outs m) c = X7 m c := by
  show StableHlo.after hostOps3 (V6 m (outs m) c) = _; rw [V6_eq]

end Cert.KernelIdeal.Gen

end
-- ==== Proof.KernelIdealRegs.lean ====
/-
  The three kernel regions as segments of @main.

  Each region is entered with every unscoped buffer of the core at the contents before it and left with them at
  the contents after it: its result array replaced by what the pipeline's write-backs leave, nothing else
  changed. In regions 0 and 1 the two operand windows stage blocks of ONE array (x with x, y with y): the
  array's ownership is split into two half shares at entry, one per window, and joined again at exit; both
  windows only read it. Region 2's five arrays are distinct.
-/
import proofs.«170219_j46866683134277_2_alg».proof.Proof.KernelIdealBody0
import proofs.«170219_j46866683134277_2_alg».proof.Proof.KernelIdealBody1
import proofs.«170219_j46866683134277_2_alg».proof.Proof.KernelIdealBody2
import proofs.«170219_j46866683134277_2_alg».proof.Proof.KernelIdealRegionsP
import proofs.«170219_j46866683134277_2_alg».proof.Proof.KernelIdealVals

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the core's generator register at some state and its dues, at
    nothing. -/
abbrev Rr (c : Dev nD) : sProp 𝕄 := iprop((∃ r, prngReg c r) ∗ ∃ W, owes (c : Thread nD τ) (0 : CellTallies nD τ sig Unit) W)

/-- Every pipeline's proof data, each at its region's entry contents. -/
def pdats : (p : Fin 3) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c

/-! ## Regions 0 and 1: one array behind two windows -/

/-- The distinct buffers behind region 0's five windows: the two operand windows read one array. -/
theorem arrImage0 : Finset.univ.image (Pipeline.arrRef (cfgs 0).spec) = ({main_arg0, main_v4, main_v10, main_v11} : Finset (Ref sig .tc)) := by decide

/-- ENTRY of region 0. A core's unscoped buffers at contents `V` are the region's arrays at those contents — the array
    its two operand windows both read split into two half shares, one per window; the other three whole — beside the
    unscoped buffers that are no array of the region. -/
theorem entry0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  unfold Pipeline.arrBufs Dat.arrays
  rw [arrImage0, bigSep_W0]
  rw [BI.bigSep_insert (by decide), BI.bigSep_insert (by decide), BI.bigSep_insert (by decide), BI.bigSep_singleton]
  have h0 : (cfg0.win 0).arr.IsWhole := arr_whole0 0
  have h1 : (cfg0.win 1).arr.IsWhole := arr_whole0 1
  have h2 : (cfg0.win 2).arr.IsWhole := arr_whole0 2
  have h3 : (cfg0.win 3).arr.IsWhole := arr_whole0 3
  have h4 : (cfg0.win 4).arr.IsWhole := arr_whole0 4
  simp only [h0.set_eq_univ, h1.set_eq_univ, h2.set_eq_univ, h3.set_eq_univ, h4.set_eq_univ]
  refine (show (iprop((((c.tc : Thread nD τ).loc main_arg0) ↦{fullShare} V c main_arg0) ∗ (((c.tc : Thread nD τ).loc main_v4) ↦{fullShare} V c main_v4)
      ∗ (((c.tc : Thread nD τ).loc main_v10) ↦{fullShare} V c main_v10) ∗ (((c.tc : Thread nD τ).loc main_v11) ↦{fullShare} V c main_v11)) : sProp 𝕄) ⊢ _ from ?_)
  iintro ⟨Hx, H2, H3, H4⟩
  ihave Hx' := (pointsTo_share (PosShare.mem_left_op_right fullShare)).1 $$ Hx
  icases Hx' with ⟨Hxl, Hxr⟩
  isplitl [Hxl]; · iexact Hxl
  isplitl [Hxr]; · iexact Hxr
  isplitl [H2]; · iexact H2
  isplitl [H3]; · iexact H3
  iexact H4
/-- After region 0 every buffer but its result array holds what it held before, -/
theorem X2_of (c : Dev nD) (r : Ref sig .tc) (h : r ≠ main_v11) : X2 m c r = X1 m c r := by
  simp only [X2, Function.update_of_ne (StableHlo.devRef_ne_of_ne h : (Proc.devRef .tc r : DevRef τ sig) ≠ Proc.devRef .tc main_v11)]
/-- and the result array what the pipeline's write-backs left. -/
theorem X2_self (c : Dev nD) : X2 m c main_v11 = O2 m c := Function.update_self ..

set_option maxHeartbeats 2000000 in
/-- EXIT of region 0. The region's arrays at their final contents — the operands unchanged, the result array at what the
    write-backs left, the two half shares of the shared operand joined — beside the unscoped rest as entered are the
    core's unscoped buffers at the contents after the region. -/
theorem exit0 (c : Dev nD) :
    iprop((dat0 (T1 m) c).arrays ((dat0 (T1 m) c).arrAt · cfg0.N)
        ∗ Pipeline.unscopedRest (Ix := Unit) (Name := ℕ) (U := UR sig nD τ) (Lvl := ℕ) spec0 c (T1 m c))
      ⊢ (unscopedBufs (Ix := Unit) (Name := ℕ) (U := UR sig nD τ) (Lvl := ℕ) c (fun b => X2 m c b) : sProp 𝕄) := by
  rw [Pipeline.unscopedBufs_split₀ cfgs 0 winFacts₀0.arr_unscoped c (fun b => X2 m c b)]
  refine sep_mono ?_ (Entails.of_eq ?_)
  · unfold Pipeline.arrBufs Dat.arrays
    rw [arrImage0, bigSep_W0]
    rw [BI.bigSep_insert (by decide), BI.bigSep_insert (by decide), BI.bigSep_insert (by decide), BI.bigSep_singleton]
    have h0 : (cfg0.win 0).arr.IsWhole := arr_whole0 0
    have h1 : (cfg0.win 1).arr.IsWhole := arr_whole0 1
    have h2 : (cfg0.win 2).arr.IsWhole := arr_whole0 2
    have h3 : (cfg0.win 3).arr.IsWhole := arr_whole0 3
    have h4 : (cfg0.win 4).arr.IsWhole := arr_whole0 4
    simp only [h0.set_eq_univ, h1.set_eq_univ, h2.set_eq_univ, h3.set_eq_univ, h4.set_eq_univ]
    rw [(dat0 (T1 m) c).arrAt_in 0 rfl _, (dat0 (T1 m) c).arrAt_in 1 rfl _, (dat0 (T1 m) c).arrAt_in 2 rfl _,
      (dat0 (T1 m) c).arrAt_in 3 rfl _, A_eq0, A_eq0, A_eq0, A_eq0,
      X2_of m c main_arg0 (by decide), X2_of m c main_v4 (by decide), X2_of m c main_v10 (by decide), X2_self m c]
    exact sep_assoc'.trans (sep_mono (pointsTo_share (PosShare.mem_left_op_right fullShare)).2 (sep_mono .rfl (sep_mono .rfl .rfl)))
  · unfold Pipeline.unscopedRest
    refine bigSep_congr fun b hb => ?_
    have hb' : b ∉ Finset.univ.image (Pipeline.arrRef (cfgs 0).spec) := (Finset.mem_sdiff.mp hb).2
    rw [arrImage0] at hb'
    have hne : b ≠ main_v11 := fun e => hb' (by rw [e]; decide)
    dsimp only
    rw [X2_of m c b hne]
/-- The distinct buffers behind region 1's five windows: the two operand windows read one array. -/
theorem arrImage1 : Finset.univ.image (Pipeline.arrRef (cfgs 1).spec) = ({main_arg1, main_v18, main_v24, main_v25} : Finset (Ref sig .tc)) := by decide

/-- ENTRY of region 1. A core's unscoped buffers at contents `V` are the region's arrays at those contents — the array
    its two operand windows both read split into two half shares, one per window; the other three whole — beside the
    unscoped buffers that are no array of the region. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [arrImage1, bigSep_W1]
  rw [BI.bigSep_insert (by decide), BI.bigSep_insert (by decide), BI.bigSep_insert (by decide), BI.bigSep_singleton]
  have h0 : (cfg1.win 0).arr.IsWhole := arr_whole1 0
  have h1 : (cfg1.win 1).arr.IsWhole := arr_whole1 1
  have h2 : (cfg1.win 2).arr.IsWhole := arr_whole1 2
  have h3 : (cfg1.win 3).arr.IsWhole := arr_whole1 3
  have h4 : (cfg1.win 4).arr.IsWhole := arr_whole1 4
  simp only [h0.set_eq_univ, h1.set_eq_univ, h2.set_eq_univ, h3.set_eq_univ, h4.set_eq_univ]
  refine (show (iprop((((c.tc : Thread nD τ).loc main_arg1) ↦{fullShare} V c main_arg1) ∗ (((c.tc : Thread nD τ).loc main_v18) ↦{fullShare} V c main_v18)
      ∗ (((c.tc : Thread nD τ).loc main_v24) ↦{fullShare} V c main_v24) ∗ (((c.tc : Thread nD τ).loc main_v25) ↦{fullShare} V c main_v25)) : sProp 𝕄) ⊢ _ from ?_)
  iintro ⟨Hx, H2, H3, H4⟩
  ihave Hx' := (pointsTo_share (PosShare.mem_left_op_right fullShare)).1 $$ Hx
  icases Hx' with ⟨Hxl, Hxr⟩
  isplitl [Hxl]; · iexact Hxl
  isplitl [Hxr]; · iexact Hxr
  isplitl [H2]; · iexact H2
  isplitl [H3]; · iexact H3
  iexact H4
/-- After region 1 every buffer but its result array holds what it held before, -/
theorem X4_of (c : Dev nD) (r : Ref sig .tc) (h : r ≠ main_v25) : X4 m c r = X3 m c r := by
  simp only [X4, Function.update_of_ne (StableHlo.devRef_ne_of_ne h : (Proc.devRef .tc r : DevRef τ sig) ≠ Proc.devRef .tc main_v25)]
/-- and the result array what the pipeline's write-backs left. -/
theorem X4_self (c : Dev nD) : X4 m c main_v25 = O4 m c := Function.update_self ..

set_option maxHeartbeats 2000000 in
/-- EXIT of region 1. The region's arrays at their final contents — the operands unchanged, the result array at what the
    write-backs left, the two half shares of the shared operand joined — beside the unscoped rest as entered are the
    core's unscoped buffers at the contents after the region. -/
theorem exit1 (c : Dev nD) :
    iprop((dat1 (T3 m) c).arrays ((dat1 (T3 m) c).arrAt · cfg1.N)
        ∗ Pipeline.unscopedRest (Ix := Unit) (Name := ℕ) (U := UR sig nD τ) (Lvl := ℕ) spec1 c (T3 m c))
      ⊢ (unscopedBufs (Ix := Unit) (Name := ℕ) (U := UR sig nD τ) (Lvl := ℕ) c (fun b => X4 m c b) : sProp 𝕄) := by
  rw [Pipeline.unscopedBufs_split₀ cfgs 1 winFacts₀1.arr_unscoped c (fun b => X4 m c b)]
  refine sep_mono ?_ (Entails.of_eq ?_)
  · unfold Pipeline.arrBufs Dat.arrays
    rw [arrImage1, bigSep_W1]
    rw [BI.bigSep_insert (by decide), BI.bigSep_insert (by decide), BI.bigSep_insert (by decide), BI.bigSep_singleton]
    have h0 : (cfg1.win 0).arr.IsWhole := arr_whole1 0
    have h1 : (cfg1.win 1).arr.IsWhole := arr_whole1 1
    have h2 : (cfg1.win 2).arr.IsWhole := arr_whole1 2
    have h3 : (cfg1.win 3).arr.IsWhole := arr_whole1 3
    have h4 : (cfg1.win 4).arr.IsWhole := arr_whole1 4
    simp only [h0.set_eq_univ, h1.set_eq_univ, h2.set_eq_univ, h3.set_eq_univ, h4.set_eq_univ]
    rw [(dat1 (T3 m) c).arrAt_in 0 rfl _, (dat1 (T3 m) c).arrAt_in 1 rfl _, (dat1 (T3 m) c).arrAt_in 2 rfl _,
      (dat1 (T3 m) c).arrAt_in 3 rfl _, A_eq1, A_eq1, A_eq1, A_eq1,
      X4_of m c main_arg1 (by decide), X4_of m c main_v18 (by decide), X4_of m c main_v24 (by decide), X4_self m c]
    exact sep_assoc'.trans (sep_mono (pointsTo_share (PosShare.mem_left_op_right fullShare)).2 (sep_mono .rfl (sep_mono .rfl .rfl)))
  · unfold Pipeline.unscopedRest
    refine bigSep_congr fun b hb => ?_
    have hb' : b ∉ Finset.univ.image (Pipeline.arrRef (cfgs 1).spec) := (Finset.mem_sdiff.mp hb).2
    rw [arrImage1] at hb'
    have hne : b ≠ main_v25 := fun e => hb' (by rw [e]; decide)
    dsimp only
    rw [X4_of m c b hne]

/-! ## Region 2: five distinct arrays -/

/-- After region 2 every buffer but its result array holds what it held before, -/
theorem X6_of (c : Dev nD) (r : Ref sig .tc) (h : r ≠ main_v40) : X6 m c r = X5 m c r := by
  simp only [X6, Function.update_of_ne (StableHlo.devRef_ne_of_ne h : (Proc.devRef .tc r : DevRef τ sig) ≠ Proc.devRef .tc main_v40)]
/-- and the result array what the pipeline's write-backs left. -/
theorem X6_self (c : Dev nD) : X6 m c main_v40 = O6 m c := Function.update_self ..
/-- The contents after region 2, read at the TensorCore's references. -/
abbrev T6 : (c : Dev nD) → (b : Ref sig .tc) → Buf (Elt F) ((c : Thread nD τ).loc b) := fun c b => X6 m c b

/-- At region 2's exit each of its arrays holds what the pipeline leaves: an operand what it held, the result array the
    write-backs' contents; -/
theorem hF2 (c : Dev nD) : ∀ w : Fin cfg2.W, (pdats m 2 c).arrAt w cfg2.N = T6 m c (Pipeline.arrRef spec2 w)
  | ⟨0, _⟩ => ((dat2 (T5 m) c).arrAt_in 0 rfl _).trans ((A_eq2 (T5 m) c 0).trans (X6_of m c main_arg0 (by decide)).symm)
  | ⟨1, _⟩ => ((dat2 (T5 m) c).arrAt_in 1 rfl _).trans ((A_eq2 (T5 m) c 1).trans (X6_of m c main_arg1 (by decide)).symm)
  | ⟨2, _⟩ => ((dat2 (T5 m) c).arrAt_in 2 rfl _).trans ((A_eq2 (T5 m) c 2).trans (X6_of m c main_v33 (by decide)).symm)
  | ⟨3, _⟩ => ((dat2 (T5 m) c).arrAt_in 3 rfl _).trans ((A_eq2 (T5 m) c 3).trans (X6_of m c main_v39 (by decide)).symm)
  | ⟨4, _⟩ => (X6_self m c).symm
/-- every other buffer what it held at entry. -/
theorem hrest2 (c : Dev nD) : ∀ b, b ∉ Finset.univ.image (Pipeline.arrRef spec2) → T6 m c b = T5 m c b :=
  fun b hb => X6_of m c b fun e => hb (by rw [e]; decide)

/-! ## The three records -/

-- unification of the library's lemmas, stated over the pinned configuration, with this program's configuration unfolds
-- plain definitions inside the type of an unknown
set_option backward.isDefEq.respectTransparency.types false in
/-- Region 0 as a segment of @main: entered with every unscoped buffer at the contents before it, left with them at the
    contents after it (its result array replaced, nothing else changed). Its arrays are taken out of the unscoped
    buffers at entry (the array two windows read is split into two half shares) and put back at exit (the halves joined again); the generator register
    passes through the invariant; nothing is owed; the kernel has no semaphore of its own. -/
def reg0 : Pipeline.RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (X1 m c) ∗ Rr c)
  post c := iprop(StableHlo.held (c : Thread nD τ) (Pipeline.ucRefs τ sig) (X2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (T1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (T1 m c))
        ⊢ (unscopedBufs (Ix := Unit) (Name := ℕ) (U := UR sig nD τ) (Lvl := ℕ) c (fun b => X2 m c b) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with this program's configuration unfolds
-- plain definitions inside the type of an unknown
set_option backward.isDefEq.respectTransparency.types false in
/-- Region 1 as a segment of @main: entered with every unscoped buffer at the contents before it, left with them at the
    contents after it (its result array replaced, nothing else changed). Its arrays are taken out of the unscoped
    buffers at entry (the array two windows read is split into two half shares) and put back at exit (the halves joined again); the generator register
    passes through the invariant; nothing is owed; the kernel has no semaphore of its own. -/
def reg1 : Pipeline.RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (X3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (T3 m c))
        ⊢ (unscopedBufs (Ix := Unit) (Name := ℕ) (U := UR sig nD τ) (Lvl := ℕ) c (fun b => X4 m c b) : sProp 𝕄) := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with this program's configuration unfolds
-- plain definitions inside the type of an unknown
set_option backward.isDefEq.respectTransparency.types false in
/-- Region 2 as a segment of @main: entered with every unscoped buffer at the contents before it, left with them at the
    contents after it (its result array replaced, nothing else changed). Its arrays are taken out of the unscoped
    buffers at entry and put back at exit; the generator register
    passes through the invariant; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (X5 m c) ∗ Rr c)
  post c := iprop(StableHlo.held (c : Thread nD τ) (Pipeline.ucRefs τ sig) (X6 m c) ∗ Rr c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.lean ====
import proofs.«170219_j46866683134277_2_alg».proof.Proof.KernelIdealLaunchP
import Idealize.ShloMosaic.Lib.Pipeline.Frame
import Idealize.ShloMosaic.Lib.Pipeline.Regions
import proofs.«170219_j46866683134277_2_alg».proof.Proof.KernelIdealRegionsP

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-! ## The whole run, given the regions' records -/

-- the launch theorem's implicit arguments are determined by unifying its conclusion with this statement's, which
-- needs plain definitions unfolded inside the type of an unknown
set_option backward.isDefEq.respectTransparency.types false in
/-- THE CONDITIONAL RUN. For any user algebra, level assignment, launch dues and ghost resources, any rest states
    `E` the launch makes on every core at once (`hE0`) and that end owing nothing (`hE3`), any contents the regions
    leave (`outs`) and any proof data: GIVEN, per region K, a segment record entered from the thread state before it
    and left at the one after it (`RK`, `hpreK`, `hpostK`), every weakly fair execution of @main from memory `m`
    with zero counters terminates, and in every final memory every unscoped buffer `b` of every core `c` holds the
    last valuation's contents `V7 m outs c b` — the launch contents carried through the four host stretches
    (`StableHlo.after`) and the three regions' changes (`outs`). The two argument arrays are among these buffers, so
    the conditional frame is this statement read at them through `V7_main_arg0` and `V7_main_arg1`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

/-- info: 'Cert.KernelIdeal.Gen.run_cond' depends on axioms: [propext, Classical.choice, Quot.sound] -/
#guard_msgs in #print axioms run_cond

end Cert.KernelIdeal.Gen

end
-- ==== Proof.KernelIdealMain.lean ====
/-
  The whole run of @main: every weakly fair execution terminates, every unscoped buffer of every core ends at
  the last valuation of the chain (launch memory, host stretch, region 0, host stretch, region 1, host stretch,
  region 2, host stretch). Read at the two argument arrays this is the frame claim; read at the result buffer it
  names the program's value.
-/
import proofs.«170219_j46866683134277_2_alg».proof.Proof.KernelIdealRegs
import proofs.«170219_j46866683134277_2_alg».proof.Proof.KernelIdealRun

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in the type of an unknown
set_option backward.isDefEq.respectTransparency.types false in
/-- THE RUN. Every weakly fair execution of @main terminates, nothing faulting, and in every final memory every
    unscoped buffer of every core holds the last valuation's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

/-- info: 'Cert.KernelIdeal.Gen.run_main' depends on axioms: [propext, Classical.choice, Quot.sound] -/
#guard_msgs in #print axioms run_main

/-- THE FRAME: the two argument arrays end as launched — no host operation and no region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (V7_main_arg0 m (outs m) c),
       (h c _ (mem_uc main_arg1 (by decide))).trans (V7_main_arg1 m (outs m) c)⟩)
    (run_main m ρ)

/-- THE VALUE: the result buffer ends at the last valuation's contents there, beside the unchanged arguments. -/
theorem run_value : θ_run defs (onTc (τ := τ) (main (F := F))) ⟨m, fun _ => 0, ρ⟩ (fun r => ∀ c : Dev nD,
      r.2.mem ((c.tc : Thread nD τ).loc main_v46) = X7 m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_v46 (by decide))).trans (by rw [V7_eq]),
       (h c _ (mem_uc main_arg0 (by decide))).trans (V7_main_arg0 m (outs m) c),
       (h c _ (mem_uc main_arg1 (by decide))).trans (V7_main_arg1 m (outs m) c)⟩)
    (run_main m ρ)

end Cert.KernelIdeal.Gen

end
-- ==== Proof.KernelRegionRowsAux.lean ====
/-
  The arithmetic of the kernel body at one row, over the extended reals.

  At a grid point the body holds a block a of 1024 rows of the first operand, a block b of 1024 rows of the second,
  a column s of 1024 row terms and a row t of 1024 column terms, and forms the 1024 × 1024 tile
  exp(min((s_r + t_c) + ⟨a_r, b_c⟩ · 2⁻⁷, 0)); it adds the tile's row sums to the output block. When the blocks hold
  real numbers, row r of the result is the real number o_r + Σ_c exp(min(s_r + t_c + ⟨a_r, b_c⟩ / 128, 0)), where o_r is
  what the output block held at row r. The three kernel regions have the same body, so the lemmas here serve all three.
-/
import proofs.«170219_j46866683134277_2_alg».proof.Proof.KernelIdealBody0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen
open scoped BigOperators

/-! ## Layout operations of the body read at an index -/

section Layout
variable {α : Type}

/-- An `[a]` array cast to `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product and the row sum at an index -/

local notation "D₀" => dot_S1024x256_S1024x256_S1024x1024_1_1_0_0_n_n

theorem dot_lhs_0 (i : S1024x1024.Idx) (q : (D₀).contr.Idx) : ((D₀).lhsIdx i q 0).val = (i 0).val := by
  unfold DotDims.lhsIdx
  rw [dif_neg (show ¬(0 : Fin S1024x256.rank) ∈ (D₀).lhsBatch by decide), dif_pos (show (0 : Fin S1024x256.rank) ∈ (D₀).lhsNonContracting by decide)]
  rfl
theorem dot_lhs_1 (i : S1024x1024.Idx) (q : (D₀).contr.Idx) : ((D₀).lhsIdx i q 1).val = (q ⟨0, by decide⟩).val :=
  (D₀).lhsIdx_val_of_single rfl i q
theorem dot_rhs_0 (i : S1024x1024.Idx) (q : (D₀).contr.Idx) : ((D₀).rhsIdx i q 0).val = (i 1).val := by
  unfold DotDims.rhsIdx
  rw [dif_neg (show ¬(0 : Fin S1024x256.rank) ∈ (D₀).rhsBatch by decide), dif_pos (show (0 : Fin S1024x256.rank) ∈ (D₀).rhsNonContracting by decide)]
  rfl
theorem dot_rhs_1 (i : S1024x1024.Idx) (q : (D₀).contr.Idx) : ((D₀).rhsIdx i q 1).val = (q ⟨0, by decide⟩).val :=
  (D₀).rhsIdx_val_of_single rfl i q

/-- The block product into the zero block, at `(r, l)`: the sum over `k` of `x (r, k) · y (l, k)`. -/
theorem matmul_block_apply (x y : FVec Ideal S1024x256 .bf16) (r l : Fin 1024) :
    FloatOps.matmul D₀ none x y (constant S1024x1024 .f32 0x00000000#32) (ix2 r l)
      = ∑ k : Fin 256, x (ix2 r k) * y (ix2 l k) := by
  rw [Ideal.matmul_constant_zero_apply, ← Equiv.sum_comp (contrEquiv1 D₀ 256 rfl rfl).symm]
  refine Finset.sum_congr rfl fun k _ => ?_
  have hk := contrEquiv1_symm_val D₀ 256 rfl rfl k
  have el : (D₀).lhsIdx (ix2 r l) ((contrEquiv1 D₀ 256 rfl rfl).symm k) = ix2 r k := funext fun a => Fin.ext (by
    match a with
    | ⟨0, _⟩ => exact dot_lhs_0 _ _
    | ⟨1, _⟩ => exact (dot_lhs_1 _ _).trans hk)
  have er : (D₀).rhsIdx (ix2 r l) ((contrEquiv1 D₀ 256 rfl rfl).symm k) = ix2 l k := funext fun a => Fin.ext (by
    match a with
    | ⟨0, _⟩ => exact dot_rhs_0 _ _
    | ⟨1, _⟩ => exact (dot_rhs_1 _ _).trans hk)
  rw [el, er]

/-- The sum over the columns of a `[1024, 1024]` block, at row `r`. -/
theorem rowsum_block_apply (src : FVec Ideal S1024x1024 .f32) (hφ : FKind.Formats .f32)
    (hacc : (0x00000000#32 : BitVec 32) = FKind.add.neutral .f32 hφ) (r : Fin 1024) :
    multiReduction (F := Ideal) .add [1] S1024 src 0x00000000#32 reduces_S1024x1024_S1024 hφ hacc (ix1 r)
      = ∑ l : Fin 1024, src (ix2 r l) := by
  refine (Ideal.multiReduction_add_single src _ reduces_S1024x1024_S1024 hφ hacc (ix1 r)).trans ?_
  refine Finset.sum_congr rfl fun l _ => congrArg src ?_
  funext a
  match a with
  | ⟨0, _⟩ => rfl
  | ⟨1, _⟩ => rfl

/-! ## The body's arithmetic at a row -/

/-- The splat the products are scaled by is 2⁻⁷. -/
theorem ofBits_inv128 : Ideal.ofBits .f32 0x3C000000#32 = (((1 : ℝ) / 128 : ℝ) : EReal) := by
  simp [Ideal.ofBits, Ideal.ieee, -EReal.coe_mul]; norm_num

/-- The inclusion of the reals commutes with a finite sum. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The tile the body forms from its four input blocks: exp(min(s_r + t_c + ⟨a_r, b_c⟩ · 2⁻⁷, 0)). -/
def tile (x0 x1 : Vec Ideal S1024x256 .f32) (x2 : Vec Ideal S1024x1 .f32) (x3 : Vec Ideal S1x1024 .f32) : FVec Ideal S1024x1024 .f32 :=
  exp (minimumf
    (addf
      (addf (broadcastTo S1024x1024 (shapeCast S1024x1 x2 shapeCasts_S1024x1_S1024x1) broadcasts_S1024x1_S1024x1024)
        (broadcastTo S1024x1024 (shapeCast S1x1024 x3 shapeCasts_S1x1024_S1x1024) broadcasts_S1x1024_S1024x1024))
      (mulf
        (matmul dot_S1024x256_S1024x256_S1024x1024_1_1_0_0_n_n none (truncf .bf16 x0 bitsLt_bf16_f32) (truncf .bf16 x1 bitsLt_bf16_f32)
          (constant S1024x1024 .f32 0x00000000#32))
        (broadcast S1024x1024 (Scalar.ofBits .f32 0x3C000000#32))))
    (broadcast S1024x1024 (Scalar.ofBits .f32 0x00000000#32)))

/-- One entry of the tile on real blocks. -/
theorem tile_apply (x0 x1 : Vec Ideal S1024x256 .f32) (x2 : Vec Ideal S1024x1 .f32) (x3 : Vec Ideal S1x1024 .f32) (r l : Fin 1024)
    (a b : Fin 256 → ℝ) (s t : ℝ)
    (ha : ∀ k, x0 (ix2 r k) = ((a k : ℝ) : EReal)) (hb : ∀ k, x1 (ix2 l k) = ((b k : ℝ) : EReal))
    (hs : x2 (ix2 r (0 : Fin 1)) = ((s : ℝ) : EReal)) (ht : x3 (ix2 (0 : Fin 1) l) = ((t : ℝ) : EReal)) :
    tile x0 x1 x2 x3 (ix2 r l) = ((Real.exp (min (s + t + (∑ k : Fin 256, a k * b k) * (1 / 128)) 0) : ℝ) : EReal) := by
  have e2 : broadcastTo S1024x1024 (shapeCast S1024x1 x2 shapeCasts_S1024x1_S1024x1) broadcasts_S1024x1_S1024x1024 (ix2 r l) = ((s : ℝ) : EReal) :=
    (broadcastTo_a1_ab_apply _ _ r l).trans ((congrFun (shapeCast_self x2 _) _).trans hs)
  have e3 : broadcastTo S1024x1024 (shapeCast S1x1024 x3 shapeCasts_S1x1024_S1x1024) broadcasts_S1x1024_S1024x1024 (ix2 r l) = ((t : ℝ) : EReal) :=
    (broadcastTo_1b_ab_apply _ _ r l).trans ((congrFun (shapeCast_self x3 _) _).trans ht)
  have em : matmul dot_S1024x256_S1024x256_S1024x1024_1_1_0_0_n_n none (truncf .bf16 x0 bitsLt_bf16_f32) (truncf .bf16 x1 bitsLt_bf16_f32)
      (constant (F := Ideal) S1024x1024 .f32 0x00000000#32) (ix2 r l) = ((∑ k : Fin 256, a k * b k : ℝ) : EReal) := by
    refine (matmul_block_apply _ _ r l).trans ?_
    rw [coe_finsum]
    refine Finset.sum_congr rfl fun k _ => ?_
    show x0 (ix2 r k) * x1 (ix2 l k) = _
    rw [ha k, hb k, EReal.coe_mul]
  show Ideal.exp (min ((broadcastTo S1024x1024 (shapeCast S1024x1 x2 shapeCasts_S1024x1_S1024x1) broadcasts_S1024x1_S1024x1024 (ix2 r l)
        + broadcastTo S1024x1024 (shapeCast S1x1024 x3 shapeCasts_S1x1024_S1x1024) broadcasts_S1x1024_S1024x1024 (ix2 r l))
      + matmul dot_S1024x256_S1024x256_S1024x1024_1_1_0_0_n_n none (truncf .bf16 x0 bitsLt_bf16_f32) (truncf .bf16 x1 bitsLt_bf16_f32)
          (constant (F := Ideal) S1024x1024 .f32 0x00000000#32) (ix2 r l) * Ideal.ofBits .f32 0x3C000000#32)
      (Ideal.ofBits .f32 0x00000000#32)) = _
  rw [e2, e3, em, ofBits_inv128, Ideal.ofBits_zero_f32, ← EReal.coe_add, ← EReal.coe_mul, ← EReal.coe_add]
  rw [show (0 : EReal) = ((0 : ℝ) : EReal) from rfl, ← EReal.coe_strictMono.monotone.map_min]
  rfl

/-- THE BODY AT A ROW, on real blocks: what the output block held there plus the row sum of the tile. -/
theorem k0_pay2_row (x0 x1 : Vec Ideal S1024x256 .f32) (x2 : Vec Ideal S1024x1 .f32) (x3 : Vec Ideal S1x1024 .f32)
    (xo : Vec Ideal S1024x1 .f32) (r : Fin 1024)
    (a : Fin 256 → ℝ) (b : Fin 1024 → Fin 256 → ℝ) (s : ℝ) (t : Fin 1024 → ℝ) (o : ℝ)
    (ha : ∀ k, x0 (ix2 r k) = ((a k : ℝ) : EReal))
    (hb : ∀ l k, x1 (ix2 l k) = ((b l k : ℝ) : EReal))
    (hs : x2 (ix2 r (0 : Fin 1)) = ((s : ℝ) : EReal))
    (ht : ∀ l, x3 (ix2 (0 : Fin 1) l) = ((t l : ℝ) : EReal))
    (ho : xo (ix2 r (0 : Fin 1)) = ((o : ℝ) : EReal)) :
    k0_pay2 (F := Ideal) x0 x1 x2 x3 xo (ix2 r (0 : Fin 1))
      = ((o + ∑ l : Fin 1024, Real.exp (min (s + t l + (∑ k : Fin 256, a k * b l k) * (1 / 128)) 0) : ℝ) : EReal) := by
  show shapeCast S1024x1 xo shapeCasts_S1024x1_S1024x1 (ix2 r (0 : Fin 1))
      + shapeCast S1024x1 (multiReduction (F := Ideal) .add [1] S1024 (tile x0 x1 x2 x3) 0x00000000#32 reduces_S1024x1024_S1024 (.inl rfl) rfl)
          shapeCasts_S1024_S1024x1 (ix2 r (0 : Fin 1)) = _
  rw [EReal.coe_add]
  refine congrArg₂ (· + ·) ((congrFun (shapeCast_self xo _) _).trans ho) ?_
  refine (shapeCast_a_a1_apply _ _ r 0).trans ?_
  refine (rowsum_block_apply _ _ _ r).trans ?_
  rw [coe_finsum]
  exact Finset.sum_congr rfl fun l _ => tile_apply x0 x1 x2 x3 r l a (b l) s (t l) ha (hb l) hs (ht l)

end Cert.KernelIdeal.Gen.Rows
end
-- ==== Proof.KernelRegionRowsAux2.lean ====
/-
  The real numbers the kernel regions' row sums are made of.

  A region's output row p ends at the sum over all 8192 columns q of exp(min(s_p + t_q + ⟨a_p, b_q⟩ / 128, 0)). The grid
  reaches it eight column blocks at a time: block j contributes the sum over its 1024 columns 1024·j + l. Summing
  the eight block sums is summing over all columns (the columns are the pairs (j, l) in row-major order).
-/
import proofs.«170219_j46866683134277_2_alg».proof.Proof.KernelRegionRowsAux

noncomputable section

namespace Cert.KernelIdeal.Gen.Rows

open scoped BigOperators

/-- One pair's term: exp(min(s_p + t_q + ⟨a_p, b_q⟩ · 2⁻⁷, 0)). -/
def pairTerm (ar br : Fin 8192 → Fin 256 → ℝ) (sr tr : Fin 8192 → ℝ) (p q : Fin 8192) : ℝ :=
  Real.exp (min (sr p + tr q + (∑ k : Fin 256, ar p k * br q k) * (1 / 128)) 0)

/-- Column l of column block j. -/
def colOf (j : Fin 8) (l : Fin 1024) : Fin 8192 := ⟨1024 * j.val + l.val, by omega⟩

theorem colOf_val (j : Fin 8) (l : Fin 1024) : (colOf j l).val = 1024 * j.val + l.val := rfl

/-- What column block j adds to row p: the sum of the pair terms over its 1024 columns (nothing past the eighth block). -/
def blockSum (ar br : Fin 8192 → Fin 256 → ℝ) (sr tr : Fin 8192 → ℝ) (p : Fin 8192) (j : ℕ) : ℝ :=
  if h : j < 8 then ∑ l : Fin 1024, pairTerm ar br sr tr p (colOf ⟨j, h⟩ l) else 0

/-- The eight block sums add up to the sum over all 8192 columns. -/
theorem sum_blockSum (ar br : Fin 8192 → Fin 256 → ℝ) (sr tr : Fin 8192 → ℝ) (p : Fin 8192) :
    ∑ j ∈ Finset.range 8, blockSum ar br sr tr p j = ∑ q : Fin 8192, pairTerm ar br sr tr p q := by
  rw [← Fin.sum_univ_eq_sum_range (fun j => blockSum ar br sr tr p j) 8]
  have e : ∀ j : Fin 8, blockSum ar br sr tr p j.val = ∑ l : Fin 1024, pairTerm ar br sr tr p (colOf j l) := fun j => by
    unfold blockSum; rw [dif_pos j.isLt]
  rw [Finset.sum_congr rfl fun j _ => e j]
  rw [← Equiv.sum_comp (finProdFinEquiv : Fin 8 × Fin 1024 ≃ Fin 8192) (fun q => pairTerm ar br sr tr p q), Fintype.sum_prod_type]
  refine Finset.sum_congr rfl fun j _ => Finset.sum_congr rfl fun l _ => congrArg _ (Fin.ext ?_)
  show 1024 * j.val + l.val = l.val + 1024 * j.val
  omega

end Cert.KernelIdeal.Gen.Rows
end
-- ==== Proof.KernelRegionRows0.lean ====
/-
  Kernel region 0 (the first sample against itself): what it leaves in its result array, as explicit row sums over the reals.

  The grid is 8 × 8 in row-major order, point n = 8·i + j. At point n the body holds block i of the first operand
  (rows 1024·i …), block j of the second (rows 1024·j …), block i of the row terms s and block j of the column terms t,
  and adds to row r of output block i the sum over the block's 1024 columns l of
  exp(min(s_p + t_q + ⟨a_p, b_q⟩ · 2⁻⁷, 0)) with p = 1024·i + r, q = 1024·j + l; at j = 0 it starts from zero. So after
  j = 7 row r of the block holds the sum over all 8192 columns q, the block is written back to rows 1024·i … of the
  result, and the eight write-backs cover the result: row p of the result array ends at
  Σ_q exp(min(s_p + t_q + ⟨a_p, b_q⟩ / 128, 0)).
-/
import proofs.«170219_j46866683134277_2_alg».proof.Proof.KernelIdealBody0
import proofs.«170219_j46866683134277_2_alg».proof.Proof.KernelRegionRowsAux2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open Rows

section Region0Rows
variable {F : FTy → Type} [FloatOps F]
variable (V : (c : Dev nD) → (b : Ref sig .tc) → Buf (Elt F) ((c : Thread nD τ).loc b))

/-- The index maps over the 8 × 8 grid in row-major order: the first operand's, the row terms' and the output's block
    row is i = n / 8, the second operand's block row and the column terms' block column is j = n % 8. -/
theorem rows0_idx : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- The first operand's block at point n holds rows 1024·(n / 8) … of its array. -/
theorem rows0_blk0 (c : Dev nD) (t : Fin cfg0.N) (r : Fin 1024) (k : Fin 256) (p : Fin 8192) (hp : p.val = 1024 * (t.val / 8) + r.val) :
    (iblk0 V c 0 t : Vec F S1024x256 .f32) (ix2 r k) = (V c (Pipeline.arrRef spec0 0) : S8192x256.Idx → Elt F .f32) (ix2 p k) := by
  obtain ⟨e0, e1, -⟩ := rows0_idx t
  unfold iblk0
  rw [View.read_apply]
  show (V c (Pipeline.arrRef spec0 0) : S8192x256.Idx → Elt F .f32) _ = _
  congr 1
  funext a
  apply Fin.ext
  match a with
  | ⟨0, _⟩ => show win0_0.index t 0 * 1024 + 1 * r.val = p.val; rw [e0, hp]; omega
  | ⟨1, _⟩ => show win0_0.index t 1 * 256 + 1 * k.val = k.val; rw [e1]; omega

/-- The second operand's block at point n holds rows 1024·(n % 8) … of its array. -/
theorem rows0_blk1 (c : Dev nD) (t : Fin cfg0.N) (l : Fin 1024) (k : Fin 256) (q : Fin 8192) (hq : q.val = 1024 * (t.val % 8) + l.val) :
    (iblk0 V c 1 t : Vec F S1024x256 .f32) (ix2 l k) = (V c (Pipeline.arrRef spec0 1) : S8192x256.Idx → Elt F .f32) (ix2 q k) := by
  obtain ⟨-, -, e0, e1, -⟩ := rows0_idx t
  unfold iblk0
  rw [View.read_apply]
  show (V c (Pipeline.arrRef spec0 1) : S8192x256.Idx → Elt F .f32) _ = _
  congr 1
  funext a
  apply Fin.ext
  match a with
  | ⟨0, _⟩ => show win0_1.index t 0 * 1024 + 1 * l.val = q.val; rw [e0, hq]; omega
  | ⟨1, _⟩ => show win0_1.index t 1 * 256 + 1 * k.val = k.val; rw [e1]; omega

/-- The row terms' block at point n holds entries 1024·(n / 8) … of the column of row terms. -/
theorem rows0_blk2 (c : Dev nD) (t : Fin cfg0.N) (r : Fin 1024) (p : Fin 8192) (hp : p.val = 1024 * (t.val / 8) + r.val) :
    (iblk0 V c 2 t : Vec F S1024x1 .f32) (ix2 r (0 : Fin 1)) = (V c (Pipeline.arrRef spec0 2) : S8192x1.Idx → Elt F .f32) (ix2 p (0 : Fin 1)) := by
  obtain ⟨-, -, -, -, e0, e1, -⟩ := rows0_idx t
  unfold iblk0
  rw [View.read_apply]
  show (V c (Pipeline.arrRef spec0 2) : S8192x1.Idx → Elt F .f32) _ = _
  congr 1
  funext a
  apply Fin.ext
  match a with
  | ⟨0, _⟩ => show win0_2.index t 0 * 1024 + 1 * r.val = p.val; rw [e0, hp]; omega
  | ⟨1, _⟩ => show win0_2.index t 1 * 1 + 1 * 0 = 0; rw [e1]

/-- The column terms' block at point n holds entries 1024·(n % 8) … of the row of column terms. -/
theorem rows0_blk3 (c : Dev nD) (t : Fin cfg0.N) (l : Fin 1024) (q : Fin 8192) (hq : q.val = 1024 * (t.val % 8) + l.val) :
    (iblk0 V c 3 t : Vec F S1x1024 .f32) (ix2 (0 : Fin 1) l) = (V c (Pipeline.arrRef spec0 3) : S1x8192.Idx → Elt F .f32) (ix2 (0 : Fin 1) q) := by
  obtain ⟨-, -, -, -, -, -, e0, e1, -⟩ := rows0_idx t
  unfold iblk0
  rw [View.read_apply]
  show (V c (Pipeline.arrRef spec0 3) : S1x8192.Idx → Elt F .f32) _ = _
  congr 1
  funext a
  apply Fin.ext
  match a with
  | ⟨0, _⟩ => show win0_3.index t 0 * 1 + 1 * 0 = 0; rw [e0]
  | ⟨1, _⟩ => show win0_3.index t 1 * 1024 + 1 * l.val = q.val; rw [e1, hq]; omega

end Region0Rows

/-- The zero block reads the real number 0. -/
theorem rows0_zero (r : Fin 1024) : k0_pay1 (F := Ideal) (ix2 r (0 : Fin 1)) = ((0 : ℝ) : EReal) := by
  show Ideal.ofBits .f32 0x00000000#32 = _
  rw [Ideal.ofBits_zero_f32]; rfl

/-- An index of the result array is in point n's block iff its row is among the block's 1024 rows. -/
theorem rows0_mem_blk (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v11).slice (win0_4.rect t)).set ↔ _
  rw [View.set_slice_whole, Rect.mem_set_unit]
  exact Iff.rfl

/-- Every row of the result array is written back by the last point of its block row: n = 8·(p / 1024) + 7. -/
theorem rows0_cover (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 64 := N_0
  have ht : 8 * ((i 0).val / 1024) + 7 < cfg0.N := by rw [hN]; omega
  obtain ⟨-, -, -, -, -, -, -, -, e0, e1⟩ := rows0_idx ⟨8 * ((i 0).val / 1024) + 7, ht⟩
  refine ⟨⟨8 * ((i 0).val / 1024) + 7, ht⟩, (flush0_4 _).mpr (by show (8 * ((i 0).val / 1024) + 7) % 8 = 7; omega), ?_⟩
  rw [rows0_mem_blk]
  intro a
  match a with
  | ⟨0, _⟩ =>
    show win0_4.index ⟨8 * ((i 0).val / 1024) + 7, ht⟩ 0 * 1024 ≤ (i 0).val ∧ (i 0).val < win0_4.index ⟨8 * ((i 0).val / 1024) + 7, ht⟩ 0 * 1024 + 1024
    rw [e0]; dsimp only; omega
  | ⟨1, _⟩ =>
    show win0_4.index ⟨8 * ((i 0).val / 1024) + 7, ht⟩ 1 * 1 ≤ (i 1).val ∧ (i 1).val < win0_4.index ⟨8 * ((i 0).val / 1024) + 7, ht⟩ 1 * 1 + 1
    rw [e1]; omega

section Region0Final
variable (T : (c : Dev nD) → (b : Ref sig .tc) → Buf (Elt Ideal) ((c : Thread nD τ).loc b)) (c : Dev nD)
variable (ar br : Fin 8192 → Fin 256 → ℝ) (sr tr : Fin 8192 → ℝ)
variable (ha : ∀ (p : Fin 8192) (q : Fin 256), T c (Pipeline.arrRef spec0 0) (ix2 p q) = ((ar p q : ℝ) : EReal))
variable (hb : ∀ (p : Fin 8192) (q : Fin 256), T c (Pipeline.arrRef spec0 1) (ix2 p q) = ((br p q : ℝ) : EReal))
variable (hs : ∀ p : Fin 8192, T c (Pipeline.arrRef spec0 2) (ix2 p (0 : Fin 1)) = ((sr p : ℝ) : EReal))
variable (ht : ∀ p : Fin 8192, T c (Pipeline.arrRef spec0 3) (ix2 (0 : Fin 1) p) = ((tr p : ℝ) : EReal))
include ha hb hs ht

/-- The body at point n, on real arrays, at row r of the output block (row p = 1024·(n / 8) + r of the result): what the
    block held there plus column block n % 8's sum. -/
theorem rows0_point (t : Fin cfg0.N) (xo : Vec Ideal S1024x1 .f32) (r : Fin 1024) (p : Fin 8192)
    (hp : p.val = 1024 * (t.val / 8) + r.val) (o : ℝ) (ho : xo (ix2 r (0 : Fin 1)) = ((o : ℝ) : EReal)) :
    k0_pay2 (F := Ideal) (iblk0 T c 0 t) (iblk0 T c 1 t) (iblk0 T c 2 t) (iblk0 T c 3 t) xo (ix2 r (0 : Fin 1))
      = ((o + blockSum ar br sr tr p (t.val % 8) : ℝ) : EReal) := by
  have hj : t.val % 8 < 8 := Nat.mod_lt _ (by decide)
  unfold blockSum
  rw [dif_pos hj]
  exact k0_pay2_row (iblk0 T c 0 t) (iblk0 T c 1 t) (iblk0 T c 2 t) (iblk0 T c 3 t) xo r (ar p)
    (fun l => br (colOf ⟨t.val % 8, hj⟩ l)) (sr p) (fun l => tr (colOf ⟨t.val % 8, hj⟩ l)) o
    (fun k => (rows0_blk0 T c t r k p hp).trans (ha p k))
    (fun l k => (rows0_blk1 T c t l k (colOf ⟨t.val % 8, hj⟩ l) rfl).trans (hb _ k))
    ((rows0_blk2 T c t r p hp).trans (hs p))
    (fun l => (rows0_blk3 T c t l (colOf ⟨t.val % 8, hj⟩ l) rfl).trans (ht _))
    ho

/-- THE ACCUMULATION, READ: after point n = 8·i + j, row r of the output block holds the sum of the first j + 1 column
    blocks' sums of row p = 1024·i + r. -/
theorem rows0_outsAt : ∀ (n : ℕ) (hn : n < cfg0.N) (r : Fin 1024) (p : Fin 8192), p.val = 1024 * (n / 8) + r.val →
    outsAt0 T c n hn (ix2 r (0 : Fin 1)) = ((∑ j ∈ Finset.range (n % 8 + 1), blockSum ar br sr tr p j : ℝ) : EReal)
  | 0, hn, r, p, hp => by
    rw [outsAt0_A T c ⟨0, hn⟩ rfl]
    refine (rows0_point T c ar br sr tr ha hb hs ht ⟨0, hn⟩ (k0_pay1 (F := Ideal)) r p hp 0 (rows0_zero r)).trans ?_
    show (((0 : ℝ) + blockSum ar br sr tr p (0 % 8) : ℝ) : EReal) = ((∑ j ∈ Finset.range (0 % 8 + 1), blockSum ar br sr tr p j : ℝ) : EReal)
    rw [show (0 % 8 + 1) = 1 from rfl, Finset.sum_range_one, zero_add]
  | n + 1, hn, r, p, hp => by
    by_cases h0 : (n + 1) % 8 = 0
    · rw [outsAt0_A T c ⟨n + 1, hn⟩ h0]
      refine (rows0_point T c ar br sr tr ha hb hs ht ⟨n + 1, hn⟩ (k0_pay1 (F := Ideal)) r p hp 0 (rows0_zero r)).trans ?_
      show (((0 : ℝ) + blockSum ar br sr tr p ((n + 1) % 8) : ℝ) : EReal) = ((∑ j ∈ Finset.range ((n + 1) % 8 + 1), blockSum ar br sr tr p j : ℝ) : EReal)
      rw [h0, Finset.sum_range_one, zero_add]
    · rw [outsAt0_B T c ⟨n + 1, hn⟩ h0]
      have hp' : p.val = 1024 * (n / 8) + r.val := by rw [hp]; omega
      have ih := rows0_outsAt n (Nat.lt_of_succ_lt hn) r p hp'
      refine (rows0_point T c ar br sr tr ha hb hs ht ⟨n + 1, hn⟩ (outsAt0 T c n (Nat.lt_of_succ_lt hn)) r p hp _ ih).trans ?_
      show (((∑ j ∈ Finset.range (n % 8 + 1), blockSum ar br sr tr p j) + blockSum ar br sr tr p ((n + 1) % 8) : ℝ) : EReal)
        = ((∑ j ∈ Finset.range ((n + 1) % 8 + 1), blockSum ar br sr tr p j : ℝ) : EReal)
      rw [show (n + 1) % 8 = n % 8 + 1 by omega, Finset.sum_range_succ _ (n % 8 + 1)]

/-- What the result array ends holding: row p is the sum of the pair terms over all 8192 columns. -/
def rows0_G : S8192x1.Idx → EReal := fun i => ((∑ q : Fin 8192, pairTerm ar br sr tr ⟨(i 0).val, idx2_lt0 i⟩ q : ℝ) : EReal)

/-- After the last column block (j = 7) the output block holds its rows of that. -/
theorem rows0_last (t : Fin cfg0.N) (h7 : t.val % 8 = 7) (y : S1024x1.Idx) (i : S8192x1.Idx) (hi : (i 0).val = 1024 * (t.val / 8) + (y 0).val) :
    outsAt0 T c t.val t.isLt y = rows0_G ar br sr tr i := by
  obtain ⟨r, u, rfl⟩ : ∃ (r : Fin 1024) (u : Fin 1), y = ix2 r u := ⟨y 0, y 1, eq_ix2 y⟩
  obtain rfl : u = 0 := Subsingleton.elim _ _
  rw [rows0_outsAt T c ar br sr tr ha hb hs ht t.val t.isLt r ⟨(i 0).val, idx2_lt0 i⟩ hi, h7]
  unfold rows0_G
  rw [sum_blockSum]

/-- WHAT A FLUSHING POINT WRITES BACK (j = 7) is its block of the row sums. -/
theorem rows0_flushed (t : Fin cfg0.N) (hf : (cfg0.win 4).flush t = true) :
    (dat0 (F := Ideal) T c).flushed 4 t = ((cfg0.win 4).blk t).view.read (Elt Ideal) (rows0_G ar br sr tr) := by
  have h7 : t.val % 8 = 7 := (flush0_4 t).mp hf
  obtain ⟨-, -, -, -, -, -, -, -, e0, e1⟩ := rows0_idx t
  show (cfg0.win 4).cut (grid0.coords t) ((dat0 (F := Ideal) T c).after 4 t) = _
  rw [after0_4]
  funext y
  show outsAt0 T c t.val t.isLt ((cfg0.win 4).xinj (grid0.coords t) y) = rows0_G ar br sr tr (((cfg0.win 4).blk t).view.emb y)
  refine rows0_last T c ar br sr tr ha hb hs ht t h7 _ _ ?_
  show win0_4.index t 0 * 1024 + 1 * (y 0).val = 1024 * (t.val / 8) + (y 0).val
  rw [e0]; omega

/-- So the result array ends holding the row sums. -/
theorem rows0_final : (dat0 (F := Ideal) T c).arrAt 4 cfg0.N = rows0_G ar br sr tr :=
  (dat0 (F := Ideal) T c).arrAt_eq_of_cover 4 (rows0_G ar br sr tr) (rows0_flushed T c ar br sr tr ha hb hs ht) rows0_cover

end Region0Final

theorem region0_rows (T : (c : Dev nD) → (b : Ref sig .tc) → Buf (Elt Ideal) ((c : Thread nD τ).loc b)) (c : Dev nD)
    (ar br : Fin 8192 → Fin 256 → ℝ) (sr tr : Fin 8192 → ℝ)
    (ha : ∀ (p : Fin 8192) (q : Fin 256), T c (Pipeline.arrRef spec0 0) (ix2 p q) = ((ar p q : ℝ) : EReal))
    (hb : ∀ (p : Fin 8192) (q : Fin 256), T c (Pipeline.arrRef spec0 1) (ix2 p q) = ((br p q : ℝ) : EReal))
    (hs : ∀ p : Fin 8192, T c (Pipeline.arrRef spec0 2) (ix2 p (0 : Fin 1)) = ((sr p : ℝ) : EReal))
    (ht : ∀ p : Fin 8192, T c (Pipeline.arrRef spec0 3) (ix2 (0 : Fin 1) p) = ((tr p : ℝ) : EReal)) :
    ∀ p : Fin 8192, (dat0 (F := Ideal) T c).arrAt 4 cfg0.N (ix2 p (0 : Fin 1))
      = ((∑ j : Fin 8192, Real.exp (min (sr p + tr j + (∑ k : Fin 256, ar p k * br j k) * (1 / 128)) 0) : ℝ) : EReal) := fun p => by
  rw [rows0_final T c ar br sr tr ha hb hs ht]
  rfl

end Cert.KernelIdeal.Gen
end
-- ==== Proof.KernelRegionRows1.lean ====
/-
  Kernel region 1 (the second sample against itself): what it leaves in its result array, as explicit row sums over the reals.

  The grid is 8 × 8 in row-major order, point n = 8·i + j. At point n the body holds block i of the first operand
  (rows 1024·i …), block j of the second (rows 1024·j …), block i of the row terms s and block j of the column terms t,
  and adds to row r of output block i the sum over the block's 1024 columns l of
  exp(min(s_p + t_q + ⟨a_p, b_q⟩ · 2⁻⁷, 0)) with p = 1024·i + r, q = 1024·j + l; at j = 0 it starts from zero. So after
  j = 7 row r of the block holds the sum over all 8192 columns q, the block is written back to rows 1024·i … of the
  result, and the eight write-backs cover the result: row p of the result array ends at
  Σ_q exp(min(s_p + t_q + ⟨a_p, b_q⟩ / 128, 0)).
-/
import proofs.«170219_j46866683134277_2_alg».proof.Proof.KernelIdealBody1
import proofs.«170219_j46866683134277_2_alg».proof.Proof.KernelRegionRowsAux2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open Rows

section Region1Rows
variable {F : FTy → Type} [FloatOps F]
variable (V : (c : Dev nD) → (b : Ref sig .tc) → Buf (Elt F) ((c : Thread nD τ).loc b))

/-- The index maps over the 8 × 8 grid in row-major order: the first operand's, the row terms' and the output's block
    row is i = n / 8, the second operand's block row and the column terms' block column is j = n % 8. -/
theorem rows1_idx : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

/-- The first operand's block at point n holds rows 1024·(n / 8) … of its array. -/
theorem rows1_blk0 (c : Dev nD) (t : Fin cfg1.N) (r : Fin 1024) (k : Fin 256) (p : Fin 8192) (hp : p.val = 1024 * (t.val / 8) + r.val) :
    (iblk1 V c 0 t : Vec F S1024x256 .f32) (ix2 r k) = (V c (Pipeline.arrRef spec1 0) : S8192x256.Idx → Elt F .f32) (ix2 p k) := by
  obtain ⟨e0, e1, -⟩ := rows1_idx t
  unfold iblk1
  rw [View.read_apply]
  show (V c (Pipeline.arrRef spec1 0) : S8192x256.Idx → Elt F .f32) _ = _
  congr 1
  funext a
  apply Fin.ext
  match a with
  | ⟨0, _⟩ => show win1_0.index t 0 * 1024 + 1 * r.val = p.val; rw [e0, hp]; omega
  | ⟨1, _⟩ => show win1_0.index t 1 * 256 + 1 * k.val = k.val; rw [e1]; omega

/-- The second operand's block at point n holds rows 1024·(n % 8) … of its array. -/
theorem rows1_blk1 (c : Dev nD) (t : Fin cfg1.N) (l : Fin 1024) (k : Fin 256) (q : Fin 8192) (hq : q.val = 1024 * (t.val % 8) + l.val) :
    (iblk1 V c 1 t : Vec F S1024x256 .f32) (ix2 l k) = (V c (Pipeline.arrRef spec1 1) : S8192x256.Idx → Elt F .f32) (ix2 q k) := by
  obtain ⟨-, -, e0, e1, -⟩ := rows1_idx t
  unfold iblk1
  rw [View.read_apply]
  show (V c (Pipeline.arrRef spec1 1) : S8192x256.Idx → Elt F .f32) _ = _
  congr 1
  funext a
  apply Fin.ext
  match a with
  | ⟨0, _⟩ => show win1_1.index t 0 * 1024 + 1 * l.val = q.val; rw [e0, hq]; omega
  | ⟨1, _⟩ => show win1_1.index t 1 * 256 + 1 * k.val = k.val; rw [e1]; omega

/-- The row terms' block at point n holds entries 1024·(n / 8) … of the column of row terms. -/
theorem rows1_blk2 (c : Dev nD) (t : Fin cfg1.N) (r : Fin 1024) (p : Fin 8192) (hp : p.val = 1024 * (t.val / 8) + r.val) :
    (iblk1 V c 2 t : Vec F S1024x1 .f32) (ix2 r (0 : Fin 1)) = (V c (Pipeline.arrRef spec1 2) : S8192x1.Idx → Elt F .f32) (ix2 p (0 : Fin 1)) := by
  obtain ⟨-, -, -, -, e0, e1, -⟩ := rows1_idx t
  unfold iblk1
  rw [View.read_apply]
  show (V c (Pipeline.arrRef spec1 2) : S8192x1.Idx → Elt F .f32) _ = _
  congr 1
  funext a
  apply Fin.ext
  match a with
  | ⟨0, _⟩ => show win1_2.index t 0 * 1024 + 1 * r.val = p.val; rw [e0, hp]; omega
  | ⟨1, _⟩ => show win1_2.index t 1 * 1 + 1 * 0 = 0; rw [e1]

/-- The column terms' block at point n holds entries 1024·(n % 8) … of the row of column terms. -/
theorem rows1_blk3 (c : Dev nD) (t : Fin cfg1.N) (l : Fin 1024) (q : Fin 8192) (hq : q.val = 1024 * (t.val % 8) + l.val) :
    (iblk1 V c 3 t : Vec F S1x1024 .f32) (ix2 (0 : Fin 1) l) = (V c (Pipeline.arrRef spec1 3) : S1x8192.Idx → Elt F .f32) (ix2 (0 : Fin 1) q) := by
  obtain ⟨-, -, -, -, -, -, e0, e1, -⟩ := rows1_idx t
  unfold iblk1
  rw [View.read_apply]
  show (V c (Pipeline.arrRef spec1 3) : S1x8192.Idx → Elt F .f32) _ = _
  congr 1
  funext a
  apply Fin.ext
  match a with
  | ⟨0, _⟩ => show win1_3.index t 0 * 1 + 1 * 0 = 0; rw [e0]
  | ⟨1, _⟩ => show win1_3.index t 1 * 1024 + 1 * l.val = q.val; rw [e1, hq]; omega

end Region1Rows

/-- The zero block reads the real number 0. -/
theorem rows1_zero (r : Fin 1024) : k1_pay1 (F := Ideal) (ix2 r (0 : Fin 1)) = ((0 : ℝ) : EReal) := by
  show Ideal.ofBits .f32 0x00000000#32 = _
  rw [Ideal.ofBits_zero_f32]; rfl

/-- An index of the result array is in point n's block iff its row is among the block's 1024 rows. -/
theorem rows1_mem_blk (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v25).slice (win1_4.rect t)).set ↔ _
  rw [View.set_slice_whole, Rect.mem_set_unit]
  exact Iff.rfl

/-- Every row of the result array is written back by the last point of its block row: n = 8·(p / 1024) + 7. -/
theorem rows1_cover (i : S8192x1.Idx) : ∃ t : Fin cfg1.N, (cfg1.win 4).flush t = true ∧ i ∈ ((cfg1.win 4).blk t).view.set := by
  have hi0 : (i 0).val < 8192 := idx2_lt0 i
  have hi1 : (i 1).val < 1 := idx2_lt1 i
  have hN : cfg1.N = 64 := N_1
  have ht : 8 * ((i 0).val / 1024) + 7 < cfg1.N := by rw [hN]; omega
  obtain ⟨-, -, -, -, -, -, -, -, e0, e1⟩ := rows1_idx ⟨8 * ((i 0).val / 1024) + 7, ht⟩
  refine ⟨⟨8 * ((i 0).val / 1024) + 7, ht⟩, (flush1_4 _).mpr (by show (8 * ((i 0).val / 1024) + 7) % 8 = 7; omega), ?_⟩
  rw [rows1_mem_blk]
  intro a
  match a with
  | ⟨0, _⟩ =>
    show win1_4.index ⟨8 * ((i 0).val / 1024) + 7, ht⟩ 0 * 1024 ≤ (i 0).val ∧ (i 0).val < win1_4.index ⟨8 * ((i 0).val / 1024) + 7, ht⟩ 0 * 1024 + 1024
    rw [e0]; dsimp only; omega
  | ⟨1, _⟩ =>
    show win1_4.index ⟨8 * ((i 0).val / 1024) + 7, ht⟩ 1 * 1 ≤ (i 1).val ∧ (i 1).val < win1_4.index ⟨8 * ((i 0).val / 1024) + 7, ht⟩ 1 * 1 + 1
    rw [e1]; omega

section Region1Final
variable (T : (c : Dev nD) → (b : Ref sig .tc) → Buf (Elt Ideal) ((c : Thread nD τ).loc b)) (c : Dev nD)
variable (ar br : Fin 8192 → Fin 256 → ℝ) (sr tr : Fin 8192 → ℝ)
variable (ha : ∀ (p : Fin 8192) (q : Fin 256), T c (Pipeline.arrRef spec1 0) (ix2 p q) = ((ar p q : ℝ) : EReal))
variable (hb : ∀ (p : Fin 8192) (q : Fin 256), T c (Pipeline.arrRef spec1 1) (ix2 p q) = ((br p q : ℝ) : EReal))
variable (hs : ∀ p : Fin 8192, T c (Pipeline.arrRef spec1 2) (ix2 p (0 : Fin 1)) = ((sr p : ℝ) : EReal))
variable (ht : ∀ p : Fin 8192, T c (Pipeline.arrRef spec1 3) (ix2 (0 : Fin 1) p) = ((tr p : ℝ) : EReal))
include ha hb hs ht

/-- The body at point n, on real arrays, at row r of the output block (row p = 1024·(n / 8) + r of the result): what the
    block held there plus column block n % 8's sum. -/
theorem rows1_point (t : Fin cfg1.N) (xo : Vec Ideal S1024x1 .f32) (r : Fin 1024) (p : Fin 8192)
    (hp : p.val = 1024 * (t.val / 8) + r.val) (o : ℝ) (ho : xo (ix2 r (0 : Fin 1)) = ((o : ℝ) : EReal)) :
    k1_pay2 (F := Ideal) (iblk1 T c 0 t) (iblk1 T c 1 t) (iblk1 T c 2 t) (iblk1 T c 3 t) xo (ix2 r (0 : Fin 1))
      = ((o + blockSum ar br sr tr p (t.val % 8) : ℝ) : EReal) := by
  have hj : t.val % 8 < 8 := Nat.mod_lt _ (by decide)
  unfold blockSum
  rw [dif_pos hj]
  exact k0_pay2_row (iblk1 T c 0 t) (iblk1 T c 1 t) (iblk1 T c 2 t) (iblk1 T c 3 t) xo r (ar p)
    (fun l => br (colOf ⟨t.val % 8, hj⟩ l)) (sr p) (fun l => tr (colOf ⟨t.val % 8, hj⟩ l)) o
    (fun k => (rows1_blk0 T c t r k p hp).trans (ha p k))
    (fun l k => (rows1_blk1 T c t l k (colOf ⟨t.val % 8, hj⟩ l) rfl).trans (hb _ k))
    ((rows1_blk2 T c t r p hp).trans (hs p))
    (fun l => (rows1_blk3 T c t l (colOf ⟨t.val % 8, hj⟩ l) rfl).trans (ht _))
    ho

/-- THE ACCUMULATION, READ: after point n = 8·i + j, row r of the output block holds the sum of the first j + 1 column
    blocks' sums of row p = 1024·i + r. -/
theorem rows1_outsAt : ∀ (n : ℕ) (hn : n < cfg1.N) (r : Fin 1024) (p : Fin 8192), p.val = 1024 * (n / 8) + r.val →
    outsAt1 T c n hn (ix2 r (0 : Fin 1)) = ((∑ j ∈ Finset.range (n % 8 + 1), blockSum ar br sr tr p j : ℝ) : EReal)
  | 0, hn, r, p, hp => by
    rw [outsAt1_A T c ⟨0, hn⟩ rfl]
    refine (rows1_point T c ar br sr tr ha hb hs ht ⟨0, hn⟩ (k1_pay1 (F := Ideal)) r p hp 0 (rows1_zero r)).trans ?_
    show (((0 : ℝ) + blockSum ar br sr tr p (0 % 8) : ℝ) : EReal) = ((∑ j ∈ Finset.range (0 % 8 + 1), blockSum ar br sr tr p j : ℝ) : EReal)
    rw [show (0 % 8 + 1) = 1 from rfl, Finset.sum_range_one, zero_add]
  | n + 1, hn, r, p, hp => by
    by_cases h0 : (n + 1) % 8 = 0
    · rw [outsAt1_A T c ⟨n + 1, hn⟩ h0]
      refine (rows1_point T c ar br sr tr ha hb hs ht ⟨n + 1, hn⟩ (k1_pay1 (F := Ideal)) r p hp 0 (rows1_zero r)).trans ?_
      show (((0 : ℝ) + blockSum ar br sr tr p ((n + 1) % 8) : ℝ) : EReal) = ((∑ j ∈ Finset.range ((n + 1) % 8 + 1), blockSum ar br sr tr p j : ℝ) : EReal)
      rw [h0, Finset.sum_range_one, zero_add]
    · rw [outsAt1_B T c ⟨n + 1, hn⟩ h0]
      have hp' : p.val = 1024 * (n / 8) + r.val := by rw [hp]; omega
      have ih := rows1_outsAt n (Nat.lt_of_succ_lt hn) r p hp'
      refine (rows1_point T c ar br sr tr ha hb hs ht ⟨n + 1, hn⟩ (outsAt1 T c n (Nat.lt_of_succ_lt hn)) r p hp _ ih).trans ?_
      show (((∑ j ∈ Finset.range (n % 8 + 1), blockSum ar br sr tr p j) + blockSum ar br sr tr p ((n + 1) % 8) : ℝ) : EReal)
        = ((∑ j ∈ Finset.range ((n + 1) % 8 + 1), blockSum ar br sr tr p j : ℝ) : EReal)
      rw [show (n + 1) % 8 = n % 8 + 1 by omega, Finset.sum_range_succ _ (n % 8 + 1)]

/-- What the result array ends holding: row p is the sum of the pair terms over all 8192 columns. -/
def rows1_G : S8192x1.Idx → EReal := fun i => ((∑ q : Fin 8192, pairTerm ar br sr tr ⟨(i 0).val, idx2_lt0 i⟩ q : ℝ) : EReal)

/-- After the last column block (j = 7) the output block holds its rows of that. -/
theorem rows1_last (t : Fin cfg1.N) (h7 : t.val % 8 = 7) (y : S1024x1.Idx) (i : S8192x1.Idx) (hi : (i 0).val = 1024 * (t.val / 8) + (y 0).val) :
    outsAt1 T c t.val t.isLt y = rows1_G ar br sr tr i := by
  obtain ⟨r, u, rfl⟩ : ∃ (r : Fin 1024) (u : Fin 1), y = ix2 r u := ⟨y 0, y 1, eq_ix2 y⟩
  obtain rfl : u = 0 := Subsingleton.elim _ _
  rw [rows1_outsAt T c ar br sr tr ha hb hs ht t.val t.isLt r ⟨(i 0).val, idx2_lt0 i⟩ hi, h7]
  unfold rows1_G
  rw [sum_blockSum]

/-- WHAT A FLUSHING POINT WRITES BACK (j = 7) is its block of the row sums. -/
theorem rows1_flushed (t : Fin cfg1.N) (hf : (cfg1.win 4).flush t = true) :
    (dat1 (F := Ideal) T c).flushed 4 t = ((cfg1.win 4).blk t).view.read (Elt Ideal) (rows1_G ar br sr tr) := by
  have h7 : t.val % 8 = 7 := (flush1_4 t).mp hf
  obtain ⟨-, -, -, -, -, -, -, -, e0, e1⟩ := rows1_idx t
  show (cfg1.win 4).cut (grid1.coords t) ((dat1 (F := Ideal) T c).after 4 t) = _
  rw [after1_4]
  funext y
  show outsAt1 T c t.val t.isLt ((cfg1.win 4).xinj (grid1.coords t) y) = rows1_G ar br sr tr (((cfg1.win 4).blk t).view.emb y)
  refine rows1_last T c ar br sr tr ha hb hs ht t h7 _ _ ?_
  show win1_4.index t 0 * 1024 + 1 * (y 0).val = 1024 * (t.val / 8) + (y 0).val
  rw [e0]; omega

/-- So the result array ends holding the row sums. -/
theorem rows1_final : (dat1 (F := Ideal) T c).arrAt 4 cfg1.N = rows1_G ar br sr tr :=
  (dat1 (F := Ideal) T c).arrAt_eq_of_cover 4 (rows1_G ar br sr tr) (rows1_flushed T c ar br sr tr ha hb hs ht) rows1_cover

end Region1Final

theorem region1_rows (T : (c : Dev nD) → (b : Ref sig .tc) → Buf (Elt Ideal) ((c : Thread nD τ).loc b)) (c : Dev nD)
    (ar br : Fin 8192 → Fin 256 → ℝ) (sr tr : Fin 8192 → ℝ)
    (ha : ∀ (p : Fin 8192) (q : Fin 256), T c (Pipeline.arrRef spec1 0) (ix2 p q) = ((ar p q : ℝ) : EReal))
    (hb : ∀ (p : Fin 8192) (q : Fin 256), T c (Pipeline.arrRef spec1 1) (ix2 p q) = ((br p q : ℝ) : EReal))
    (hs : ∀ p : Fin 8192, T c (Pipeline.arrRef spec1 2) (ix2 p (0 : Fin 1)) = ((sr p : ℝ) : EReal))
    (ht : ∀ p : Fin 8192, T c (Pipeline.arrRef spec1 3) (ix2 (0 : Fin 1) p) = ((tr p : ℝ) : EReal)) :
    ∀ p : Fin 8192, (dat1 (F := Ideal) T c).arrAt 4 cfg1.N (ix2 p (0 : Fin 1))
      = ((∑ j : Fin 8192, Real.exp (min (sr p + tr j + (∑ k : Fin 256, ar p k * br j k) * (1 / 128)) 0) : ℝ) : EReal) := fun p => by
  rw [rows1_final T c ar br sr tr ha hb hs ht]
  rfl

end Cert.KernelIdeal.Gen
end
-- ==== Proof.KernelRegionRows2.lean ====
/-
  Kernel region 2 (the first sample against the second): what it leaves in its result array, as explicit row sums over the reals.

  The grid is 8 × 8 in row-major order, point n = 8·i + j. At point n the body holds block i of the first operand
  (rows 1024·i …), block j of the second (rows 1024·j …), block i of the row terms s and block j of the column terms t,
  and adds to row r of output block i the sum over the block's 1024 columns l of
  exp(min(s_p + t_q + ⟨a_p, b_q⟩ · 2⁻⁷, 0)) with p = 1024·i + r, q = 1024·j + l; at j = 0 it starts from zero. So after
  j = 7 row r of the block holds the sum over all 8192 columns q, the block is written back to rows 1024·i … of the
  result, and the eight write-backs cover the result: row p of the result array ends at
  Σ_q exp(min(s_p + t_q + ⟨a_p, b_q⟩ / 128, 0)).
-/
import proofs.«170219_j46866683134277_2_alg».proof.Proof.KernelIdealBody2
import proofs.«170219_j46866683134277_2_alg».proof.Proof.KernelRegionRowsAux2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open Rows

section Region2Rows
variable {F : FTy → Type} [FloatOps F]
variable (V : (c : Dev nD) → (b : Ref sig .tc) → Buf (Elt F) ((c : Thread nD τ).loc b))

/-- The index maps over the 8 × 8 grid in row-major order: the first operand's, the row terms' and the output's block
    row is i = n / 8, the second operand's block row and the column terms' block column is j = n % 8. -/
theorem rows2_idx : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0 :=
  (by decide +kernel : ∀ t : Fin grid2.N, _)

/-- The first operand's block at point n holds rows 1024·(n / 8) … of its array. -/
theorem rows2_blk0 (c : Dev nD) (t : Fin cfg2.N) (r : Fin 1024) (k : Fin 256) (p : Fin 8192) (hp : p.val = 1024 * (t.val / 8) + r.val) :
    (iblk2 V c 0 t : Vec F S1024x256 .f32) (ix2 r k) = (V c (Pipeline.arrRef spec2 0) : S8192x256.Idx → Elt F .f32) (ix2 p k) := by
  obtain ⟨e0, e1, -⟩ := rows2_idx t
  unfold iblk2
  rw [View.read_apply]
  show (V c (Pipeline.arrRef spec2 0) : S8192x256.Idx → Elt F .f32) _ = _
  congr 1
  funext a
  apply Fin.ext
  match a with
  | ⟨0, _⟩ => show win2_0.index t 0 * 1024 + 1 * r.val = p.val; rw [e0, hp]; omega
  | ⟨1, _⟩ => show win2_0.index t 1 * 256 + 1 * k.val = k.val; rw [e1]; omega

/-- The second operand's block at point n holds rows 1024·(n % 8) … of its array. -/
theorem rows2_blk1 (c : Dev nD) (t : Fin cfg2.N) (l : Fin 1024) (k : Fin 256) (q : Fin 8192) (hq : q.val = 1024 * (t.val % 8) + l.val) :
    (iblk2 V c 1 t : Vec F S1024x256 .f32) (ix2 l k) = (V c (Pipeline.arrRef spec2 1) : S8192x256.Idx → Elt F .f32) (ix2 q k) := by
  obtain ⟨-, -, e0, e1, -⟩ := rows2_idx t
  unfold iblk2
  rw [View.read_apply]
  show (V c (Pipeline.arrRef spec2 1) : S8192x256.Idx → Elt F .f32) _ = _
  congr 1
  funext a
  apply Fin.ext
  match a with
  | ⟨0, _⟩ => show win2_1.index t 0 * 1024 + 1 * l.val = q.val; rw [e0, hq]; omega
  | ⟨1, _⟩ => show win2_1.index t 1 * 256 + 1 * k.val = k.val; rw [e1]; omega

/-- The row terms' block at point n holds entries 1024·(n / 8) … of the column of row terms. -/
theorem rows2_blk2 (c : Dev nD) (t : Fin cfg2.N) (r : Fin 1024) (p : Fin 8192) (hp : p.val = 1024 * (t.val / 8) + r.val) :
    (iblk2 V c 2 t : Vec F S1024x1 .f32) (ix2 r (0 : Fin 1)) = (V c (Pipeline.arrRef spec2 2) : S8192x1.Idx → Elt F .f32) (ix2 p (0 : Fin 1)) := by
  obtain ⟨-, -, -, -, e0, e1, -⟩ := rows2_idx t
  unfold iblk2
  rw [View.read_apply]
  show (V c (Pipeline.arrRef spec2 2) : S8192x1.Idx → Elt F .f32) _ = _
  congr 1
  funext a
  apply Fin.ext
  match a with
  | ⟨0, _⟩ => show win2_2.index t 0 * 1024 + 1 * r.val = p.val; rw [e0, hp]; omega
  | ⟨1, _⟩ => show win2_2.index t 1 * 1 + 1 * 0 = 0; rw [e1]

/-- The column terms' block at point n holds entries 1024·(n % 8) … of the row of column terms. -/
theorem rows2_blk3 (c : Dev nD) (t : Fin cfg2.N) (l : Fin 1024) (q : Fin 8192) (hq : q.val = 1024 * (t.val % 8) + l.val) :
    (iblk2 V c 3 t : Vec F S1x1024 .f32) (ix2 (0 : Fin 1) l) = (V c (Pipeline.arrRef spec2 3) : S1x8192.Idx → Elt F .f32) (ix2 (0 : Fin 1) q) := by
  obtain ⟨-, -, -, -, -, -, e0, e1, -⟩ := rows2_idx t
  unfold iblk2
  rw [View.read_apply]
  show (V c (Pipeline.arrRef spec2 3) : S1x8192.Idx → Elt F .f32) _ = _
  congr 1
  funext a
  apply Fin.ext
  match a with
  | ⟨0, _⟩ => show win2_3.index t 0 * 1 + 1 * 0 = 0; rw [e0]
  | ⟨1, _⟩ => show win2_3.index t 1 * 1024 + 1 * l.val = q.val; rw [e1, hq]; omega

end Region2Rows

/-- The zero block reads the real number 0. -/
theorem rows2_zero (r : Fin 1024) : k2_pay1 (F := Ideal) (ix2 r (0 : Fin 1)) = ((0 : ℝ) : EReal) := by
  show Ideal.ofBits .f32 0x00000000#32 = _
  rw [Ideal.ofBits_zero_f32]; rfl

/-- An index of the result array is in point n's block iff its row is among the block's 1024 rows. -/
theorem rows2_mem_blk (t : Fin cfg2.N) (i : S8192x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v40).slice (win2_4.rect t)).set ↔ _
  rw [View.set_slice_whole, Rect.mem_set_unit]
  exact Iff.rfl

/-- Every row of the result array is written back by the last point of its block row: n = 8·(p / 1024) + 7. -/
theorem rows2_cover (i : S8192x1.Idx) : ∃ t : Fin cfg2.N, (cfg2.win 4).flush t = true ∧ i ∈ ((cfg2.win 4).blk t).view.set := by
  have hi0 : (i 0).val < 8192 := idx2_lt0 i
  have hi1 : (i 1).val < 1 := idx2_lt1 i
  have hN : cfg2.N = 64 := N_2
  have ht : 8 * ((i 0).val / 1024) + 7 < cfg2.N := by rw [hN]; omega
  obtain ⟨-, -, -, -, -, -, -, -, e0, e1⟩ := rows2_idx ⟨8 * ((i 0).val / 1024) + 7, ht⟩
  refine ⟨⟨8 * ((i 0).val / 1024) + 7, ht⟩, (flush2_4 _).mpr (by show (8 * ((i 0).val / 1024) + 7) % 8 = 7; omega), ?_⟩
  rw [rows2_mem_blk]
  intro a
  match a with
  | ⟨0, _⟩ =>
    show win2_4.index ⟨8 * ((i 0).val / 1024) + 7, ht⟩ 0 * 1024 ≤ (i 0).val ∧ (i 0).val < win2_4.index ⟨8 * ((i 0).val / 1024) + 7, ht⟩ 0 * 1024 + 1024
    rw [e0]; dsimp only; omega
  | ⟨1, _⟩ =>
    show win2_4.index ⟨8 * ((i 0).val / 1024) + 7, ht⟩ 1 * 1 ≤ (i 1).val ∧ (i 1).val < win2_4.index ⟨8 * ((i 0).val / 1024) + 7, ht⟩ 1 * 1 + 1
    rw [e1]; omega

section Region2Final
variable (T : (c : Dev nD) → (b : Ref sig .tc) → Buf (Elt Ideal) ((c : Thread nD τ).loc b)) (c : Dev nD)
variable (ar br : Fin 8192 → Fin 256 → ℝ) (sr tr : Fin 8192 → ℝ)
variable (ha : ∀ (p : Fin 8192) (q : Fin 256), T c (Pipeline.arrRef spec2 0) (ix2 p q) = ((ar p q : ℝ) : EReal))
variable (hb : ∀ (p : Fin 8192) (q : Fin 256), T c (Pipeline.arrRef spec2 1) (ix2 p q) = ((br p q : ℝ) : EReal))
variable (hs : ∀ p : Fin 8192, T c (Pipeline.arrRef spec2 2) (ix2 p (0 : Fin 1)) = ((sr p : ℝ) : EReal))
variable (ht : ∀ p : Fin 8192, T c (Pipeline.arrRef spec2 3) (ix2 (0 : Fin 1) p) = ((tr p : ℝ) : EReal))
include ha hb hs ht

/-- The body at point n, on real arrays, at row r of the output block (row p = 1024·(n / 8) + r of the result): what the
    block held there plus column block n % 8's sum. -/
theorem rows2_point (t : Fin cfg2.N) (xo : Vec Ideal S1024x1 .f32) (r : Fin 1024) (p : Fin 8192)
    (hp : p.val = 1024 * (t.val / 8) + r.val) (o : ℝ) (ho : xo (ix2 r (0 : Fin 1)) = ((o : ℝ) : EReal)) :
    k2_pay2 (F := Ideal) (iblk2 T c 0 t) (iblk2 T c 1 t) (iblk2 T c 2 t) (iblk2 T c 3 t) xo (ix2 r (0 : Fin 1))
      = ((o + blockSum ar br sr tr p (t.val % 8) : ℝ) : EReal) := by
  have hj : t.val % 8 < 8 := Nat.mod_lt _ (by decide)
  unfold blockSum
  rw [dif_pos hj]
  exact k0_pay2_row (iblk2 T c 0 t) (iblk2 T c 1 t) (iblk2 T c 2 t) (iblk2 T c 3 t) xo r (ar p)
    (fun l => br (colOf ⟨t.val % 8, hj⟩ l)) (sr p) (fun l => tr (colOf ⟨t.val % 8, hj⟩ l)) o
    (fun k => (rows2_blk0 T c t r k p hp).trans (ha p k))
    (fun l k => (rows2_blk1 T c t l k (colOf ⟨t.val % 8, hj⟩ l) rfl).trans (hb _ k))
    ((rows2_blk2 T c t r p hp).trans (hs p))
    (fun l => (rows2_blk3 T c t l (colOf ⟨t.val % 8, hj⟩ l) rfl).trans (ht _))
    ho

/-- THE ACCUMULATION, READ: after point n = 8·i + j, row r of the output block holds the sum of the first j + 1 column
    blocks' sums of row p = 1024·i + r. -/
theorem rows2_outsAt : ∀ (n : ℕ) (hn : n < cfg2.N) (r : Fin 1024) (p : Fin 8192), p.val = 1024 * (n / 8) + r.val →
    outsAt2 T c n hn (ix2 r (0 : Fin 1)) = ((∑ j ∈ Finset.range (n % 8 + 1), blockSum ar br sr tr p j : ℝ) : EReal)
  | 0, hn, r, p, hp => by
    rw [outsAt2_A T c ⟨0, hn⟩ rfl]
    refine (rows2_point T c ar br sr tr ha hb hs ht ⟨0, hn⟩ (k2_pay1 (F := Ideal)) r p hp 0 (rows2_zero r)).trans ?_
    show (((0 : ℝ) + blockSum ar br sr tr p (0 % 8) : ℝ) : EReal) = ((∑ j ∈ Finset.range (0 % 8 + 1), blockSum ar br sr tr p j : ℝ) : EReal)
    rw [show (0 % 8 + 1) = 1 from rfl, Finset.sum_range_one, zero_add]
  | n + 1, hn, r, p, hp => by
    by_cases h0 : (n + 1) % 8 = 0
    · rw [outsAt2_A T c ⟨n + 1, hn⟩ h0]
      refine (rows2_point T c ar br sr tr ha hb hs ht ⟨n + 1, hn⟩ (k2_pay1 (F := Ideal)) r p hp 0 (rows2_zero r)).trans ?_
      show (((0 : ℝ) + blockSum ar br sr tr p ((n + 1) % 8) : ℝ) : EReal) = ((∑ j ∈ Finset.range ((n + 1) % 8 + 1), blockSum ar br sr tr p j : ℝ) : EReal)
      rw [h0, Finset.sum_range_one, zero_add]
    · rw [outsAt2_B T c ⟨n + 1, hn⟩ h0]
      have hp' : p.val = 1024 * (n / 8) + r.val := by rw [hp]; omega
      have ih := rows2_outsAt n (Nat.lt_of_succ_lt hn) r p hp'
      refine (rows2_point T c ar br sr tr ha hb hs ht ⟨n + 1, hn⟩ (outsAt2 T c n (Nat.lt_of_succ_lt hn)) r p hp _ ih).trans ?_
      show (((∑ j ∈ Finset.range (n % 8 + 1), blockSum ar br sr tr p j) + blockSum ar br sr tr p ((n + 1) % 8) : ℝ) : EReal)
        = ((∑ j ∈ Finset.range ((n + 1) % 8 + 1), blockSum ar br sr tr p j : ℝ) : EReal)
      rw [show (n + 1) % 8 = n % 8 + 1 by omega, Finset.sum_range_succ _ (n % 8 + 1)]

/-- What the result array ends holding: row p is the sum of the pair terms over all 8192 columns. -/
def rows2_G : S8192x1.Idx → EReal := fun i => ((∑ q : Fin 8192, pairTerm ar br sr tr ⟨(i 0).val, idx2_lt0 i⟩ q : ℝ) : EReal)

/-- After the last column block (j = 7) the output block holds its rows of that. -/
theorem rows2_last (t : Fin cfg2.N) (h7 : t.val % 8 = 7) (y : S1024x1.Idx) (i : S8192x1.Idx) (hi : (i 0).val = 1024 * (t.val / 8) + (y 0).val) :
    outsAt2 T c t.val t.isLt y = rows2_G ar br sr tr i := by
  obtain ⟨r, u, rfl⟩ : ∃ (r : Fin 1024) (u : Fin 1), y = ix2 r u := ⟨y 0, y 1, eq_ix2 y⟩
  obtain rfl : u = 0 := Subsingleton.elim _ _
  rw [rows2_outsAt T c ar br sr tr ha hb hs ht t.val t.isLt r ⟨(i 0).val, idx2_lt0 i⟩ hi, h7]
  unfold rows2_G
  rw [sum_blockSum]

/-- WHAT A FLUSHING POINT WRITES BACK (j = 7) is its block of the row sums. -/
theorem rows2_flushed (t : Fin cfg2.N) (hf : (cfg2.win 4).flush t = true) :
    (dat2 (F := Ideal) T c).flushed 4 t = ((cfg2.win 4).blk t).view.read (Elt Ideal) (rows2_G ar br sr tr) := by
  have h7 : t.val % 8 = 7 := (flush2_4 t).mp hf
  obtain ⟨-, -, -, -, -, -, -, -, e0, e1⟩ := rows2_idx t
  show (cfg2.win 4).cut (grid2.coords t) ((dat2 (F := Ideal) T c).after 4 t) = _
  rw [after2_4]
  funext y
  show outsAt2 T c t.val t.isLt ((cfg2.win 4).xinj (grid2.coords t) y) = rows2_G ar br sr tr (((cfg2.win 4).blk t).view.emb y)
  refine rows2_last T c ar br sr tr ha hb hs ht t h7 _ _ ?_
  show win2_4.index t 0 * 1024 + 1 * (y 0).val = 1024 * (t.val / 8) + (y 0).val
  rw [e0]; omega

/-- So the result array ends holding the row sums. -/
theorem rows2_final : (dat2 (F := Ideal) T c).arrAt 4 cfg2.N = rows2_G ar br sr tr :=
  (dat2 (F := Ideal) T c).arrAt_eq_of_cover 4 (rows2_G ar br sr tr) (rows2_flushed T c ar br sr tr ha hb hs ht) rows2_cover

end Region2Final

theorem region2_rows (T : (c : Dev nD) → (b : Ref sig .tc) → Buf (Elt Ideal) ((c : Thread nD τ).loc b)) (c : Dev nD)
    (ar br : Fin 8192 → Fin 256 → ℝ) (sr tr : Fin 8192 → ℝ)
    (ha : ∀ (p : Fin 8192) (q : Fin 256), T c (Pipeline.arrRef spec2 0) (ix2 p q) = ((ar p q : ℝ) : EReal))
    (hb : ∀ (p : Fin 8192) (q : Fin 256), T c (Pipeline.arrRef spec2 1) (ix2 p q) = ((br p q : ℝ) : EReal))
    (hs : ∀ p : Fin 8192, T c (Pipeline.arrRef spec2 2) (ix2 p (0 : Fin 1)) = ((sr p : ℝ) : EReal))
    (ht : ∀ p : Fin 8192, T c (Pipeline.arrRef spec2 3) (ix2 (0 : Fin 1) p) = ((tr p : ℝ) : EReal)) :
    ∀ p : Fin 8192, (dat2 (F := Ideal) T c).arrAt 4 cfg2.N (ix2 p (0 : Fin 1))
      = ((∑ j : Fin 8192, Real.exp (min (sr p + tr j + (∑ k : Fin 256, ar p k * br j k) * (1 / 128)) 0) : ℝ) : EReal) := fun p => by
  rw [rows2_final T c ar br sr tr ha hb hs ht]
  rfl

end Cert.KernelIdeal.Gen
end
-- ==== Proof.LibGaussGram.lean ====
import Mathlib.Analysis.SpecialFunctions.Exponential
import Mathlib.Algebra.BigOperators.Ring.Finset
import Mathlib.Topology.Algebra.InfiniteSum.Order
import Mathlib.Data.Fintype.BigOperators

namespace Cert.LibGaussGram

open scoped BigOperators

/-- Gram sums of the polynomial kernel `⟨u, v⟩ ^ n` are nonnegative: expanding the power of the
inner product over all index tuples `f : Fin n → Fin d` exhibits the Gram sum as a sum of
squares. -/
private theorem inner_pow_gram_nonneg {ι : Type} [Fintype ι] {d : ℕ} (z : ι → Fin d → ℝ)
    (w : ι → ℝ) (n : ℕ) :
    0 ≤ ∑ p, ∑ q, w p * w q * (∑ k, z p k * z q k) ^ n := by
  have key : ∀ p q, w p * w q * (∑ k, z p k * z q k) ^ n
      = ∑ f ∈ Fintype.piFinset (fun _ : Fin n => (Finset.univ : Finset (Fin d))),
          (w p * ∏ i, z p (f i)) * (w q * ∏ i, z q (f i)) := by
    intro p q
    rw [Finset.sum_pow', Finset.mul_sum]
    refine Finset.sum_congr rfl (fun f _ => ?_)
    rw [Finset.prod_mul_distrib]
    ring
  have hsq : ∑ p, ∑ q, w p * w q * (∑ k, z p k * z q k) ^ n
      = ∑ f ∈ Fintype.piFinset (fun _ : Fin n => (Finset.univ : Finset (Fin d))),
          (∑ p, w p * ∏ i, z p (f i)) * (∑ q, w q * ∏ i, z q (f i)) := by
    calc ∑ p, ∑ q, w p * w q * (∑ k, z p k * z q k) ^ n
        = ∑ p, ∑ q, ∑ f ∈ Fintype.piFinset (fun _ : Fin n => (Finset.univ : Finset (Fin d))),
            (w p * ∏ i, z p (f i)) * (w q * ∏ i, z q (f i)) := by
          refine Finset.sum_congr rfl (fun p _ => Finset.sum_congr rfl (fun q _ => key p q))
      _ = ∑ p, ∑ f ∈ Fintype.piFinset (fun _ : Fin n => (Finset.univ : Finset (Fin d))), ∑ q,
            (w p * ∏ i, z p (f i)) * (w q * ∏ i, z q (f i)) := by
          refine Finset.sum_congr rfl (fun p _ => Finset.sum_comm)
      _ = ∑ f ∈ Fintype.piFinset (fun _ : Fin n => (Finset.univ : Finset (Fin d))), ∑ p, ∑ q,
            (w p * ∏ i, z p (f i)) * (w q * ∏ i, z q (f i)) := Finset.sum_comm
      _ = ∑ f ∈ Fintype.piFinset (fun _ : Fin n => (Finset.univ : Finset (Fin d))),
            (∑ p, w p * ∏ i, z p (f i)) * (∑ q, w q * ∏ i, z q (f i)) := by
          refine Finset.sum_congr rfl (fun f _ => ?_)
          rw [Finset.sum_mul_sum]
  rw [hsq]
  exact Finset.sum_nonneg (fun f _ => mul_self_nonneg _)

/-- Gram sums of the exponential kernel `exp (s * ⟨u, v⟩)`, `s ≥ 0`, are nonnegative: the
exponential series turns the Gram sum into a convergent series whose `n`-th term is
`s ^ n / n!` times a Gram sum of the polynomial kernel of degree `n`. -/
private theorem exp_inner_gram_nonneg {ι : Type} [Fintype ι] {d : ℕ} (z : ι → Fin d → ℝ)
    (w : ι → ℝ) (s : ℝ) (hs : 0 ≤ s) :
    0 ≤ ∑ p, ∑ q, w p * w q * Real.exp (s * ∑ k, z p k * z q k) := by
  have hexp : ∀ t : ℝ, HasSum (fun n : ℕ => t ^ n / (n.factorial : ℝ)) (Real.exp t) := by
    intro t
    rw [Real.exp_eq_exp_ℝ]
    exact NormedSpace.expSeries_div_hasSum_exp t
  have hsum : HasSum
      (fun n : ℕ => ∑ p, ∑ q, w p * w q * ((s * ∑ k, z p k * z q k) ^ n / (n.factorial : ℝ)))
      (∑ p, ∑ q, w p * w q * Real.exp (s * ∑ k, z p k * z q k)) :=
    hasSum_sum (fun p _ => hasSum_sum (fun q _ => (hexp _).mul_left (w p * w q)))
  refine hsum.nonneg (fun n => ?_)
  have hterm : ∑ p, ∑ q, w p * w q * ((s * ∑ k, z p k * z q k) ^ n / (n.factorial : ℝ))
      = s ^ n / (n.factorial : ℝ) * ∑ p, ∑ q, w p * w q * (∑ k, z p k * z q k) ^ n := by
    rw [Finset.mul_sum]
    refine Finset.sum_congr rfl (fun p _ => ?_)
    rw [Finset.mul_sum]
    refine Finset.sum_congr rfl (fun q _ => ?_)
    rw [mul_pow]
    ring
  rw [hterm]
  exact mul_nonneg (div_nonneg (pow_nonneg hs n) (Nat.cast_nonneg _))
    (inner_pow_gram_nonneg z w n)

/-- Gram sums of the Gaussian kernel are nonnegative. -/
theorem gauss_gram_nonneg {ι : Type} [Fintype ι] {d : ℕ} (z : ι → Fin d → ℝ) (w : ι → ℝ) (c : ℝ) (hc : 0 < c) :
    0 ≤ ∑ p, ∑ q, w p * w q * Real.exp (-(∑ k, (z p k - z q k) ^ 2) / c) := by
  have hsplit : ∀ p q, w p * w q * Real.exp (-(∑ k, (z p k - z q k) ^ 2) / c)
      = (w p * Real.exp (-(∑ k, z p k ^ 2) / c)) * (w q * Real.exp (-(∑ k, z q k ^ 2) / c))
          * Real.exp (2 / c * ∑ k, z p k * z q k) := by
    intro p q
    have hnorm : ∑ k, (z p k - z q k) ^ 2
        = ∑ k, z p k ^ 2 + ∑ k, z q k ^ 2 - 2 * ∑ k, z p k * z q k := by
      rw [Finset.mul_sum, ← Finset.sum_add_distrib, ← Finset.sum_sub_distrib]
      exact Finset.sum_congr rfl (fun k _ => by ring)
    have hexp : Real.exp (-(∑ k, (z p k - z q k) ^ 2) / c)
        = Real.exp (-(∑ k, z p k ^ 2) / c) * Real.exp (-(∑ k, z q k ^ 2) / c)
          * Real.exp (2 / c * ∑ k, z p k * z q k) := by
      rw [hnorm, ← Real.exp_add, ← Real.exp_add]
      congr 1
      ring
    rw [hexp]
    ring
  have hrew : ∑ p, ∑ q, w p * w q * Real.exp (-(∑ k, (z p k - z q k) ^ 2) / c)
      = ∑ p, ∑ q, (w p * Real.exp (-(∑ k, z p k ^ 2) / c))
          * (w q * Real.exp (-(∑ k, z q k ^ 2) / c))
          * Real.exp (2 / c * ∑ k, z p k * z q k) :=
    Finset.sum_congr rfl (fun p _ => Finset.sum_congr rfl (fun q _ => hsplit p q))
  rw [hrew]
  exact exp_inner_gram_nonneg z (fun p => w p * Real.exp (-(∑ k, z p k ^ 2) / c)) (2 / c)
    (div_nonneg (by norm_num) hc.le)

/-- The squared maximum mean discrepancy of two samples under a Gaussian kernel is nonnegative. -/
theorem mmd_nonneg {n d : ℕ} (x y : Fin n → Fin d → ℝ) (c : ℝ) (hc : 0 < c) :
    0 ≤ (∑ i, ∑ j, Real.exp (-(∑ k, (x i k - x j k) ^ 2) / c))
        + (∑ i, ∑ j, Real.exp (-(∑ k, (y i k - y j k) ^ 2) / c))
        - 2 * ∑ i, ∑ j, Real.exp (-(∑ k, (x i k - y j k) ^ 2) / c) := by
  have h := gauss_gram_nonneg (ι := Fin n ⊕ Fin n) (Sum.elim x y)
    (Sum.elim (fun _ => (1 : ℝ)) (fun _ => (-1 : ℝ))) c hc
  simp only [Fintype.sum_sum_type, Sum.elim_inl, Sum.elim_inr] at h
  have hsymm : ∑ i, ∑ j, Real.exp (-(∑ k, (y i k - x j k) ^ 2) / c)
      = ∑ i, ∑ j, Real.exp (-(∑ k, (x i k - y j k) ^ 2) / c) := by
    rw [Finset.sum_comm]
    refine Finset.sum_congr rfl (fun i _ => Finset.sum_congr rfl (fun j _ => ?_))
    have : ∑ k, (y j k - x i k) ^ 2 = ∑ k, (x i k - y j k) ^ 2 :=
      Finset.sum_congr rfl (fun k _ => by ring)
    rw [this]
  simp only [one_mul, mul_one, mul_neg, neg_mul, neg_neg, Finset.sum_neg_distrib,
    Finset.sum_add_distrib] at h
  rw [hsymm] at h
  linarith

end Cert.LibGaussGram
-- ==== Proof.Spec.lean ====
/-
  The quantity both programs compute, over the reals.

  For two samples x, y of n = 8192 points in dimension 256 and the Gaussian kernel
  k(u, v) = exp(-|u - v|² / 256) (width ℓ² = 128, so -|u - v|² / (2 ℓ²)), the squared maximum mean discrepancy is
      mean k(x, x) + mean k(y, y) - 2 · mean k(x, y),
  each mean a sum over all n² pairs divided by n² = 2²⁶. It is nonnegative (the Gaussian kernel is positive
  semidefinite), and the result is its square root.
-/
import Mathlib.Analysis.SpecialFunctions.Sqrt
import proofs.«170219_j46866683134277_2_alg».proof.Proof.LibGaussGram

noncomputable section

namespace Cert.MmdSpec

open scoped BigOperators

/-- The sum over all pairs (i, j) of the Gaussian kernel exp(-|aᵢ - bⱼ|² / c). -/
def gaussSum {n d : ℕ} (a b : Fin n → Fin d → ℝ) (c : ℝ) : ℝ :=
  ∑ i, ∑ j, Real.exp (-(∑ k, (a i k - b j k) ^ 2) / c)

/-- The squared maximum mean discrepancy of the samples x and y: each mean is the pair sum over 2²⁶ pairs. -/
def mmdR (x y : Fin 8192 → Fin 256 → ℝ) : ℝ :=
  gaussSum x x 256 / 67108864 + gaussSum y y 256 / 67108864 - 2 * (gaussSum x y 256 / 67108864)

/-- It is nonnegative: a Gram sum of a positive semidefinite kernel with weights +1 on x and -1 on y. -/
theorem mmdR_nonneg (x y : Fin 8192 → Fin 256 → ℝ) : 0 ≤ mmdR x y := by
  have h := Cert.LibGaussGram.mmd_nonneg x y 256 (by norm_num)
  have e : mmdR x y = (gaussSum x x 256 + gaussSum y y 256 - 2 * gaussSum x y 256) / 67108864 := by
    unfold mmdR; ring
  rw [e]
  exact div_nonneg h (by norm_num)

/-- The result of both programs: the square root of the squared discrepancy. -/
def result (x y : Fin 8192 → Fin 256 → ℝ) : ℝ := Real.sqrt (mmdR x y)

end Cert.MmdSpec

end
-- ==== Proof.KernelHostValue.lean ====
/-
  The value of the kernel program on its host side. Between the three kernel regions the program computes, for each
  sample, the scaled squared row norms s_p = -(1/256) · Σ_k a_pk² (as a column and as a row); a region, given samples a, b
  and these, leaves the row sums Σ_j exp(min(s_p + t_j + ⟨a_p, b_j⟩/128, 0)) (a hypothesis here); the host sums each
  column of row sums and divides by 2²⁶. Since s_p + t_j + ⟨a_p, b_j⟩/128 = -|a_p - b_j|²/256 ≤ 0, each of the three
  numbers is a mean of Gaussian kernel values, and the last operations combine them into the square root of the squared
  discrepancy of the specification.
-/
import proofs.«170219_j46866683134277_2_alg».proof.Proof.KernelIdealVals
import proofs.«170219_j46866683134277_2_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelHostAlg

open Idealize.ShloMosaic
open scoped BigOperators

/-- The pattern of -1/256. -/
theorem ofBits_negInv256 : Ideal.ofBits .f32 0xBB800000#32 = ((-(1 / 256) : ℝ) : EReal) := by
  simp [Ideal.ofBits, Ideal.ieee, -EReal.coe_mul]; norm_num

/-- The pattern of 2²⁶. -/
theorem ofBits_2p26 : Ideal.ofBits .f32 0x4C800000#32 = ((67108864 : ℝ) : EReal) := by
  simp [Ideal.ofBits, Ideal.ieee, -EReal.coe_mul]; norm_num

/-- The pattern of 2. -/
theorem ofBits_two : Ideal.ofBits .f32 0x40000000#32 = ((2 : ℝ) : EReal) := by
  simp [Ideal.ofBits, Ideal.ieee, -EReal.coe_mul]; norm_num

/-- The pattern of 0. -/
theorem ofBits_zero : Ideal.ofBits .f32 0x00000000#32 = ((0 : ℝ) : EReal) := by
  simp [Ideal.ofBits, Ideal.ieee]

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- -|a|²/256 - |b|²/256 + 2⟨a, b⟩/256 = -|a - b|²/256. -/
theorem gauss_arg (a b : Fin 256 → ℝ) :
    (-(1 / 256) * ∑ k, a k ^ 2) + (-(1 / 256) * ∑ k, b k ^ 2) + (∑ k, a k * b k) * (1 / 128)
      = -(∑ k, (a k - b k) ^ 2) / 256 := by
  have h : ∑ k, (a k - b k) ^ 2 = ∑ k, a k ^ 2 + ∑ k, b k ^ 2 - 2 * ∑ k, a k * b k := by
    rw [Finset.mul_sum, ← Finset.sum_add_distrib, ← Finset.sum_sub_distrib]
    exact Finset.sum_congr rfl fun k _ => by ring
  rw [h]; ring

/-- The exponent is nonpositive, so clamping it at zero changes nothing: a row of clamped exponentials is the row of
    Gaussian kernel values. -/
theorem rowSum_eq (a b : Fin 8192 → Fin 256 → ℝ) (p : Fin 8192) :
    ∑ j : Fin 8192, Real.exp (min ((-(1 / 256) * ∑ k, a p k ^ 2) + (-(1 / 256) * ∑ k, b j k ^ 2)
        + (∑ k : Fin 256, a p k * b j k) * (1 / 128)) 0)
      = ∑ j : Fin 8192, Real.exp (-(∑ k, (a p k - b j k) ^ 2) / 256) := by
  refine Finset.sum_congr rfl fun j _ => ?_
  rw [gauss_arg, min_eq_left]
  exact div_nonpos_of_nonpos_of_nonneg (neg_nonpos.2 (Finset.sum_nonneg fun k _ => sq_nonneg _)) (by norm_num)

/-- Summed over the rows: the pair sum of the specification. -/
theorem pairSum_eq (a b : Fin 8192 → Fin 256 → ℝ) :
    ∑ p : Fin 8192, ∑ j : Fin 8192, Real.exp (min ((-(1 / 256) * ∑ k, a p k ^ 2) + (-(1 / 256) * ∑ k, b j k ^ 2)
        + (∑ k : Fin 256, a p k * b j k) * (1 / 128)) 0)
      = Cert.MmdSpec.gaussSum a b 256 := by
  unfold Cert.MmdSpec.gaussSum
  exact Finset.sum_congr rfl fun p _ => rowSum_eq a b p

/-- The square root of a real clamped at zero is the square root of the real. -/
theorem sqrt_max_zero (r : ℝ) : Real.sqrt (max r 0) = Real.sqrt r := by
  rcases le_total 0 r with h | h
  · rw [max_eq_left h]
  · rw [max_eq_right h, Real.sqrt_zero, Real.sqrt_eq_zero_of_nonpos h]

/-- The last four operations on three real means: combine, clamp at zero, take the square root. -/
theorem final_eq (A B C : ℝ) :
    Ideal.sqrt (max (((A : ℝ) : EReal) + ((B : ℝ) : EReal) - ((2 : ℝ) : EReal) * ((C : ℝ) : EReal)) ((0 : ℝ) : EReal))
      = ((Real.sqrt (A + B - 2 * C) : ℝ) : EReal) := by
  rw [← EReal.coe_add, ← EReal.coe_mul, ← EReal.coe_sub,
    ← (EReal.coe_strictMono.monotone.map_max : ((max (A + B - 2 * C) 0 : ℝ) : EReal) = _), Ideal.sqrt_coe,
    if_neg (not_lt.2 (le_max_right _ _)), sqrt_max_zero]

end Cert.KernelHostAlg

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

open Idealize.ShloMosaic.ValueIdx

/-! ## The host operations' terms -/

/-- The scaled squared row norms of a sample, as a column: -(1/256) · Σ_k x_pk². -/
def hostSqCol (x0 : (⟨S8192x256, .f32⟩ : BufTy).Contents (Elt Ideal)) : (⟨S8192x1, .f32⟩ : BufTy).Contents (Elt Ideal) :=
  mulf (broadcastInDim S8192x1 ![] bcast_S_S8192x1 (constant (F := Ideal) S_ .f32 0xBB800000#32))
    (broadcastInDim S8192x1 ![0] bcast_S8192_S8192x1_0
      (Host.reduceAdd (F := Ideal) (mulf x0 x0) (constant (F := Ideal) S_ .f32 0x00000000#32) reducesTo_S8192x256_S8192_d1 h_S_))

/-- The same as a row. -/
def hostSqRow (x0 : (⟨S8192x256, .f32⟩ : BufTy).Contents (Elt Ideal)) : (⟨S1x8192, .f32⟩ : BufTy).Contents (Elt Ideal) :=
  fun i => shapeCast S1x8192 (hostSqCol x0) shapeCasts_S8192x1_S1x8192 i

/-- The sum of a column of row sums, over 2²⁶. -/
def hostMean (o : (⟨S8192x1, .f32⟩ : BufTy).Contents (Elt Ideal)) : (⟨S_, .f32⟩ : BufTy).Contents (Elt Ideal) :=
  Host.divf (F := Ideal) (Host.reduceAdd (F := Ideal) o (constant (F := Ideal) S_ .f32 0x00000000#32) reducesTo_S8192x1_S_d0_1 h_S_)
    (constant (F := Ideal) S_ .f32 0x4C800000#32)

/-- The last operations: the first two means' sum less twice the third, clamped at zero, its square root. -/
def hostFinal (v28 o : (⟨S_, .f32⟩ : BufTy).Contents (Elt Ideal)) : (⟨S_, .f32⟩ : BufTy).Contents (Elt Ideal) :=
  Host.sqrt (F := Ideal) (maximumf (subf v28 (mulf (constant (F := Ideal) S_ .f32 0x40000000#32) o))
    (constant (F := Ideal) S_ .f32 0x00000000#32))

/-! ## Read at an index -/

/-- A host sum over the second axis, read at a row: the initial value plus the sum of the row's entries. -/
theorem hostRowSum_apply (y0 : (⟨S8192x256, .f32⟩ : BufTy).Contents (Elt Ideal)) (init : (⟨S_, .f32⟩ : BufTy).Contents (Elt Ideal))
    (p : Fin 8192) :
    Host.reduceAdd (F := Ideal) (s := S8192x256) (φ := .f32) (u := S_) y0 init reducesTo_S8192x256_S8192_d1 h_S_ (ix1 p)
      = init (Shape.Idx.first h_S_) + ∑ k : Fin 256, y0 (ix2 p k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg y0 (funext fun a => Fin.ext (by match a with | ⟨0, _⟩ => rfl | ⟨1, _⟩ => rfl))

/-- On a sample of real entries the column holds -(1/256) · Σ_k a_pk² at row p. -/
theorem hostSqCol_apply (x0 : (⟨S8192x256, .f32⟩ : BufTy).Contents (Elt Ideal)) (a : Fin 8192 → Fin 256 → ℝ)
    (h : ∀ p q, x0 (ix2 p q) = ((a p q : ℝ) : EReal)) (p : Fin 8192) :
    hostSqCol x0 (ix2 p (0 : Fin 1)) = ((-(1 / 256) * ∑ k, a p k ^ 2 : ℝ) : EReal) := by
  unfold hostSqCol
  rw [ValueIdx.mulf_apply,
    broadcastInDim_apply _ bcast_S_S8192x1 _ _ ValueIdx.ix0 (fun a => a.elim0),
    broadcastInDim_apply _ bcast_S8192_S8192x1_0 _ _ (ValueIdx.ix1 p) (fun a => match a with
      | ⟨0, _⟩ => by show p.val = if (8192 : Nat) = 1 then 0 else p.val; rw [if_neg (by decide)]),
    ValueIdx.constant_apply, Cert.KernelHostAlg.ofBits_negInv256, hostRowSum_apply, ValueIdx.constant_apply,
    Cert.KernelHostAlg.ofBits_zero]
  have e : ∀ k : Fin 256, mulf (F := Ideal) (s := S8192x256) (φ := .f32) x0 x0 (ix2 p k) = ((a p k ^ 2 : ℝ) : EReal) := fun k => by
    rw [ValueIdx.mulf_apply, h, ← EReal.coe_mul, pow_two]
  simp only [e]
  rw [← Cert.KernelHostAlg.coe_sum, ← EReal.coe_add, ← EReal.coe_mul, zero_add]

/-- The row holds the same numbers: entry (0, p) of the row is entry (p, 0) of the column. -/
theorem hostSqRow_apply (x0 : (⟨S8192x256, .f32⟩ : BufTy).Contents (Elt Ideal)) (a : Fin 8192 → Fin 256 → ℝ)
    (h : ∀ p q, x0 (ix2 p q) = ((a p q : ℝ) : EReal)) (p : Fin 8192) :
    hostSqRow x0 (ix2 (0 : Fin 1) p) = ((-(1 / 256) * ∑ k, a p k ^ 2 : ℝ) : EReal) := by
  unfold hostSqRow
  rw [shapeCast_apply _ shapeCasts_S8192x1_S1x8192 _ (ix2 p (0 : Fin 1)) (by
    rw [Shape.rowMajor_val_two, Shape.rowMajor_val_two]
    show p.val * 1 + 0 = 0 * 8192 + p.val
    omega)]
  exact hostSqCol_apply x0 a h p

/-- On a column of real row sums the mean is their sum over 2²⁶. -/
theorem hostMean_apply (o : (⟨S8192x1, .f32⟩ : BufTy).Contents (Elt Ideal)) (r : Fin 8192 → ℝ)
    (h : ∀ p : Fin 8192, o (ix2 p (0 : Fin 1)) = ((r p : ℝ) : EReal)) (i : S_.Idx) :
    hostMean o i = (((∑ p, r p) / 67108864 : ℝ) : EReal) := by
  unfold hostMean
  show FloatOps.hostDivf _ _ = _
  rw [Ideal.hostDivf_def, ValueIdx.constant_apply, Cert.KernelHostAlg.ofBits_2p26, Ideal.div_coe (by norm_num)]
  simp only [Host.reduceAdd, Ideal.hostReduceAdd_def]
  rw [Ideal.hostReduceAdd_total reducesTo_S8192x1_S_d0_1 (fun b => b.elim0), ValueIdx.constant_apply,
    Cert.KernelHostAlg.ofBits_zero, ValueIdx.sum_idx2]
  simp only [Fin.sum_univ_one, h]
  rw [← Cert.KernelHostAlg.coe_sum, ← EReal.coe_add, ← EReal.coe_mul, zero_add, ← div_eq_mul_one_div]

/-- On the real numbers A + B and C the last operations give √(A + B - 2C). -/
theorem hostFinal_apply (v28 o : (⟨S_, .f32⟩ : BufTy).Contents (Elt Ideal)) (A B C : ℝ)
    (h28 : ∀ i, v28 i = ((A : ℝ) : EReal) + ((B : ℝ) : EReal)) (ho : ∀ i, o i = ((C : ℝ) : EReal)) (i : S_.Idx) :
    hostFinal v28 o i = ((Real.sqrt (A + B - 2 * C) : ℝ) : EReal) := by
  unfold hostFinal
  show FloatOps.hostUnary .sqrt _ = _
  rw [Ideal.hostUnary_sqrt_def, ValueIdx.maximumf_apply, ValueIdx.subf_apply, ValueIdx.mulf_apply,
    ValueIdx.constant_apply, ValueIdx.constant_apply, Cert.KernelHostAlg.ofBits_two, Cert.KernelHostAlg.ofBits_zero, h28, ho]
  exact Cert.KernelHostAlg.final_eq A B C

/-! ## What each host stretch leaves at the references read later, from any contents -/

/-- Stretch 0: the first sample is untouched. -/
theorem hostAfter0_arg0 (W : Valuation τ sig (Elt Ideal)) :
    (StableHlo.after (hostOps0 (F := Ideal)) W (Proc.devRef .tc main_arg0) : (⟨S8192x256, .f32⟩ : BufTy).Contents (Elt Ideal)) = W (Proc.devRef .tc main_arg0) := by
  after_results
  all_goals rfl

/-- Stretch 0: the second sample is untouched. -/
theorem hostAfter0_arg1 (W : Valuation τ sig (Elt Ideal)) :
    (StableHlo.after (hostOps0 (F := Ideal)) W (Proc.devRef .tc main_arg1) : (⟨S8192x256, .f32⟩ : BufTy).Contents (Elt Ideal)) = W (Proc.devRef .tc main_arg1) := by
  after_results
  all_goals rfl

/-- Stretch 0: x's scaled squared norms as a column. -/
theorem hostAfter0_v4 (W : Valuation τ sig (Elt Ideal)) :
    (StableHlo.after (hostOps0 (F := Ideal)) W (Proc.devRef .tc main_v4) : (⟨S8192x1, .f32⟩ : BufTy).Contents (Elt Ideal)) = hostSqCol (W (Proc.devRef .tc main_arg0)) := by
  after_results
  all_goals rfl

/-- Stretch 0: x's scaled squared norms as a row. -/
theorem hostAfter0_v10 (W : Valuation τ sig (Elt Ideal)) :
    (StableHlo.after (hostOps0 (F := Ideal)) W (Proc.devRef .tc main_v10) : (⟨S1x8192, .f32⟩ : BufTy).Contents (Elt Ideal)) = hostSqRow (W (Proc.devRef .tc main_arg0)) := by
  after_results
  all_goals rfl

/-- Stretch 1: the first sample is untouched. -/
theorem hostAfter1_arg0 (W : Valuation τ sig (Elt Ideal)) :
    (StableHlo.after (hostOps1 (F := Ideal)) W (Proc.devRef .tc main_arg0) : (⟨S8192x256, .f32⟩ : BufTy).Contents (Elt Ideal)) = W (Proc.devRef .tc main_arg0) := by
  after_results
  all_goals rfl

/-- Stretch 1: the second sample is untouched. -/
theorem hostAfter1_arg1 (W : Valuation τ sig (Elt Ideal)) :
    (StableHlo.after (hostOps1 (F := Ideal)) W (Proc.devRef .tc main_arg1) : (⟨S8192x256, .f32⟩ : BufTy).Contents (Elt Ideal)) = W (Proc.devRef .tc main_arg1) := by
  after_results
  all_goals rfl

/-- Stretch 1: the mean of region 0's row sums. -/
theorem hostAfter1_v13 (W : Valuation τ sig (Elt Ideal)) :
    (StableHlo.after (hostOps1 (F := Ideal)) W (Proc.devRef .tc main_v13) : (⟨S_, .f32⟩ : BufTy).Contents (Elt Ideal)) = hostMean (W (Proc.devRef .tc main_v11)) := by
  after_results
  all_goals rfl

/-- Stretch 1: y's scaled squared norms as a column. -/
theorem hostAfter1_v18 (W : Valuation τ sig (Elt Ideal)) :
    (StableHlo.after (hostOps1 (F := Ideal)) W (Proc.devRef .tc main_v18) : (⟨S8192x1, .f32⟩ : BufTy).Contents (Elt Ideal)) = hostSqCol (W (Proc.devRef .tc main_arg1)) := by
  after_results
  all_goals rfl

/-- Stretch 1: y's scaled squared norms as a row. -/
theorem hostAfter1_v24 (W : Valuation τ sig (Elt Ideal)) :
    (StableHlo.after (hostOps1 (F := Ideal)) W (Proc.devRef .tc main_v24) : (⟨S1x8192, .f32⟩ : BufTy).Contents (Elt Ideal)) = hostSqRow (W (Proc.devRef .tc main_arg1)) := by
  after_results
  all_goals rfl

/-- Stretch 2: the first mean plus the mean of region 1's row sums. -/
theorem hostAfter2_v28 (W : Valuation τ sig (Elt Ideal)) :
    (StableHlo.after (hostOps2 (F := Ideal)) W (Proc.devRef .tc main_v28) : (⟨S_, .f32⟩ : BufTy).Contents (Elt Ideal)) = addf (F := Ideal) (s := S_) (φ := .f32) (W (Proc.devRef .tc main_v13)) (hostMean (W (Proc.devRef .tc main_v25))) := by
  after_results
  all_goals rfl

/-- Stretch 2: the first sample is untouched. -/
theorem hostAfter2_arg0 (W : Valuation τ sig (Elt Ideal)) :
    (StableHlo.after (hostOps2 (F := Ideal)) W (Proc.devRef .tc main_arg0) : (⟨S8192x256, .f32⟩ : BufTy).Contents (Elt Ideal)) = W (Proc.devRef .tc main_arg0) := by
  after_results
  all_goals rfl

/-- Stretch 2: the second sample is untouched. -/
theorem hostAfter2_arg1 (W : Valuation τ sig (Elt Ideal)) :
    (StableHlo.after (hostOps2 (F := Ideal)) W (Proc.devRef .tc main_arg1) : (⟨S8192x256, .f32⟩ : BufTy).Contents (Elt Ideal)) = W (Proc.devRef .tc main_arg1) := by
  after_results
  all_goals rfl

/-- Stretch 2: x's scaled squared norms as a column. -/
theorem hostAfter2_v33 (W : Valuation τ sig (Elt Ideal)) :
    (StableHlo.after (hostOps2 (F := Ideal)) W (Proc.devRef .tc main_v33) : (⟨S8192x1, .f32⟩ : BufTy).Contents (Elt Ideal)) = hostSqCol (W (Proc.devRef .tc main_arg0)) := by
  after_results
  all_goals rfl

/-- Stretch 2: y's scaled squared norms as a row. -/
theorem hostAfter2_v39 (W : Valuation τ sig (Elt Ideal)) :
    (StableHlo.after (hostOps2 (F := Ideal)) W (Proc.devRef .tc main_v39) : (⟨S1x8192, .f32⟩ : BufTy).Contents (Elt Ideal)) = hostSqRow (W (Proc.devRef .tc main_arg1)) := by
  after_results
  all_goals rfl

/-- Stretch 3: the last operations on the sum of the first two means and the mean of region 2's row sums. -/
theorem hostAfter3_v46 (W : Valuation τ sig (Elt Ideal)) :
    (StableHlo.after (hostOps3 (F := Ideal)) W (Proc.devRef .tc main_v46) : (⟨S_, .f32⟩ : BufTy).Contents (Elt Ideal)) = hostFinal (W (Proc.devRef .tc main_v28)) (hostMean (W (Proc.devRef .tc main_v40))) := by
  after_results
  all_goals rfl

/-! ## The value of the program -/

open Idealize.ShloMosaic.ValueIdx in
/-- From real samples, and given what the three regions leave in their result arrays, the program's result is the
    square root of the squared maximum mean discrepancy. -/
theorem kernel_value (xr yr : Fin 8192 → Fin 256 → ℝ) (m : (ℓ : Loc nD τ sig) → Buf (Elt Ideal) ℓ) (c : Dev nD)
      (hx : ∀ (p : Fin 8192) (q : Fin 256), m ((c.tc : Thread nD τ).loc main_arg0) (ix2 p q) = ((xr p q : ℝ) : EReal))
      (hy : ∀ (p : Fin 8192) (q : Fin 256), m ((c.tc : Thread nD τ).loc main_arg1) (ix2 p q) = ((yr p q : ℝ) : EReal))
      (rows0 : ∀ (ar br : Fin 8192 → Fin 256 → ℝ) (sr tr : Fin 8192 → ℝ),
        (∀ p q, T1 m c (Pipeline.arrRef spec0 0) (ix2 p q) = ((ar p q : ℝ) : EReal)) →
        (∀ p q, T1 m c (Pipeline.arrRef spec0 1) (ix2 p q) = ((br p q : ℝ) : EReal)) →
        (∀ p : Fin 8192, T1 m c (Pipeline.arrRef spec0 2) (ix2 p (0 : Fin 1)) = ((sr p : ℝ) : EReal)) →
        (∀ p : Fin 8192, T1 m c (Pipeline.arrRef spec0 3) (ix2 (0 : Fin 1) p) = ((tr p : ℝ) : EReal)) →
        ∀ p : Fin 8192, (dat0 (F := Ideal) (T1 m) c).arrAt 4 cfg0.N (ix2 p (0 : Fin 1))
          = ((∑ j : Fin 8192, Real.exp (min (sr p + tr j + (∑ k : Fin 256, ar p k * br j k) * (1 / 128)) 0) : ℝ) : EReal))
      (rows1 : ∀ (ar br : Fin 8192 → Fin 256 → ℝ) (sr tr : Fin 8192 → ℝ),
        (∀ p q, T3 m c (Pipeline.arrRef spec1 0) (ix2 p q) = ((ar p q : ℝ) : EReal)) →
        (∀ p q, T3 m c (Pipeline.arrRef spec1 1) (ix2 p q) = ((br p q : ℝ) : EReal)) →
        (∀ p : Fin 8192, T3 m c (Pipeline.arrRef spec1 2) (ix2 p (0 : Fin 1)) = ((sr p : ℝ) : EReal)) →
        (∀ p : Fin 8192, T3 m c (Pipeline.arrRef spec1 3) (ix2 (0 : Fin 1) p) = ((tr p : ℝ) : EReal)) →
        ∀ p : Fin 8192, (dat1 (F := Ideal) (T3 m) c).arrAt 4 cfg1.N (ix2 p (0 : Fin 1))
          = ((∑ j : Fin 8192, Real.exp (min (sr p + tr j + (∑ k : Fin 256, ar p k * br j k) * (1 / 128)) 0) : ℝ) : EReal))
      (rows2 : ∀ (ar br : Fin 8192 → Fin 256 → ℝ) (sr tr : Fin 8192 → ℝ),
        (∀ p q, T5 m c (Pipeline.arrRef spec2 0) (ix2 p q) = ((ar p q : ℝ) : EReal)) →
        (∀ p q, T5 m c (Pipeline.arrRef spec2 1) (ix2 p q) = ((br p q : ℝ) : EReal)) →
        (∀ p : Fin 8192, T5 m c (Pipeline.arrRef spec2 2) (ix2 p (0 : Fin 1)) = ((sr p : ℝ) : EReal)) →
        (∀ p : Fin 8192, T5 m c (Pipeline.arrRef spec2 3) (ix2 (0 : Fin 1) p) = ((tr p : ℝ) : EReal)) →
        ∀ p : Fin 8192, (dat2 (F := Ideal) (T5 m) c).arrAt 4 cfg2.N (ix2 p (0 : Fin 1))
          = ((∑ j : Fin 8192, Real.exp (min (sr p + tr j + (∑ k : Fin 256, ar p k * br j k) * (1 / 128)) 0) : ℝ) : EReal)) :
      X7 (F := Ideal) m c main_v46 = fun _ => ((Cert.MmdSpec.result xr yr : ℝ) : EReal) := by
  -- before region 0: the two samples' rows and the scaled squared norms
  have a0 : ∀ p q, T1 m c (Pipeline.arrRef spec0 0) (ix2 p q) = ((xr p q : ℝ) : EReal) := fun p q =>
    (congrFun (hostAfter0_arg0 (V0 m c)) (ix2 p q)).trans (hx p q)
  have a1 : ∀ p q, T1 m c (Pipeline.arrRef spec0 1) (ix2 p q) = ((xr p q : ℝ) : EReal) := a0
  have a2 : ∀ p : Fin 8192, T1 m c (Pipeline.arrRef spec0 2) (ix2 p (0 : Fin 1))
      = ((-(1 / 256) * ∑ k, xr p k ^ 2 : ℝ) : EReal) := fun p =>
    (congrFun (hostAfter0_v4 (V0 m c)) (ix2 p (0 : Fin 1))).trans (hostSqCol_apply _ xr hx p)
  have a3 : ∀ p : Fin 8192, T1 m c (Pipeline.arrRef spec0 3) (ix2 (0 : Fin 1) p)
      = ((-(1 / 256) * ∑ k, xr p k ^ 2 : ℝ) : EReal) := fun p =>
    (congrFun (hostAfter0_v10 (V0 m c)) (ix2 (0 : Fin 1) p)).trans (hostSqRow_apply _ xr hx p)
  have o2 := rows0 xr xr _ _ a0 a1 a2 a3
  -- after region 0: its result array holds the x–x row sums; the samples are untouched
  have e11 : (X2 (F := Ideal) m c (Proc.devRef .tc main_v11) : (⟨S8192x1, .f32⟩ : BufTy).Contents (Elt Ideal)) = O2 m c := Function.update_self ..
  have hx2 : ∀ p q, (X2 (F := Ideal) m c (Proc.devRef .tc main_arg0) : (⟨S8192x256, .f32⟩ : BufTy).Contents (Elt Ideal)) (ix2 p q) = ((xr p q : ℝ) : EReal) := fun p q =>
    (congrFun ((Function.update_of_ne (StableHlo.devRef_ne_of_ne (by decide)) _ _).trans (hostAfter0_arg0 (V0 m c))) (ix2 p q)).trans (hx p q)
  have hy2 : ∀ p q, (X2 (F := Ideal) m c (Proc.devRef .tc main_arg1) : (⟨S8192x256, .f32⟩ : BufTy).Contents (Elt Ideal)) (ix2 p q) = ((yr p q : ℝ) : EReal) := fun p q =>
    (congrFun ((Function.update_of_ne (StableHlo.devRef_ne_of_ne (by decide)) _ _).trans (hostAfter0_arg1 (V0 m c))) (ix2 p q)).trans (hy p q)
  -- the x–x mean
  have m13 : ∀ i, (X3 (F := Ideal) m c (Proc.devRef .tc main_v13) : (⟨S_, .f32⟩ : BufTy).Contents (Elt Ideal)) i
      = ((Cert.MmdSpec.gaussSum xr xr 256 / 67108864 : ℝ) : EReal) := fun i =>
    (congrFun (hostAfter1_v13 (X2 m c)) i).trans <| (congrFun (congrArg hostMean e11) i).trans <|
      (hostMean_apply (O2 m c) _ o2 i).trans
        (congrArg (fun t : ℝ => ((t / 67108864 : ℝ) : EReal)) (Cert.KernelHostAlg.pairSum_eq xr xr))
  -- before region 1: y's rows and scaled squared norms
  have b0 : ∀ p q, T3 m c (Pipeline.arrRef spec1 0) (ix2 p q) = ((yr p q : ℝ) : EReal) := fun p q =>
    (congrFun (hostAfter1_arg1 (X2 m c)) (ix2 p q)).trans (hy2 p q)
  have b1 : ∀ p q, T3 m c (Pipeline.arrRef spec1 1) (ix2 p q) = ((yr p q : ℝ) : EReal) := b0
  have b2 : ∀ p : Fin 8192, T3 m c (Pipeline.arrRef spec1 2) (ix2 p (0 : Fin 1))
      = ((-(1 / 256) * ∑ k, yr p k ^ 2 : ℝ) : EReal) := fun p =>
    (congrFun (hostAfter1_v18 (X2 m c)) (ix2 p (0 : Fin 1))).trans (hostSqCol_apply _ yr hy2 p)
  have b3 : ∀ p : Fin 8192, T3 m c (Pipeline.arrRef spec1 3) (ix2 (0 : Fin 1) p)
      = ((-(1 / 256) * ∑ k, yr p k ^ 2 : ℝ) : EReal) := fun p =>
    (congrFun (hostAfter1_v24 (X2 m c)) (ix2 (0 : Fin 1) p)).trans (hostSqRow_apply _ yr hy2 p)
  have o4 := rows1 yr yr _ _ b0 b1 b2 b3
  -- after region 1: its result array holds the y–y row sums; the first mean and the samples are untouched
  have e25 : (X4 (F := Ideal) m c (Proc.devRef .tc main_v25) : (⟨S8192x1, .f32⟩ : BufTy).Contents (Elt Ideal)) = O4 m c := Function.update_self ..
  have hx4 : ∀ p q, (X4 (F := Ideal) m c (Proc.devRef .tc main_arg0) : (⟨S8192x256, .f32⟩ : BufTy).Contents (Elt Ideal)) (ix2 p q) = ((xr p q : ℝ) : EReal) := fun p q =>
    (congrFun ((Function.update_of_ne (StableHlo.devRef_ne_of_ne (by decide)) _ _).trans (hostAfter1_arg0 (X2 m c))) (ix2 p q)).trans (hx2 p q)
  have hy4 : ∀ p q, (X4 (F := Ideal) m c (Proc.devRef .tc main_arg1) : (⟨S8192x256, .f32⟩ : BufTy).Contents (Elt Ideal)) (ix2 p q) = ((yr p q : ℝ) : EReal) := fun p q =>
    (congrFun ((Function.update_of_ne (StableHlo.devRef_ne_of_ne (by decide)) _ _).trans (hostAfter1_arg1 (X2 m c))) (ix2 p q)).trans (hy2 p q)
  have m13' : ∀ i, (X4 (F := Ideal) m c (Proc.devRef .tc main_v13) : (⟨S_, .f32⟩ : BufTy).Contents (Elt Ideal)) i
      = ((Cert.MmdSpec.gaussSum xr xr 256 / 67108864 : ℝ) : EReal) := fun i =>
    (congrFun (Function.update_of_ne (StableHlo.devRef_ne_of_ne (by decide)) _ _) i).trans (m13 i)
  -- the sum of the x–x and y–y means
  have m28 : ∀ i, (X5 (F := Ideal) m c (Proc.devRef .tc main_v28) : (⟨S_, .f32⟩ : BufTy).Contents (Elt Ideal)) i
      = ((Cert.MmdSpec.gaussSum xr xr 256 / 67108864 : ℝ) : EReal) + ((Cert.MmdSpec.gaussSum yr yr 256 / 67108864 : ℝ) : EReal) := fun i =>
    (congrFun (hostAfter2_v28 (X4 m c)) i).trans <| congrArg₂ (· + ·) (m13' i) <|
      (congrFun (congrArg hostMean e25) i).trans <| (hostMean_apply (O4 m c) _ o4 i).trans
        (congrArg (fun t : ℝ => ((t / 67108864 : ℝ) : EReal)) (Cert.KernelHostAlg.pairSum_eq yr yr))
  -- before region 2: x's rows and norms against y's
  have c0 : ∀ p q, T5 m c (Pipeline.arrRef spec2 0) (ix2 p q) = ((xr p q : ℝ) : EReal) := fun p q =>
    (congrFun (hostAfter2_arg0 (X4 m c)) (ix2 p q)).trans (hx4 p q)
  have c1 : ∀ p q, T5 m c (Pipeline.arrRef spec2 1) (ix2 p q) = ((yr p q : ℝ) : EReal) := fun p q =>
    (congrFun (hostAfter2_arg1 (X4 m c)) (ix2 p q)).trans (hy4 p q)
  have c2 : ∀ p : Fin 8192, T5 m c (Pipeline.arrRef spec2 2) (ix2 p (0 : Fin 1))
      = ((-(1 / 256) * ∑ k, xr p k ^ 2 : ℝ) : EReal) := fun p =>
    (congrFun (hostAfter2_v33 (X4 m c)) (ix2 p (0 : Fin 1))).trans (hostSqCol_apply _ xr hx4 p)
  have c3 : ∀ p : Fin 8192, T5 m c (Pipeline.arrRef spec2 3) (ix2 (0 : Fin 1) p)
      = ((-(1 / 256) * ∑ k, yr p k ^ 2 : ℝ) : EReal) := fun p =>
    (congrFun (hostAfter2_v39 (X4 m c)) (ix2 (0 : Fin 1) p)).trans (hostSqRow_apply _ yr hy4 p)
  have o6 := rows2 xr yr _ _ c0 c1 c2 c3
  -- after region 2: its result array holds the x–y row sums; the last stretch combines the three means
  have e40 : (X6 (F := Ideal) m c (Proc.devRef .tc main_v40) : (⟨S8192x1, .f32⟩ : BufTy).Contents (Elt Ideal)) = O6 m c := Function.update_self ..
  have m28' : ∀ i, (X6 (F := Ideal) m c (Proc.devRef .tc main_v28) : (⟨S_, .f32⟩ : BufTy).Contents (Elt Ideal)) i
      = ((Cert.MmdSpec.gaussSum xr xr 256 / 67108864 : ℝ) : EReal) + ((Cert.MmdSpec.gaussSum yr yr 256 / 67108864 : ℝ) : EReal) := fun i =>
    (congrFun (Function.update_of_ne (StableHlo.devRef_ne_of_ne (by decide)) _ _) i).trans (m28 i)
  have m42 : ∀ i, hostMean (X6 (F := Ideal) m c (Proc.devRef .tc main_v40)) i
      = ((Cert.MmdSpec.gaussSum xr yr 256 / 67108864 : ℝ) : EReal) := fun i =>
    (congrFun (congrArg hostMean e40) i).trans <| (hostMean_apply (O6 m c) _ o6 i).trans
      (congrArg (fun t : ℝ => ((t / 67108864 : ℝ) : EReal)) (Cert.KernelHostAlg.pairSum_eq xr yr))
  funext i
  exact (congrFun (hostAfter3_v46 (X6 m c)) i).trans (hostFinal_apply _ _ _ _ _ m28' m42 i)

end Cert.KernelIdeal.Gen

end
-- ==== Proof.RefSide.lean ====
/-
  The reference side of the value claim: on real samples, the reference program's result at the extended reals is
  the real maximum mean discrepancy sqrt(mean k(x, x) + mean k(y, y) - 2 · mean k(x, y)), k(u, v) = exp(-|u - v|² / 256).

  Each of the three means is computed the same way from two samples a, b: the row sums of squares |aᵢ|² and |bⱼ|², the
  products aᵢ·bⱼ, the squared distance as |aᵢ|² + |bⱼ|² - 2 aᵢ·bⱼ clamped below at 0, the exponential of
  (-1/2 · that) / 128, the sum over all 2²⁶ pairs, divided by 2²⁶. On real rows |aᵢ|² + |bⱼ|² - 2 aᵢ·bⱼ = |aᵢ - bⱼ|² ≥ 0,
  so the clamp is the identity and (-1/2 · s) / 128 = -s / 256: every pair contributes exp(-|aᵢ - bⱼ|² / 256), and every
  quantity is a real number. The squared discrepancy is nonnegative, so the final square root is the real one.
-/
import proofs.«170219_j46866683134277_2_alg».proof.Proof.Gen.ReferenceIdeal.Read
import Idealize.ShloMosaic.Lib.ValueIdx
import Idealize.ShloMosaic.Lib.Pipeline.Value
import Idealize.ShloMosaic.PureOps.Ideal.Laws
import proofs.«170219_j46866683134277_2_alg».proof.Proof.Spec

noncomputable section

namespace Cert.ReferenceIdeal.RefValue

open Idealize.ShloMosaic Cert.ReferenceIdeal Cert.ReferenceIdeal.Read
open scoped BigOperators

/-! ## The constants the reference spells, as extended reals -/

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_2p26 : Ideal.ofBits .f32 0x4C800000#32 = ((67108864 : ℝ) : EReal) := by
  simp [Ideal.ofBits, Ideal.ieee, -EReal.coe_mul]; norm_num

/-! ## Real numbers inside the extended reals -/

/-- The inclusion of the reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The expansion |u|² + |v|² - 2 u·v = |u - v|². -/
theorem sq_dist_expand (u v : Fin 256 → ℝ) :
    (∑ k, u k * u k + ∑ k, v k * v k) - 2 * ∑ k, u k * v k = ∑ k, (u k - v k) ^ 2 := by
  rw [Finset.mul_sum, ← Finset.sum_add_distrib, ← Finset.sum_sub_distrib]
  exact Finset.sum_congr rfl fun k _ => by ring

/-- One pair's kernel value as the reference computes it from the two rows. -/
def kernE (u v : Fin 256 → EReal) : EReal :=
  Ideal.exp (Ideal.div (Ideal.ofBits .f32 0xBF000000#32 *
    max (((Ideal.ofBits .f32 0x00000000#32 + ∑ k, u k * u k) + (Ideal.ofBits .f32 0x00000000#32 + ∑ k, v k * v k))
      - Ideal.ofBits .f32 0x40000000#32 * ∑ k, u k * v k) (Ideal.ofBits .f32 0x00000000#32))
    (Ideal.ofBits .f32 0x43000000#32))

/-- On real rows it is the Gaussian kernel exp(-|u - v|² / 256). -/
theorem kernE_coe (u v : Fin 256 → ℝ) :
    kernE (fun k => ((u k : ℝ) : EReal)) (fun k => ((v k : ℝ) : EReal))
      = ((Real.exp (-(∑ k, (u k - v k) ^ 2) / 256) : ℝ) : EReal) := by
  unfold kernE
  rw [Ideal.ofBits_zero_f32, ofBits_two, ofBits_neg_half, ofBits_128]
  simp only [zero_add, ← EReal.coe_mul, ← coe_sum, ← EReal.coe_add, ← EReal.coe_sub]
  rw [sq_dist_expand]
  have h0 : (0 : EReal) ≤ ((∑ k, (u k - v k) ^ 2 : ℝ) : EReal) :=
    EReal.coe_nonneg.mpr (Finset.sum_nonneg fun k _ => sq_nonneg _)
  rw [max_eq_left h0, Ideal.div_coe (by norm_num : (128 : ℝ) ≠ 0), ← EReal.coe_mul, ← EReal.coe_mul, Ideal.exp_coe]
  congr 2
  ring

/-- The exponential stage of the xx mean at the pair (p, q) is the kernel value of the two rows. -/
theorem elem_xx (x : (⟨S8192x256, .f32⟩ : BufTy).Contents (Elt Ideal)) (p q : Fin 8192) :
    val_main_v19 (F := Ideal) x (ValueIdx.ix2 p q)
      = kernE (fun k => x (ValueIdx.ix2 p k)) (fun k => x (ValueIdx.ix2 q k)) := by
  have hA : ∀ k : Fin 256, idx_main_v1 (idx_main_v4 (idx_main_v6 (ValueIdx.ix2 p q))) k = ValueIdx.ix2 p k :=
    fun k => funext fun a => by match a with | ⟨0, _⟩ => rfl | ⟨1, _⟩ => rfl
  have hB : ∀ k : Fin 256, idx_main_v3 (idx_main_v5 (idx_main_v7 (ValueIdx.ix2 p q))) k = ValueIdx.ix2 q k :=
    fun k => funext fun a => by match a with | ⟨0, _⟩ => rfl | ⟨1, _⟩ => rfl
  have hL : ∀ k : Fin 256, lidx_main_v9 (ValueIdx.ix2 p q) k = ValueIdx.ix2 p k :=
    fun k => funext fun a => by match a with | ⟨0, _⟩ => rfl | ⟨1, _⟩ => rfl
  have hR : ∀ k : Fin 256, ridx_main_v9 (ValueIdx.ix2 p q) k = ValueIdx.ix2 q k :=
    fun k => funext fun a => by match a with | ⟨0, _⟩ => rfl | ⟨1, _⟩ => rfl
  simp only [val_main_v19_apply, val_main_v18_apply, val_main_v16_apply, val_main_v15_apply, val_main_v14_apply, val_main_v13_apply, val_main_v12_apply, val_main_v8_apply, val_main_v6_apply, val_main_v4_apply, val_main_v1_apply, val_main_v7_apply, val_main_v5_apply, val_main_v3_apply, val_main_v11_apply, val_main_v10_apply, val_main_v9_apply, val_main_v17_apply, val_main_v0_apply, val_main_v2_apply, val_main_cst_apply, val_main_cst_0_apply, val_main_cst_1_apply, val_main_cst_2_apply, val_main_cst_3_apply, val_main_cst_4_apply]
  simp only [hA, hB, hL, hR]
  rfl

/-- The exponential stage of the yy mean at the pair (p, q) is the kernel value of the two rows. -/
theorem elem_yy (y : (⟨S8192x256, .f32⟩ : BufTy).Contents (Elt Ideal)) (p q : Fin 8192) :
    val_main_v41 (F := Ideal) y (ValueIdx.ix2 p q)
      = kernE (fun k => y (ValueIdx.ix2 p k)) (fun k => y (ValueIdx.ix2 q k)) := by
  have hA : ∀ k : Fin 256, idx_main_v23 (idx_main_v26 (idx_main_v28 (ValueIdx.ix2 p q))) k = ValueIdx.ix2 p k :=
    fun k => funext fun a => by match a with | ⟨0, _⟩ => rfl | ⟨1, _⟩ => rfl
  have hB : ∀ k : Fin 256, idx_main_v25 (idx_main_v27 (idx_main_v29 (ValueIdx.ix2 p q))) k = ValueIdx.ix2 q k :=
    fun k => funext fun a => by match a with | ⟨0, _⟩ => rfl | ⟨1, _⟩ => rfl
  have hL : ∀ k : Fin 256, lidx_main_v31 (ValueIdx.ix2 p q) k = ValueIdx.ix2 p k :=
    fun k => funext fun a => by match a with | ⟨0, _⟩ => rfl | ⟨1, _⟩ => rfl
  have hR : ∀ k : Fin 256, ridx_main_v31 (ValueIdx.ix2 p q) k = ValueIdx.ix2 q k :=
    fun k => funext fun a => by match a with | ⟨0, _⟩ => rfl | ⟨1, _⟩ => rfl
  simp only [val_main_v41_apply, val_main_v40_apply, val_main_v38_apply, val_main_v37_apply, val_main_v36_apply, val_main_v35_apply, val_main_v34_apply, val_main_v30_apply, val_main_v28_apply, val_main_v26_apply, val_main_v23_apply, val_main_v29_apply, val_main_v27_apply, val_main_v25_apply, val_main_v33_apply, val_main_v32_apply, val_main_v31_apply, val_main_v39_apply, val_main_v22_apply, val_main_v24_apply, val_main_cst_7_apply, val_main_cst_8_apply, val_main_cst_9_apply, val_main_cst_10_apply, val_main_cst_11_apply, val_main_cst_12_apply]
  simp only [hA, hB, hL, hR]
  rfl

/-- The exponential stage of the xy mean at the pair (p, q) is the kernel value of the two rows. -/
theorem elem_xy (x y : (⟨S8192x256, .f32⟩ : BufTy).Contents (Elt Ideal)) (p q : Fin 8192) :
    val_main_v64 (F := Ideal) x y (ValueIdx.ix2 p q)
      = kernE (fun k => x (ValueIdx.ix2 p k)) (fun k => y (ValueIdx.ix2 q k)) := by
  have hA : ∀ k : Fin 256, idx_main_v46 (idx_main_v49 (idx_main_v51 (ValueIdx.ix2 p q))) k = ValueIdx.ix2 p k :=
    fun k => funext fun a => by match a with | ⟨0, _⟩ => rfl | ⟨1, _⟩ => rfl
  have hB : ∀ k : Fin 256, idx_main_v48 (idx_main_v50 (idx_main_v52 (ValueIdx.ix2 p q))) k = ValueIdx.ix2 q k :=
    fun k => funext fun a => by match a with | ⟨0, _⟩ => rfl | ⟨1, _⟩ => rfl
  have hL : ∀ k : Fin 256, lidx_main_v54 (ValueIdx.ix2 p q) k = ValueIdx.ix2 p k :=
    fun k => funext fun a => by match a with | ⟨0, _⟩ => rfl | ⟨1, _⟩ => rfl
  have hR : ∀ k : Fin 256, ridx_main_v54 (ValueIdx.ix2 p q) k = ValueIdx.ix2 q k :=
    fun k => funext fun a => by match a with | ⟨0, _⟩ => rfl | ⟨1, _⟩ => rfl
  simp only [val_main_v64_apply, val_main_v63_apply, val_main_v61_apply, val_main_v60_apply, val_main_v59_apply, val_main_v58_apply, val_main_v57_apply, val_main_v53_apply, val_main_v51_apply, val_main_v49_apply, val_main_v46_apply, val_main_v52_apply, val_main_v50_apply, val_main_v48_apply, val_main_v56_apply, val_main_v55_apply, val_main_v54_apply, val_main_v62_apply, val_main_v45_apply, val_main_v47_apply, val_main_cst_15_apply, val_main_cst_16_apply, val_main_cst_17_apply, val_main_cst_18_apply, val_main_cst_19_apply, val_main_cst_20_apply]
  simp only [hA, hB, hL, hR]
  rfl

/-- The xx mean is the real pair sum over 2²⁶. -/
theorem mean_xx (xr : Fin 8192 → Fin 256 → ℝ) (x : (⟨S8192x256, .f32⟩ : BufTy).Contents (Elt Ideal))
    (hx : ∀ (p : Fin 8192) (q : Fin 256), x (ValueIdx.ix2 p q) = ((xr p q : ℝ) : EReal)) (i : S_.Idx) :
    val_main_v21 (F := Ideal) x i = ((Cert.MmdSpec.gaussSum xr xr 256 / 67108864 : ℝ) : EReal) := by
  have h : ∀ p q : Fin 8192, val_main_v19 (F := Ideal) x (ValueIdx.ix2 p q)
      = ((Real.exp (-(∑ k, (xr p k - xr q k) ^ 2) / 256) : ℝ) : EReal) := by
    intro p q
    rw [elem_xx]
    simp only [hx]
    exact kernE_coe _ _
  rw [val_main_v21_apply, val_main_v20_apply, val_main_cst_5_apply, val_main_cst_6_apply, ValueIdx.sum_idx2]
  simp only [h]
  simp only [Ideal.hostDivf_def, Ideal.ofBits_def, Ideal.ofBits_zero_f32, ofBits_2p26, zero_add, ← coe_sum]
  rw [Ideal.div_coe (by norm_num : (67108864 : ℝ) ≠ 0), ← EReal.coe_mul, mul_one_div]
  rfl

/-- The yy mean is the real pair sum over 2²⁶. -/
theorem mean_yy (yr : Fin 8192 → Fin 256 → ℝ) (y : (⟨S8192x256, .f32⟩ : BufTy).Contents (Elt Ideal))
    (hy : ∀ (p : Fin 8192) (q : Fin 256), y (ValueIdx.ix2 p q) = ((yr p q : ℝ) : EReal)) (i : S_.Idx) :
    val_main_v43 (F := Ideal) y i = ((Cert.MmdSpec.gaussSum yr yr 256 / 67108864 : ℝ) : EReal) := by
  have h : ∀ p q : Fin 8192, val_main_v41 (F := Ideal) y (ValueIdx.ix2 p q)
      = ((Real.exp (-(∑ k, (yr p k - yr q k) ^ 2) / 256) : ℝ) : EReal) := by
    intro p q
    rw [elem_yy]
    simp only [hy]
    exact kernE_coe _ _
  rw [val_main_v43_apply, val_main_v42_apply, val_main_cst_13_apply, val_main_cst_14_apply, ValueIdx.sum_idx2]
  simp only [h]
  simp only [Ideal.hostDivf_def, Ideal.ofBits_def, Ideal.ofBits_zero_f32, ofBits_2p26, zero_add, ← coe_sum]
  rw [Ideal.div_coe (by norm_num : (67108864 : ℝ) ≠ 0), ← EReal.coe_mul, mul_one_div]
  rfl

/-- The xy mean is the real pair sum over 2²⁶. -/
theorem mean_xy (xr : Fin 8192 → Fin 256 → ℝ) (yr : Fin 8192 → Fin 256 → ℝ) (x y : (⟨S8192x256, .f32⟩ : BufTy).Contents (Elt Ideal))
    (hx : ∀ (p : Fin 8192) (q : Fin 256), x (ValueIdx.ix2 p q) = ((xr p q : ℝ) : EReal))
    (hy : ∀ (p : Fin 8192) (q : Fin 256), y (ValueIdx.ix2 p q) = ((yr p q : ℝ) : EReal)) (i : S_.Idx) :
    val_main_v66 (F := Ideal) x y i = ((Cert.MmdSpec.gaussSum xr yr 256 / 67108864 : ℝ) : EReal) := by
  have h : ∀ p q : Fin 8192, val_main_v64 (F := Ideal) x y (ValueIdx.ix2 p q)
      = ((Real.exp (-(∑ k, (xr p k - yr q k) ^ 2) / 256) : ℝ) : EReal) := by
    intro p q
    rw [elem_xy]
    simp only [hx, hy]
    exact kernE_coe _ _
  rw [val_main_v66_apply, val_main_v65_apply, val_main_cst_21_apply, val_main_cst_22_apply, ValueIdx.sum_idx2]
  simp only [h]
  simp only [Ideal.hostDivf_def, Ideal.ofBits_def, Ideal.ofBits_zero_f32, ofBits_2p26, zero_add, ← coe_sum]
  rw [Ideal.div_coe (by norm_num : (67108864 : ℝ) ≠ 0), ← EReal.coe_mul, mul_one_div]
  rfl

/-- The reference's result on real samples is the real maximum mean discrepancy. -/
theorem ref_value (xr yr : Fin 8192 → Fin 256 → ℝ)
    (x y : (⟨Cert.ReferenceIdeal.S8192x256, .f32⟩ : BufTy).Contents (Elt Ideal))
    (hx : ∀ (p : Fin 8192) (q : Fin 256), x (ValueIdx.ix2 p q) = ((xr p q : ℝ) : EReal))
    (hy : ∀ (p : Fin 8192) (q : Fin 256), y (ValueIdx.ix2 p q) = ((yr p q : ℝ) : EReal)) :
    Cert.ReferenceIdeal.Read.val_main_v69 (F := Ideal) x y = fun _ => ((Cert.MmdSpec.result xr yr : ℝ) : EReal) := by
  funext i
  rw [val_main_v69_apply, val_main_v68_apply, val_main_v44_apply, val_main_v67_apply, val_main_cst_23_apply,
    mean_xx xr x hx, mean_yy yr y hy, mean_xy xr yr x y hx hy]
  simp only [Ideal.hostUnary_sqrt_def, Ideal.subf_def, Ideal.addf_def, Ideal.mulf_def, Ideal.ofBits_def, ofBits_two,
    ← EReal.coe_mul, ← EReal.coe_add, ← EReal.coe_sub]
  change Ideal.sqrt ((Cert.MmdSpec.mmdR xr yr : ℝ) : EReal) = _
  rw [Ideal.sqrt_coe, if_neg (not_lt.mpr (Cert.MmdSpec.mmdR_nonneg xr yr))]
  rfl

/-- info: 'Cert.ReferenceIdeal.RefValue.ref_value' depends on axioms: [propext, Classical.choice, Quot.sound] -/
#guard_msgs in
#print axioms ref_value

end Cert.ReferenceIdeal.RefValue

end
-- ==== Proof.FiniteInputs.lean ====
/-
  From the printed precondition "every float input is finite" to real witnesses: at the ideal
  instance a float is an extended real, the precondition says |v| < +∞ for every entry v of the
  two input arrays, and an extended real whose absolute value is below +∞ is a real number.
-/
import proofs.«170219_j46866683134277_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx
open Cert.Pre_finite_inputs.Gen

/-- The scalar shape has one index. -/
instance subsingleton_scalar_idx : Subsingleton Cert.Pre_finite_inputs.S_.Idx :=
  ⟨fun a b => funext fun d => d.elim0⟩

/-- The word 0x7F800000 denotes +∞. -/
theorem ofBits_pinf : Ideal.ofBits .f32 0x7F800000#32 = (⊤ : EReal) := by
  simp [Ideal.ofBits, Ideal.ieee]

/-- An extended real whose absolute value max v (−v) is below +∞ is a real. -/
theorem real_of_abs_lt_top (v : EReal) (h : max v (-v) < ⊤) : ∃ r : ℝ, v = (r : EReal) := by
  induction v using EReal.rec with
  | bot => simp at h
  | coe r => exact ⟨r, rfl⟩
  | top => simp at h

/-- The strict comparison |v| < +∞ coming out as the word 1 makes v a real. -/
theorem real_of_cmp (v : EReal)
    (h : Ideal.cmp .olt (max v (-v)) (Ideal.ofBits .f32 0x7F800000#32) = 1#1) :
    ∃ r : ℝ, v = (r : EReal) := by
  rw [ofBits_pinf] at h
  refine real_of_abs_lt_top v ?_
  by_contra hn
  simp [Ideal.cmp, hn] at h

open Idealize.ShloMosaic Idealize.ShloMosaic.ValueIdx in
theorem real_of_pre (x y : FVec Ideal Cert.Pre_finite_inputs.S8192x256 .f32)
    (h : Cert.Pre_finite_inputs.fn (F := Ideal) x y = fun _ => 1#1) :
    ∃ xr yr : Fin 8192 → Fin 256 → ℝ,
      (∀ (p : Fin 8192) (q : Fin 256), x (ix2 p q) = ((xr p q : ℝ) : EReal)) ∧
      (∀ (p : Fin 8192) (q : Fin 256), y (ix2 p q) = ((yr p q : ℝ) : EReal)) := by
  have h0 := congrFun h ix0
  dsimp only [Cert.Pre_finite_inputs.fn] at h0
  obtain ⟨hx, hy⟩ := IntOp.andi_eq_one.1 h0
  have ex : ∀ i, ∃ r : ℝ, x i = (r : EReal) := fun i =>
    real_of_cmp (x i) (Host.reduce_andi_all _ _ _ _ _ hx i)
  have ey : ∀ i, ∃ r : ℝ, y i = (r : EReal) := fun i =>
    real_of_cmp (y i) (Host.reduce_andi_all _ _ _ _ _ hy i)
  choose xr hxr using ex
  choose yr hyr using ey
  exact ⟨fun p q => xr (ix2 p q), fun p q => yr (ix2 p q), fun p q => hxr _, fun p q => hyr _⟩

end Cert.FiniteInputs

end

/-- info: 'Cert.FiniteInputs.real_of_pre' depends on axioms: [propext, Classical.choice, Quot.sound] -/
#guard_msgs in #print axioms Cert.FiniteInputs.real_of_pre
-- ==== Proof.lean ====
/-
  The certificate of a Gaussian-kernel maximum mean discrepancy: a kernel program against its jnp reference, as
  functions of two samples x, y : f32[8192, 256] on the extended reals.

  THE MATHEMATICS. With k(u, v) = exp(-|u - v|² / 256) both programs return
      sqrt( mean k(x, x) + mean k(y, y) - 2 · mean k(x, y) ),
  each mean a sum over all 8192² pairs divided by 2²⁶.
  The reference forms the full 8192 × 8192 matrices: the squared distance as |a|² + |b|² - 2⟨a, b⟩, clamped below
  at 0, times -1/2, divided by 128, exponentiated, summed over both axes, divided by 2²⁶.
  The kernel program prepares s = -|a|²/256 and t = -|b|²/256 on the host and runs, per pair of samples, one
  pallas_call on an 8 × 8 grid of 1024 × 1024 tiles: a tile's entries are exp(min(s_r + t_c + ⟨a_r, b_c⟩/128, 0)),
  its row sums are accumulated over the 8 column tiles into the result block of the row tile (zeroed at the first
  column tile); the host sums the 8192 row totals, divides by 2²⁶, combines the three means, clamps the
  combination below at 0 and takes the square root.
  On finite inputs every intermediate value is a real number. The exponent agrees: s_r + t_c + ⟨a_r, b_c⟩/128
  = -|a_r - b_c|²/256 ≤ 0, so neither clamp (the reference's max with 0 on the distance, the kernel's min with 0
  on the exponent) changes anything; the sums differ only in grouping. The one place the programs differ in form
  is the kernel's final clamp max(·, 0) before the square root, which the reference does not have: it changes
  nothing because the discrepancy is nonnegative — the Gaussian kernel is positive semidefinite, its Gram sum with
  weights +1 on x and -1 on y is ‖μ_x - μ_y‖² in the kernel's feature space (Spec.lean, LibGaussGram.lean). So both
  results are the real number sqrt(mmdR x y), and finiteness of the inputs (the precondition) is used to make
  every entry a real.

  THE PARTS. The frames of the two kernel programs (they terminate, fault nowhere, leave the arguments unchanged)
  and the value of the idealized one are read off one run of @main as a chain of segments — four stretches of
  host operations and the three kernel regions (Kernel*Main.lean over Kernel*Regs.lean, Kernel*Body{0,1,2}.lean);
  what each region leaves in its result array is read as row sums of reals (KernelRegionRows*.lean), the host
  stretches and the algebra in KernelHostValue.lean; the reference's run is its generated run with each
  operation read at an index (RefSide.lean); the real witnesses come from the precondition (FiniteInputs.lean).
  The idealization rewrote no operation, so the preservation claim is trivial.
-/
import proofs.«170219_j46866683134277_2_alg».proof.Defs
import proofs.«170219_j46866683134277_2_alg».proof.Proof.Gen.Kernel
import proofs.«170219_j46866683134277_2_alg».proof.Proof.Gen.KernelIdeal
import proofs.«170219_j46866683134277_2_alg».proof.Proof.Gen.ReferenceIdeal
import proofs.«170219_j46866683134277_2_alg».proof.Proof.Gen.Pre_finite_inputs
import proofs.«170219_j46866683134277_2_alg».proof.Proof.KernelMain
import proofs.«170219_j46866683134277_2_alg».proof.Proof.KernelIdealMain
import proofs.«170219_j46866683134277_2_alg».proof.Proof.KernelRegionRows0
import proofs.«170219_j46866683134277_2_alg».proof.Proof.KernelRegionRows1
import proofs.«170219_j46866683134277_2_alg».proof.Proof.KernelRegionRows2
import proofs.«170219_j46866683134277_2_alg».proof.Proof.KernelHostValue
import proofs.«170219_j46866683134277_2_alg».proof.Proof.RefSide
import proofs.«170219_j46866683134277_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs both idealized programs end with the real number sqrt(mmdR x y) in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hw : ∀ c : Dev Cert.KernelIdeal.nD, ∃ xr yr : Fin 8192 → Fin 256 → ℝ,
      (∀ (p : Fin 8192) (q : Fin 256), m ((c.tc : Thread Cert.KernelIdeal.nD Cert.KernelIdeal.τ).loc Cert.KernelIdeal.main_arg0) (ValueIdx.ix2 p q) = ((xr p q : ℝ) : EReal)) ∧
      (∀ (p : Fin 8192) (q : Fin 256), m ((c.tc : Thread Cert.KernelIdeal.nD Cert.KernelIdeal.τ).loc Cert.KernelIdeal.main_arg1) (ValueIdx.ix2 p q) = ((yr p q : ℝ) : EReal)) :=
    fun c => Cert.FiniteInputs.real_of_pre _ _ (hpre c)
  choose xr yr hx hy using hw
  refine ⟨fun c => fun _ => ((Cert.MmdSpec.result (xr c) (yr c) : ℝ) : EReal), ?_, ?_⟩
  · refine (θ_run Cert.KernelIdeal.defs _ _).mono (fun _ h c => ⟨(h c).1.trans ?_, (h c).2⟩)
      (Cert.KernelIdeal.Gen.run_value (F := Ideal) m ρ)
    exact Cert.KernelIdeal.Gen.kernel_value (xr c) (yr c) m c (hx c) (hy c)
      (Cert.KernelIdeal.Gen.region0_rows (Cert.KernelIdeal.Gen.T1 m) c)
      (Cert.KernelIdeal.Gen.region1_rows (Cert.KernelIdeal.Gen.T3 m) c)
      (Cert.KernelIdeal.Gen.region2_rows (Cert.KernelIdeal.Gen.T5 m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, (hagree c).1, (hagree c).2]
    exact Cert.ReferenceIdeal.RefValue.ref_value (xr c) (yr c) _ _ (hx c) (hy c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
